-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x21x128 : Shape := ⟨3, ![128, 21, 128]⟩
abbrev S256x128 : Shape := ⟨2, ![256, 128]⟩
abbrev S128 : Shape := ⟨1, ![128]⟩
abbrev S128x100000 : Shape := ⟨2, ![128, 100000]⟩
abbrev S100000 : Shape := ⟨1, ![100000]⟩
abbrev S_ : Shape := ⟨0, ![]⟩

class Facts : Prop where
  bcast_S_S128x21x128 : S_.BroadcastsInDim S128x21x128 (![] : Fin 0 → Fin S128x21x128.rank)
  reducesTo_S128x21x128_S_d0_1_2 : S128x21x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg4 : FVec F S100000 .f32) (main_v13 : IVec S_ 1) (main_v16 : IVec S128x100000 1) : IVec S_ 1 :=
  let main_c_5 : IVec S_ 1 := constantI S_ 1 1#1
  let main_v17 : IVec S_ 1 := (fun x v => Host.reduce IntOp.andi x v reducesTo_S128x100000_S_d0_1 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  main_v23

def fn {F : FTy → Type} [FloatOps F] (main_arg0 : FVec F S128x21x128 .f32) (main_arg1 : FVec F S256x128 .f32) (main_arg2 : FVec F S128 .f32) (main_arg3 : FVec F S128x100000 .f32) (main_arg4 : FVec F S100000 .f32) : IVec S_ 1 :=
  let main_v0 : FVec F S128x21x128 .f32 := Host.absf main_arg0
  let main_cst : FVec F S_ .f32 := constant S_ .f32 0x7F800000#32
  let main_v1 : FVec F S128x21x128 .f32 := broadcastInDim S128x21x128 ![] bcast_S_S128x21x128 main_cst
  let main_v2 : IVec S128x21x128 1 := cmpf .olt main_v0 main_v1
  let main_c : IVec S_ 1 := constantI S_ 1 1#1
  let main_v3 : IVec S_ 1 := (fun x v => Host.reduce IntOp.andi x v reducesTo_S128x21x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x100000 .f32 := Host.absf main_arg3
  let main_cst_4 : FVec F S_ .f32 := constant S_ .f32 0x7F800000#32
  let main_v15 : FVec F S128x100000 .f32 := broadcastInDim S128x100000 ![] bcast_S_S128x100000 main_cst_4
  let main_v16 : IVec S128x100000 1 := cmpf .olt main_v14 main_v15
  fn_part1 (F := F) main_arg4 main_v13 main_v16
-- ==== Kernel.lean ====
abbrev S128x21x128 : Shape := ⟨3, ![128, 21, 128]⟩
abbrev S256x128 : Shape := ⟨2, ![256, 128]⟩
abbrev S128 : Shape := ⟨1, ![128]⟩
abbrev S128x100000 : Shape := ⟨2, ![128, 100000]⟩
abbrev S100000 : Shape := ⟨1, ![100000]⟩
abbrev S21x128x128 : Shape := ⟨3, ![21, 128, 128]⟩
abbrev S100000x128 : Shape := ⟨2, ![100000, 128]⟩
abbrev S1x128 : Shape := ⟨2, ![1, 128]⟩
abbrev S25x4000 : Shape := ⟨2, ![25, 4000]⟩
abbrev S4000x25 : Shape := ⟨2, ![4000, 25]⟩
abbrev S4000x128 : Shape := ⟨2, ![4000, 128]⟩
abbrev S128x128 : Shape := ⟨2, ![128, 128]⟩
abbrev S32x128 : Shape := ⟨2, ![32, 128]⟩
abbrev S20x128x128 : Shape := ⟨3, ![20, 128, 128]⟩
abbrev S1x128x128 : Shape := ⟨3, ![1, 128, 128]⟩
abbrev S128x256 : Shape := ⟨2, ![128, 256]⟩
abbrev S25x1 : Shape := ⟨2, ![25, 1]⟩
abbrev S4000x1 : Shape := ⟨2, ![4000, 1]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S128x21x128, .f32⟩
  | .hbm, ⟨1, _⟩ => ⟨S256x128, .f32⟩
  | .hbm, ⟨2, _⟩ => ⟨S128, .f32⟩
  | .hbm, ⟨3, _⟩ => ⟨S128x100000, .f32⟩
  | .hbm, ⟨4, _⟩ => ⟨S100000, .f32⟩
  | .hbm, ⟨5, _⟩ => ⟨S21x128x128, .f32⟩
  | .hbm, ⟨6, _⟩ => ⟨S100000x128, .f32⟩
  | .hbm, ⟨7, _⟩ => ⟨S1x128, .f32⟩
  | .hbm, ⟨8, _⟩ => ⟨S25x4000, .f32⟩
  | .hbm, ⟨9, _⟩ => ⟨S4000x25, .f32⟩
  | .hbm, ⟨10, _⟩ => ⟨S100000x128, .f32⟩
  | .hbm, ⟨11, _⟩ => ⟨S128x100000, .f32⟩
  | .local _ .vmem, ⟨0, _⟩ => ⟨S21x128x128, .f32⟩
  | .local _ .vmem, ⟨1, _⟩ => ⟨S256x128, .f32⟩
  | .local _ .vmem, ⟨2, _⟩ => ⟨S1x128, .f32⟩
  | .local _ .vmem, ⟨3, _⟩ => ⟨S4000x128, .f32⟩
  | .local _ .vmem, ⟨4, _⟩ => ⟨S4000x128, .f32⟩
  | .local _ .vmem, ⟨5, _⟩ => ⟨S4000x25, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S100000x128, .f32⟩
  | .local _ .vmem, ⟨10, _⟩ => ⟨S32x128, .f32⟩
  | .local _ .vmem, ⟨11, _⟩ => ⟨S1x128, .f32⟩
  | .local _ .vmem, ⟨12, _⟩ => ⟨S1x128, .f32⟩
  | _, _ => ⟨S128x21x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c4000_i32 : BitVec 32 := 4000#32
  let v30 : BitVec 32 := Scalar.muli arg0 c4000_i32
  let v31 : Index := Scalar.indexCast v30
  let c0_13 : Index := 0#32
  ![v31.toNat, 0]
def k0_off2 (i : grid0.Coords) : Fin 2 → Nat :=
  let arg0 : BitVec 32 := BitVec.ofNat 32 (i 0).val
  let v35 : Index := Scalar.indexCast arg0
  let c0_14 : Index := 0#32
  ![v35.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let arg0 : BitVec 32 := BitVec.ofNat 32 (i 0).val
  let c25_i32_4 : BitVec 32 := 25#32
  let v9 : BitVec 32 := Scalar.subi arg0 c25_i32_4
  let v10 : Index := Scalar.indexCast v9
  let c0 : Index := 0#32
  ![v10.toNat, 0]
def k0_off4 (i : grid0.Coords) : Fin 2 → Nat :=
  let arg0 : BitVec 32 := BitVec.ofNat 32 (i 0).val
  let c25_i32_4 : BitVec 32 := 25#32
  let v9 : BitVec 32 := Scalar.subi arg0 c25_i32_4
  let c4000_i32 : BitVec 32 := 4000#32
  let v17 : BitVec 32 := Scalar.muli v9 c4000_i32
  let v18 : Index := Scalar.indexCast v17
  let c0_9 : Index := 0#32
  ![v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S21x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4000x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x21x128_S21x128x128_1_0_2 : S128x21x128.Transposes [1, 0, 2] S21x128x128
  transposes_S128x100000_S100000x128_1_0 : S128x100000.Transposes [1, 0] S100000x128
  shapeCasts_S128_S1x128 : S128.ShapeCasts S1x128
  shapeCasts_S100000_S25x4000 : S100000.ShapeCasts S25x4000
  transposes_S25x4000_S4000x25_1_0 : S25x4000.Transposes [1, 0] S4000x25
  transposes_S100000x128_S128x100000_1_0 : S100000x128.Transposes [1, 0] S128x100000
  inb_S21x128x128_S20x128x128_0_0_0 : ∀ a, (![0, 0, 0] : Fin 3 → Nat) a + S20x128x128.size a ≤ S21x128x128.size a
  h_S20x128x128 : 0 < S20x128x128.numel
  shapeCasts_S20x128x128_S20x128x128 : S20x128x128.ShapeCasts S20x128x128
  reduces_S20x128x128_S128x128 : S20x128x128.Reduces [0] S128x128
  inb_S21x128x128_S1x128x128_20_0_0 : ∀ a, (![20, 0, 0] : Fin 3 → Nat) a + S1x128x128.size a ≤ S21x128x128.size a
  h_S1x128x128 : 0 < S1x128x128.numel
  shapeCasts_S1x128x128_S128x128 : S1x128x128.ShapeCasts S128x128
  concatenates_S128x128_S128x128_S128x256_d1 : Shape.Concatenates [S128x128, S128x128] S128x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S25x1_d0_w32 : S25x1.Iotas .tc 32 [0]
  natLt_1_32 : 1 < 32
  inb_S4000x25_S4000x25_0_0 : ∀ a, (![0, 0] : Fin 2 → Nat) a + S4000x25.size a ≤ S4000x25.size a
  h_S4000x25 : 0 < S4000x25.numel
  shapeCasts_S4000x25_S4000x25 : S4000x25.ShapeCasts S4000x25
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  reduces_S4000x128_S128 : S4000x128.Reduces [0] S128
  broadcasts_S1x128_S4000x128 : S1x128.Broadcasts S4000x128
  shapeCasts_S128x1_S1x128 : S128x1.ShapeCasts S1x128
  dot_S128x256_S256x128_S128x128_1_0_0_1_n_n_wf : DotDims.WF S128x256 S256x128 S128x128 [1] [0] [0] [1] [] []
  dot_S4000x25_S25x1_S4000x1_1_0_0_1_n_n_wf : DotDims.WF S4000x25 S25x1 S4000x1 [1] [0] [0] [1] [] []
  dot_S4000x128_S128x128_S4000x128_1_1_0_0_n_n_wf : DotDims.WF S4000x128 S128x128 S4000x128 [1] [1] [0] [0] [] []
  dot_S4000x128_S4000x1_S128x1_0_0_1_1_n_n_wf : DotDims.WF S4000x128 S4000x1 S128x1 [0] [0] [1] [1] [] []
  hrank0 : 0 < grid0.rank
  k0_off1_inb : ∀ i : grid0.Coords, ∀ (k0_h2 : k0_cond2 i = 1#1), ∀ a, (k0_off1 i) a + S4000x128.size a ≤ S100000x128.size a
  k0_off2_inb : ∀ i : grid0.Coords, ∀ (k0_h2 : k0_cond2 i = 1#1), ∀ a, (k0_off2 i) a + S1x128.size a ≤ S32x128.size a
  k0_off3_inb : ∀ i : grid0.Coords, ∀ (k0_h3 : k0_cond3 i = 1#1), ∀ a, (k0_off3 i) a + S1x128.size a ≤ S32x128.size a
  k0_off4_inb : ∀ i : grid0.Coords, ∀ (k0_h3 : k0_cond3 i = 1#1), ∀ a, (k0_off4 i) a + S4000x128.size a ≤ S100000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S21x128x128.size a ≤ S21x128x128.size a
  hwx0_0 : ∀ i : grid0.Coords, EltTy.bits .f32 = 32 ∨ (Rect.block (s := S21x128x128) S21x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4000x25.size a ≤ S4000x25.size a
  hwx0_4 : ∀ i : grid0.Coords, EltTy.bits .f32 = 32 ∨ (Rect.block (s := S4000x25) S4000x25.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S4000x25_S25x1_S4000x1_1_0_0_1_n_n : DotDims S4000x25 S25x1 S4000x1 where
  lhsContracting := [1]
  rhsContracting := [0]
  lhsNonContracting := [0]
  rhsNonContracting := [1]
  lhsBatch := []
  rhsBatch := []
  wf := dot_S4000x25_S25x1_S4000x1_1_0_0_1_n_n_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def dot_S4000x128_S4000x1_S128x1_0_0_1_1_n_n : DotDims S4000x128 S4000x1 S128x1 where
  lhsContracting := [0]
  rhsContracting := [0]
  lhsNonContracting := [1]
  rhsNonContracting := [1]
  lhsBatch := []
  rhsBatch := []
  wf := dot_S4000x128_S4000x1_S128x1_0_0_1_1_n_n_wf

abbrev win0_0 : Pipeline.Window sig grid0 :=
  Pipeline.Window.ofSpec (Memref.whole main_call0_v0) S21x128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S4000x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S128x21x128 : Shape := ⟨3, ![128, 21, 128]⟩
abbrev S256x128 : Shape := ⟨2, ![256, 128]⟩
abbrev S128 : Shape := ⟨1, ![128]⟩
abbrev S128x100000 : Shape := ⟨2, ![128, 100000]⟩
abbrev S100000 : Shape := ⟨1, ![100000]⟩
abbrev S128x20x128 : Shape := ⟨3, ![128, 20, 128]⟩
abbrev S128x1x128 : Shape := ⟨3, ![128, 1, 128]⟩
abbrev S128x128 : Shape := ⟨2, ![128, 128]⟩
abbrev S_ : Shape := ⟨0, ![]⟩
abbrev S128x256 : Shape := ⟨2, ![128, 256]⟩
abbrev S1x128 : Shape := ⟨2, ![1, 128]⟩
abbrev S1x100000 : Shape := ⟨2, ![1, 100000]⟩
abbrev S128x1 : Shape := ⟨2, ![128, 1]⟩

abbrev nBuf : Space → Nat
  | .hbm => 39
  | .vmem => 0
  | .smem => 0
  | _ => 0

abbrev bufTy : (tb : Table) → Fin (tcTables nBuf tb) → BufTy
  | .hbm, ⟨0, _⟩ => ⟨S128x21x128, .f32⟩
  | .hbm, ⟨1, _⟩ => ⟨S256x128, .f32⟩
  | .hbm, ⟨2, _⟩ => ⟨S128, .f32⟩
  | .hbm, ⟨3, _⟩ => ⟨S128x100000, .f32⟩
  | .hbm, ⟨4, _⟩ => ⟨S100000, .f32⟩
  | .hbm, ⟨5, _⟩ => ⟨S128x20x128, .f32⟩
  | .hbm, ⟨6, _⟩ => ⟨S128x1x128, .f32⟩
  | .hbm, ⟨7, _⟩ => ⟨S128x128, .f32⟩
  | .hbm, ⟨8, _⟩ => ⟨S_, .f32⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x256, .f32⟩
  | .hbm, ⟨14, _⟩ => ⟨S128x128, .f32⟩
  | .hbm, ⟨15, _⟩ => ⟨S1x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x100000, .f32⟩
  | .hbm, ⟨22, _⟩ => ⟨S1x100000, .f32⟩
  | .hbm, ⟨23, _⟩ => ⟨S128x100000, .f32⟩
  | .hbm, ⟨24, _⟩ => ⟨S128x100000, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128x1, .f32⟩
  | .hbm, ⟨31, _⟩ => ⟨S128x100000, .f32⟩
  | .hbm, ⟨32, _⟩ => ⟨S128x100000, .f32⟩
  | .hbm, ⟨33, _⟩ => ⟨S128x100000, .f32⟩
  | .hbm, ⟨34, _⟩ => ⟨S_, .f32⟩
  | .hbm, ⟨35, _⟩ => ⟨S128, .f32⟩
  | .hbm, ⟨36, _⟩ => ⟨S128x1, .f32⟩
  | .hbm, ⟨37, _⟩ => ⟨S128x100000, .f32⟩
  | .hbm, ⟨38, _⟩ => ⟨S128x100000, .f32⟩
  | _, _ => ⟨S128x21x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  slices_S128x21x128_S128x20x128_0_0_0 : S128x21x128.Slices ![0, 0, 0] S128x20x128
  slices_S128x21x128_S128x1x128_0_20_0 : S128x21x128.Slices ![0, 20, 0] S128x1x128
  shapeCasts_S128x1x128_S128x128 : S128x1x128.ShapeCasts S128x128
  reducesTo_S128x20x128_S128x128_d1 : S128x20x128.ReducesTo [1] S128x128
  h_S_ : 0 < S_.numel
  bcast_S_S128x128 : S_.BroadcastsInDim S128x128 (![] : Fin 0 → Fin S128x128.rank)
  concatenates_S128x128_S128x128_S128x256_d1 : Shape.Concatenates [S128x128, S128x128] S128x256 1
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S100000_S1x100000_1 : S100000.BroadcastsInDim S1x100000 (![1] : Fin 1 → Fin S1x100000.rank)
  bcast_S1x100000_S128x100000_0_1 : S1x100000.BroadcastsInDim S128x100000 (![0, 1] : Fin 2 → Fin S128x100000.rank)
  reducesTo_S128x100000_S128_d1 : S128x100000.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  dot_S128x256_S256x128_S128x128_1_0_0_1_n_n_wf : DotDims.WF S128x256 S256x128 S128x128 [1] [0] [0] [1] [] []
  dot_S128x128_S128x100000_S128x100000_1_0_0_1_n_n_wf : DotDims.WF S128x128 S128x100000 S128x100000 [1] [0] [0] [1] [] []

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x100000_S128x100000_1_0_0_1_n_n : DotDims S128x128 S128x100000 S128x100000 where
  lhsContracting := [1]
  rhsContracting := [0]
  lhsNonContracting := [0]
  rhsNonContracting := [1]
  lhsBatch := []
  rhsBatch := []
  wf := dot_S128x128_S128x100000_S128x100000_1_0_0_1_n_n_wf

class Facts : Prop extends Facts₀ where

variable [Facts]
-- ==== Proof.K.Setup.lean ====
import proofs.«150519_g40793599377725_cont_8to1_b_782_10_alg».proof.Proof.Gen.Kernel.Frame
import proofs.«150519_g40793599377725_cont_8to1_b_782_10_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

/-!
# The grid's three phases and the memrefs the body is called with

The grid has 50 points. Point 0 initialises the hidden layer and the running statistics; points 0–24 each consume one
tile of 4000 actions; points 25–49 each normalise one stored tile and write it out. The three conditions of the body are
decided over the grid here, once, and the output window is shown idle (and never written back) before point 25 and
written back at every point from 25 on.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first condition (`program_id == 0`) as its scalar chain over the grid coordinate. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)
/-- The second condition (`program_id < 25`): the points that consume a tile. -/
abbrev isAccum (i : grid0.Coords) : Prop := k0_cond2 i = 1#1
theorem isAccum_iff : ∀ t : Fin cfg0.N, isAccum (grid0.coords t) ↔ t.val < 25 :=
  (by decide +kernel : ∀ t : Fin grid0.N, isAccum (grid0.coords t) ↔ t.val < 25)
/-- The third condition (`program_id ≥ 25`): the points that normalise a tile. -/
abbrev isNorm (i : grid0.Coords) : Prop := k0_cond3 i = 1#1
theorem isNorm_iff : ∀ t : Fin cfg0.N, isNorm (grid0.coords t) ↔ 25 ≤ t.val :=
  (by decide +kernel : ∀ t : Fin grid0.N, isNorm (grid0.coords t) ↔ 25 ≤ t.val)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle exactly at the points that consume a tile, -/
theorem idle5_iff : ∀ t : Fin cfg0.N, cfg0.idle 5 (grid0.coords t) = true ↔ t.val < 25 :=
  (by decide +kernel : ∀ t : Fin grid0.N, idle0 5 (grid0.coords t) = true ↔ t.val < 25)
/-- and written back exactly at the points that normalise one. -/
theorem flush5_iff : ∀ t : Fin cfg0.N, (cfg0.win 5).flush t = true ↔ 25 ≤ t.val :=
  (by decide +kernel : ∀ t : Fin grid0.N, win0_5.flush t = true ↔ 25 ≤ t.val)
/-- The block the output window writes back at point `25 + j` is block `j`; the tile of `W2ᵀ` fetched at point `i < 25` is tile `i`. -/
theorem outIdx_iff : ∀ t : Fin cfg0.N, win0_5.index t (0 : Fin 2) = t.val - 25 ∧ win0_5.index t (1 : Fin 2) = 0 :=
  (by decide +kernel : ∀ t : Fin grid0.N, win0_5.index t (0 : Fin 2) = t.val - 25 ∧ win0_5.index t (1 : Fin 2) = 0)
theorem w2Idx_iff : ∀ t : Fin cfg0.N, win0_3.index t (0 : Fin 2) = min t.val 24 ∧ win0_3.index t (1 : Fin 2) = 0 :=
  (by decide +kernel : ∀ t : Fin grid0.N, win0_3.index t (0 : Fin 2) = min t.val 24 ∧ win0_3.index t (1 : Fin 2) = 0)

/-- Each window's current staging memref at point `t`, as the pipeline passes it, and its wholeness. -/
abbrev ms0 (t : Fin cfg0.N) : Memref sig .tc .vmem S21x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4000x25 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4000x128 .f32 := win0_5.stage (cfg0.slots t 5)
abbrev hs5 (t : Fin cfg0.N) : (ms5 t).IsWhole := hstage0_5 ((cfg0.slots t 5).cast nbuf0_5)
/-- The five scratch operands: the hidden layer, the stored exponentials, the history of running maxima, the running
    maximum and the running sum. -/
abbrev scH : Memref sig .tc .vmem S128x128 .f32 := Memref.whole cc0_scratch0
abbrev scE : Memref sig .tc .vmem S100000x128 .f32 := Memref.whole cc0_scratch1
abbrev scMH : Memref sig .tc .vmem S32x128 .f32 := Memref.whole cc0_scratch2
abbrev scM : Memref sig .tc .vmem S1x128 .f32 := Memref.whole cc0_scratch3
abbrev scS : Memref sig .tc .vmem S1x128 .f32 := Memref.whole cc0_scratch4

/-- The region's invariant before the first point: every scratch operand at some contents, the generator register at
    some state. -/
theorem PhiA_eq (c : Dev nD) :
    (Pipeline.ΦA spec0 c : sProp 𝕄)
      = iprop(iprop((∃ d, owns (c : Thread nD τ) scH fullShare d) ∗ (∃ d, owns (c : Thread nD τ) scE fullShare d) ∗ (∃ d, owns (c : Thread nD τ) scMH fullShare d) ∗ (∃ d, owns (c : Thread nD τ) scM fullShare d) ∗ (∃ d, owns (c : Thread nD τ) scS fullShare d)) ∗ (∃ r, prngReg c r)) := by
  unfold Pipeline.ΦA; rw [scopedRest0_eq]; simp only [scH, scE, scMH, scM, scS, owns_whole]; try rfl

end Cert.Kernel.Body

end
-- ==== Proof.K.RunB.lean ====
import proofs.«150519_g40793599377725_cont_8to1_b_782_10_alg».proof.Proof.K.Setup

/-!
# The body at a point that consumes a tile but is not the first (points 1–24)

The body loads the tile of `W2ᵀ`, the bias table, the hidden layer and the running statistics, and stores: the tile's
exponentials into rows `[4000 i, 4000 i + 4000)` of the big scratch, the new running maximum into row `i` of the
history, the rescaled running sum, and the new running maximum. Everything else is handed back as found.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the stores of such a point leave in the four scratch buffers it writes (newest first) — functions of the
    tile, the bias table, the hidden layer and the running statistics only — with the proof that from every buffer at
    named contents the body runs to the continuation holding the inputs, the output buffer and the hidden layer as they
    were and each written scratch at its old contents overwritten by its pieces. -/
noncomputable def runB (c : Dev nD) (i : grid0.Coords) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst i) (hc1 : isAccum i) (hc2 : ¬isNorm i)
    (x3 : Vec F S4000x128 .f32) (x4 : Vec F S4000x25 .f32) (xH : Vec F S128x128 .f32) (xM : Vec F S1x128 .f32) (xS : Vec F S1x128 .f32) :
    Σ' (LE : List (View.Piece (Elt F) S100000x128 .f32)) (LMH : List (View.Piece (Elt F) S32x128 .f32)) (LM : List (View.Piece (Elt F) S1x128 .f32)), { LS : List (View.Piece (Elt F) S1x128 .f32) //
      ∀ (x0 : Vec F S21x128x128 .f32) (x1 : Vec F S256x128 .f32) (x2 : Vec F S1x128 .f32) (x5 : Vec F S4000x128 .f32) (xE : Vec F S100000x128 .f32) (xMH : Vec F S32x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ (arg8.view.loc (c : Thread nD τ) ↦[arg8.view.set]{fullShare} arg8.view.writes (Elt F) (harg8.unread xE) LE) ∗ (arg9.view.loc (c : Thread nD τ) ↦[arg9.view.set]{fullShare} arg9.view.writes (Elt F) (harg9.unread xMH) LMH) ∗ (arg10.view.loc (c : Thread nD τ) ↦[arg10.view.set]{fullShare} arg10.view.writes (Elt F) (harg10.unread xM) LM) ∗ (arg11.view.loc (c : Thread nD τ) ↦[arg11.view.set]{fullShare} arg11.view.writes (Elt F) (harg11.unread xS) LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, fun x0 x1 x2 x5 xE xMH E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH, %hfH, HH⟩, ⟨%fE, %hfE, HE⟩, ⟨%fMH, %hfMH, HMH⟩, ⟨%fM, %hfM, HM⟩, ⟨%fS, %hfS, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfH; obtain rfl := harg8.eq_unread hfE; obtain rfl := harg9.eq_unread hfMH; obtain rfl := harg10.eq_unread hfM; obtain rfl := harg11.eq_unread hfS
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]
    · iexists _; isplitr; · ipureintro; exact harg7.read_unread _
      iexact HH
    isplitl [HE]; · iexact HE
    isplitl [HMH]; · iexact HMH
    isplitl [HM]; · iexact HM
    iexact HS

end Cert.Kernel.Body

end
-- ==== Proof.K.RunA.lean ====
import proofs.«150519_g40793599377725_cont_8to1_b_782_10_alg».proof.Proof.K.RunB

/-!
# The body at the first point

Point 0 first stores the hidden layer `max (hcat · W1 + b1) 0`, the running maximum `-∞` and the running sum `0`, and
then consumes tile 0 exactly as a later point does, reading those three back. Five scratch buffers are written.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the first point's stores leave in the five scratch buffers (newest first) — functions of the input
    blocks only — with the proof that the body runs from every buffer at named contents to the continuation holding the
    inputs and the output buffer as they were and each scratch at its old contents overwritten by its pieces. -/
noncomputable def runA (c : Dev nD) (i : grid0.Coords) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : isFirst i) (hc1 : isAccum i) (hc2 : ¬isNorm i)
    (x0 : Vec F S21x128x128 .f32) (x1 : Vec F S256x128 .f32) (x2 : Vec F S1x128 .f32) (x3 : Vec F S4000x128 .f32) (x4 : Vec F S4000x25 .f32) :
    Σ' (LH : List (View.Piece (Elt F) S128x128 .f32)) (LE : List (View.Piece (Elt F) S100000x128 .f32)) (LMH : List (View.Piece (Elt F) S32x128 .f32)) (LM : List (View.Piece (Elt F) S1x128 .f32)), { LS : List (View.Piece (Elt F) S1x128 .f32) //
      ∀ (x5 : Vec F S4000x128 .f32) (xH : Vec F S128x128 .f32) (xE : Vec F S100000x128 .f32) (xMH : Vec F S32x128 .f32) (xM : Vec F S1x128 .f32) (xS : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread xH) LH) ∗ (arg8.view.loc (c : Thread nD τ) ↦[arg8.view.set]{fullShare} arg8.view.writes (Elt F) (harg8.unread xE) LE) ∗ (arg9.view.loc (c : Thread nD τ) ↦[arg9.view.set]{fullShare} arg9.view.writes (Elt F) (harg9.unread xMH) LMH) ∗ (arg10.view.loc (c : Thread nD τ) ↦[arg10.view.set]{fullShare} arg10.view.writes (Elt F) (harg10.unread xM) LM) ∗ (arg11.view.loc (c : Thread nD τ) ↦[arg11.view.set]{fullShare} arg11.view.writes (Elt F) (harg11.unread xS) LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, ?_, fun x5 xH xE xMH xM xS E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH, %hfH, HH⟩, ⟨%fE, %hfE, HE⟩, ⟨%fMH, %hfMH, HMH⟩, ⟨%fM, %hfM, HM⟩, ⟨%fS, %hfS, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfH; obtain rfl := harg8.eq_unread hfE; obtain rfl := harg9.eq_unread hfMH; obtain rfl := harg10.eq_unread hfM; obtain rfl := harg11.eq_unread hfS
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexact HH
    isplitl [HE]; · iexact HE
    isplitl [HMH]; · iexact HMH
    isplitl [HM]; · iexact HM
    iexact HS

end Cert.Kernel.Body

end
-- ==== Proof.K.RunC.lean ====
import proofs.«150519_g40793599377725_cont_8to1_b_782_10_alg».proof.Proof.K.RunA

/-!
# The body at a point that normalises a tile (points 25–49)

The body loads row `t - 25` of the history of running maxima, the final running maximum and sum, and rows
`[4000 (t - 25), 4000 (t - 25) + 4000)` of the stored exponentials, and stores their product with the row factor
`exp (m_j - m) / s` over the whole output buffer. No scratch is written.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The piece such a point's one store leaves in the output buffer — a function of the four scratch buffers it reads —
    with the proof that the body runs from every buffer at named contents to the continuation holding everything else
    as it was. -/
noncomputable def runC (c : Dev nD) (i : grid0.Coords) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst i) (hc1 : ¬isAccum i) (hc2 : isNorm i)
    (xE : Vec F S100000x128 .f32) (xMH : Vec F S32x128 .f32) (xM : Vec F S1x128 .f32) (xS : Vec F S1x128 .f32) :
    { LO : List (View.Piece (Elt F) S4000x128 .f32) //
      ∀ (x0 : Vec F S21x128x128 .f32) (x1 : Vec F S256x128 .f32) (x2 : Vec F S1x128 .f32) (x3 : Vec F S4000x128 .f32) (x4 : Vec F S4000x25 .f32) (x5 : Vec F S4000x128 .f32) (xH : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) LO) ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x0 x1 x2 x3 x4 x5 xH E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH, %hfH, HH⟩, ⟨%fE, %hfE, HE⟩, ⟨%fMH, %hfMH, HMH⟩, ⟨%fM, %hfM, HM⟩, ⟨%fS, %hfS, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfH; obtain rfl := harg8.eq_unread hfE; obtain rfl := harg9.eq_unread hfMH; obtain rfl := harg10.eq_unread hfM; obtain rfl := harg11.eq_unread hfS
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HH]
    · iexists _; isplitr; · ipureintro; exact harg7.read_unread _
      iexact HH
    isplitl [HE]
    · iexists _; isplitr; · ipureintro; exact harg8.read_unread _
      iexact HE
    isplitl [HMH]
    · iexists _; isplitr; · ipureintro; exact harg9.read_unread _
      iexact HMH
    isplitl [HM]
    · iexists _; isplitr; · ipureintro; exact harg10.read_unread _
      iexact HM
    iexists _; isplitr; · ipureintro; exact harg11.read_unread _
    iexact HS

end Cert.Kernel.Body

end
-- ==== Proof.K.Cover.lean ====
import proofs.«150519_g40793599377725_cont_8to1_b_782_10_alg».proof.Proof.K.RunC
import Idealize.ShloMosaic.Lib.Pipeline.Value

/-!
# Which elements each point's stores cover

Each store of the body goes through a unit-stride rectangle: the whole of a small scratch buffer, the rows
`[4000 t, 4000 t + 4000)` of the stored exponentials, row `t` of the history of running maxima, or the whole output
buffer. The offsets the body computes from the grid coordinate are put in closed form over the grid, and for each case of
the body the elements its pieces cover are read off.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The row offsets the body computes, in closed form over the grid. -/
theorem off1_eq : ∀ t : Fin cfg0.N, t.val < 25 → k0_off1 (grid0.coords t) = ![4000 * t.val, 0] :=
  (by decide +kernel : ∀ t : Fin grid0.N, t.val < 25 → k0_off1 (grid0.coords t) = ![4000 * t.val, 0])
theorem off2_eq : ∀ t : Fin cfg0.N, t.val < 25 → k0_off2 (grid0.coords t) = ![t.val, 0] :=
  (by decide +kernel : ∀ t : Fin grid0.N, t.val < 25 → k0_off2 (grid0.coords t) = ![t.val, 0])
theorem off3_eq : ∀ t : Fin cfg0.N, 25 ≤ t.val → k0_off3 (grid0.coords t) = ![t.val - 25, 0] :=
  (by decide +kernel : ∀ t : Fin grid0.N, 25 ≤ t.val → k0_off3 (grid0.coords t) = ![t.val - 25, 0])
theorem off4_eq : ∀ t : Fin cfg0.N, 25 ≤ t.val → k0_off4 (grid0.coords t) = ![4000 * (t.val - 25), 0] :=
  (by decide +kernel : ∀ t : Fin grid0.N, 25 ≤ t.val → k0_off4 (grid0.coords t) = ![4000 * (t.val - 25), 0])

/-- Membership in the rows `[o, o + W)` of a two-axis buffer of `C` columns, all columns. -/
theorem mem_rows {R C W o : ℕ} (off : Fin 2 → ℕ) (inb : ∀ a, off a + (![W, C] : Fin 2 → ℕ) a ≤ (⟨2, ![R, C]⟩ : Shape).size a)
    (hoff : off = ![o, 0]) (y : (⟨2, ![R, C]⟩ : Shape).Idx) :
    y ∈ (Rect.unit (s := ⟨2, ![R, C]⟩) off ![W, C] inb).set ↔ o ≤ (y 0).val ∧ (y 0).val < o + W := by
  subst hoff
  rw [Rect.mem_set_unit]
  constructor
  · intro h; exact h 0
  · intro h a
    match a with
    | ⟨0, _⟩ => exact h
    | ⟨1, _⟩ => exact ⟨Nat.zero_le _, by show (y 1).val < 0 + C; rw [Nat.zero_add]; exact (y 1).isLt⟩

section CaseB
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst (grid0.coords t)) (hc1 : isAccum (grid0.coords t)) (hc2 : ¬isNorm (grid0.coords t))
  (x3 : Vec F S4000x128 .f32) (x4 : Vec F S4000x25 .f32) (xH : Vec F S128x128 .f32) (xM : Vec F S1x128 .f32) (xS : Vec F S1x128 .f32)

/-- A later accumulating point overwrites the running maximum and the running sum whole, -/
theorem runB_coverM (y : S1x128.Idx) : ∃ p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.2.1, y ∈ p.1.set := by
  unfold runB; dsimp only
  refine ⟨_, List.mem_cons_self, ?_⟩
  exact View.mem_set_unit_zero (S := S1x128) hz2 inb_S1x128_S1x128_0_0 y
theorem runB_coverS (y : S1x128.Idx) : ∃ p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.2.2.1, y ∈ p.1.set := by
  unfold runB; dsimp only
  refine ⟨_, List.mem_cons_self, ?_⟩
  exact View.mem_set_unit_zero (S := S1x128) hz2 inb_S1x128_S1x128_0_0 y
/-- and of the stored exponentials exactly the rows of its tile, -/
theorem runB_memE (ht : t.val < 25) (y : S100000x128.Idx) (p) (hp : p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).1) :
    y ∈ p.1.set ↔ 4000 * t.val ≤ (y 0).val ∧ (y 0).val < 4000 * t.val + 4000 := by
  unfold runB at hp; dsimp only at hp
  rw [List.mem_singleton] at hp; subst hp
  exact mem_rows (R := 100000) (C := 128) (W := 4000) (k0_off1 (grid0.coords t)) (k0_off1_inb (grid0.coords t) hc1) (off1_eq t ht) y
theorem runB_neE : (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).1 ≠ [] := by
  unfold runB; dsimp only; exact List.cons_ne_nil _ _
/-- and of the history exactly its own row. -/
theorem runB_memMH (ht : t.val < 25) (y : S32x128.Idx) (p) (hp : p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.1) :
    y ∈ p.1.set ↔ t.val ≤ (y 0).val ∧ (y 0).val < t.val + 1 := by
  unfold runB at hp; dsimp only at hp
  rw [List.mem_singleton] at hp; subst hp
  exact mem_rows (R := 32) (C := 128) (W := 1) (k0_off2 (grid0.coords t)) (k0_off2_inb (grid0.coords t) hc1) (off2_eq t ht) y
theorem runB_neMH : (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.1 ≠ [] := by
  unfold runB; dsimp only; exact List.cons_ne_nil _ _
end CaseB

section CaseA
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : isFirst (grid0.coords t)) (hc1 : isAccum (grid0.coords t)) (hc2 : ¬isNorm (grid0.coords t))
  (x0 : Vec F S21x128x128 .f32) (x1 : Vec F S256x128 .f32) (x2 : Vec F S1x128 .f32) (x3 : Vec F S4000x128 .f32) (x4 : Vec F S4000x25 .f32)

/-- The first point overwrites the hidden layer, the running maximum and the running sum whole, -/
theorem runA_coverH (y : S128x128.Idx) : ∃ p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).1, y ∈ p.1.set := by
  unfold runA; dsimp only
  try sl_unfold_words
  refine ⟨_, List.mem_cons_self, ?_⟩
  exact View.mem_set_unit_zero (S := S128x128) hz2 inb_S128x128_S128x128_0_0 y
theorem runA_coverM (y : S1x128.Idx) : ∃ p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.2.1, y ∈ p.1.set := by
  unfold runA; dsimp only
  try sl_unfold_words
  refine ⟨_, List.mem_cons_self, ?_⟩
  exact View.mem_set_unit_zero (S := S1x128) hz2 inb_S1x128_S1x128_0_0 y
theorem runA_coverS (y : S1x128.Idx) : ∃ p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.2.2.1, y ∈ p.1.set := by
  unfold runA; dsimp only
  try sl_unfold_words
  refine ⟨_, List.mem_cons_self, ?_⟩
  exact View.mem_set_unit_zero (S := S1x128) hz2 inb_S1x128_S1x128_0_0 y
/-- and of the stored exponentials exactly the rows of tile `t` (tile 0), of the history exactly row `t` (row 0). -/
theorem runA_memE (ht : t.val < 25) (y : S100000x128.Idx) (p) (hp : p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.1) :
    y ∈ p.1.set ↔ 4000 * t.val ≤ (y 0).val ∧ (y 0).val < 4000 * t.val + 4000 := by
  unfold runA at hp; dsimp only at hp
  rw [List.mem_singleton] at hp; subst hp
  exact mem_rows (R := 100000) (C := 128) (W := 4000) (k0_off1 (grid0.coords t)) (k0_off1_inb (grid0.coords t) hc1) (off1_eq t ht) y
theorem runA_neE : (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.1 ≠ [] := by
  unfold runA; dsimp only; exact List.cons_ne_nil _ _
theorem runA_memMH (ht : t.val < 25) (y : S32x128.Idx) (p) (hp : p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.1) :
    y ∈ p.1.set ↔ t.val ≤ (y 0).val ∧ (y 0).val < t.val + 1 := by
  unfold runA at hp; dsimp only at hp
  rw [List.mem_singleton] at hp; subst hp
  exact mem_rows (R := 32) (C := 128) (W := 1) (k0_off2 (grid0.coords t)) (k0_off2_inb (grid0.coords t) hc1) (off2_eq t ht) y
theorem runA_neMH : (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.1 ≠ [] := by
  unfold runA; dsimp only; exact List.cons_ne_nil _ _
end CaseA

section CaseC
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst (grid0.coords t)) (hc1 : ¬isAccum (grid0.coords t)) (hc2 : isNorm (grid0.coords t))
  (xE : Vec F S100000x128 .f32) (xMH : Vec F S32x128 .f32) (xM : Vec F S1x128 .f32) (xS : Vec F S1x128 .f32)

/-- A normalising point overwrites the output buffer whole, -/
theorem runC_cover (y : S4000x128.Idx) : ∃ p ∈ (runC c (grid0.coords t) arg1 harg1 arg2 harg2 arg3 harg3 arg4 harg4 arg5 harg5 arg6 harg6 arg7 harg7 arg8 harg8 arg9 harg9 arg10 harg10 arg11 harg11 hc0 hc1 hc2 xE xMH xM xS).1, y ∈ p.1.set := by
  unfold runC; dsimp only
  refine ⟨_, List.mem_cons_self, ?_⟩
  exact View.mem_set_unit_zero (S := S4000x128) hz2 inb_S4000x128_S4000x128_0_0 y

/-- with the product of the loaded tile of stored exponentials and the row factor computed from the loaded row of the
    history, the running maximum and the running sum: it reads nothing else of the two big scratch buffers. -/
theorem runC_canon : View.canon (runC c (grid0.coords t) arg1 harg1 arg2 harg2 arg3 harg3 arg4 harg4 arg5 harg5 arg6 harg6 arg7 harg7 arg8 harg8 arg9 harg9 arg10 harg10 arg11 harg11 hc0 hc1 hc2 xE xMH xM xS).1
    = k0_pay6 (View.ld xMH (Rect.unit (s := S32x128) (k0_off3 (grid0.coords t)) S1x128.size (k0_off3_inb (grid0.coords t) hc2)))
        xM xS (View.ld xE (Rect.unit (s := S100000x128) (k0_off4 (grid0.coords t)) S4000x128.size (k0_off4_inb (grid0.coords t) hc2))) := by
  unfold runC; dsimp only
  rw [View.canon_unit_zero hz2]
  simp only [View.readAt_eq_ld, harg8.read_unread, harg9.read_unread, harg10.read_unread, harg11.read_unread,
    View.ld_unit_zero (S := S1x128) hz2]
end CaseC

end Cert.Kernel.Body

end
-- ==== Proof.K.State.lean ====
import proofs.«150519_g40793599377725_cont_8to1_b_782_10_alg».proof.Proof.K.Cover

/-!
# What the scratch buffers hold after each point, and the proof data of the pipeline

After accumulating point `n` (tile `n`, `n < 25`) the kernel has stored: the hidden layer (at point 0, never touched
again); tile `n`'s exponentials `exp (logits - m_n)` into rows `[4000 n, 4000 n + 4000)`; the running maximum `m_n` into
row `n` of the history; and the running maximum and the rescaled running sum. `acc n` names them through the pieces the
run of point `n` found, by recursion on the point: point `n + 1` runs from the running statistics point `n` left. From
point 25 on nothing changes any more.

The two big scratch buffers are only ever PARTLY specified: rows of tiles not yet consumed hold whatever they held.
The region's invariant therefore holds them at SOME contents `e`, `mh` of which only the rows written so far are
stated (`EInv`, `MHInv`). A normalising point reads one written tile and one written row, so what it writes out is a
function of the specified rows only: `outTile`.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (c : Dev nD)

theorem N50 : cfg0.N = 50 := N_0
theorem N_pos : 0 < cfg0.N := by rw [N50]; decide

theorem first_of (t : Fin cfg0.N) (h : t.val = 0) : isFirst (grid0.coords t) := (isFirst_iff t).mpr h
theorem notFirst_of (t : Fin cfg0.N) (h : t.val ≠ 0) : ¬isFirst (grid0.coords t) := fun hh => h ((isFirst_iff t).mp hh)
theorem accum_of (t : Fin cfg0.N) (h : t.val < 25) : isAccum (grid0.coords t) := (isAccum_iff t).mpr h
theorem notAccum_of (t : Fin cfg0.N) (h : ¬t.val < 25) : ¬isAccum (grid0.coords t) := fun hh => h ((isAccum_iff t).mp hh)
theorem norm_of (t : Fin cfg0.N) (h : 25 ≤ t.val) : isNorm (grid0.coords t) := (isNorm_iff t).mpr h
theorem notNorm_of (t : Fin cfg0.N) (h : ¬25 ≤ t.val) : ¬isNorm (grid0.coords t) := fun hh => h ((isNorm_iff t).mp hh)

/-- The run of the first point, on the pipeline's memrefs and the input blocks there. -/
def runFirst (h : 0 < cfg0.N) :=
  runA (F := F) c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _)
    (first_of ⟨0, h⟩ rfl) (accum_of ⟨0, h⟩ (by show (0 : ℕ) < 25; omega)) (notNorm_of ⟨0, h⟩ (by show ¬25 ≤ (0 : ℕ); omega))
    (iblk m c 0 ⟨0, h⟩) (iblk m c 1 ⟨0, h⟩) (iblk m c 2 ⟨0, h⟩) (iblk m c 3 ⟨0, h⟩) (iblk m c 4 ⟨0, h⟩)

/-- The hidden layer: what the first point's store leaves in its scratch buffer. -/
def Hs : Vec F S128x128 .f32 := View.canon (runFirst m c N_pos).1

/-- What an accumulating point leaves: its pieces for the stored exponentials and for the history, and the running
    maximum and running sum it stores. -/
structure Acc (F : FTy → Type) [FloatOps F] where
  LE : List (View.Piece (Elt F) S100000x128 .f32)
  LMH : List (View.Piece (Elt F) S32x128 .f32)
  M : Vec F S1x128 .f32
  S : Vec F S1x128 .f32

/-- The run of a later accumulating point, from the running statistics `xM`, `xS`. -/
def runLater (t : Fin cfg0.N) (h0 : t.val ≠ 0) (h25 : t.val < 25) (xM xS : Vec F S1x128 .f32) :=
  runB (F := F) c (grid0.coords t) (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _)
    (notFirst_of t h0) (accum_of t h25) (notNorm_of t (by omega))
    (iblk m c 3 t) (iblk m c 4 t) (Hs m c) xM xS

/-- THE ACCUMULATION, by recursion on the point. -/
def acc : (n : ℕ) → n < cfg0.N → Acc F
  | 0, h => ⟨(runFirst m c h).2.1, (runFirst m c h).2.2.1, View.canon (runFirst m c h).2.2.2.1, View.canon (runFirst m c h).2.2.2.2.1⟩
  | n + 1, h =>
    if h25 : n + 1 < 25 then
      ⟨(runLater m c ⟨n + 1, h⟩ (Nat.succ_ne_zero n) h25 (acc n (Nat.lt_of_succ_lt h)).M (acc n (Nat.lt_of_succ_lt h)).S).1,
       (runLater m c ⟨n + 1, h⟩ (Nat.succ_ne_zero n) h25 (acc n (Nat.lt_of_succ_lt h)).M (acc n (Nat.lt_of_succ_lt h)).S).2.1,
       View.canon (runLater m c ⟨n + 1, h⟩ (Nat.succ_ne_zero n) h25 (acc n (Nat.lt_of_succ_lt h)).M (acc n (Nat.lt_of_succ_lt h)).S).2.2.1,
       View.canon (runLater m c ⟨n + 1, h⟩ (Nat.succ_ne_zero n) h25 (acc n (Nat.lt_of_succ_lt h)).M (acc n (Nat.lt_of_succ_lt h)).S).2.2.2.1⟩
    else acc n (Nat.lt_of_succ_lt h)

theorem acc_succ_lt (n : ℕ) (h : n + 1 < cfg0.N) (h25 : n + 1 < 25) :
    acc m c (n + 1) h =
      ⟨(runLater m c ⟨n + 1, h⟩ (Nat.succ_ne_zero n) h25 (acc m c n (Nat.lt_of_succ_lt h)).M (acc m c n (Nat.lt_of_succ_lt h)).S).1,
       (runLater m c ⟨n + 1, h⟩ (Nat.succ_ne_zero n) h25 (acc m c n (Nat.lt_of_succ_lt h)).M (acc m c n (Nat.lt_of_succ_lt h)).S).2.1,
       View.canon (runLater m c ⟨n + 1, h⟩ (Nat.succ_ne_zero n) h25 (acc m c n (Nat.lt_of_succ_lt h)).M (acc m c n (Nat.lt_of_succ_lt h)).S).2.2.1,
       View.canon (runLater m c ⟨n + 1, h⟩ (Nat.succ_ne_zero n) h25 (acc m c n (Nat.lt_of_succ_lt h)).M (acc m c n (Nat.lt_of_succ_lt h)).S).2.2.2.1⟩ :=
  dif_pos h25
theorem acc_succ_ge (n : ℕ) (h : n + 1 < cfg0.N) (h25 : ¬n + 1 < 25) : acc m c (n + 1) h = acc m c n (Nat.lt_of_succ_lt h) :=
  dif_neg h25

/-- The rows of the stored exponentials written up to point `k` hold the tiles' exponentials, -/
def EInv (k : ℕ) (e : Vec F S100000x128 .f32) : Prop :=
  ∀ (i : ℕ) (hi : i < cfg0.N), i ≤ k → i < 25 → ∀ y : S100000x128.Idx, 4000 * i ≤ (y 0).val → (y 0).val < 4000 * i + 4000 →
    e y = View.canon (acc m c i hi).LE y
/-- and the rows of the history written up to point `k` the running maxima. -/
def MHInv (k : ℕ) (mh : Vec F S32x128 .f32) : Prop :=
  ∀ (i : ℕ) (hi : i < cfg0.N), i ≤ k → i < 25 → ∀ y : S32x128.Idx, (y 0).val = i →
    mh y = View.canon (acc m c i hi).LMH y

theorem row_tile_lt (y : S100000x128.Idx) : (y 0).val / 4000 < cfg0.N := by
  have h : (y 0).val < 100000 := (y 0).isLt
  rw [N50]; omega
theorem row_hist_lt (y : S32x128.Idx) : min (y 0).val 24 < cfg0.N := by
  rw [N50]; omega
theorem lt24 : 24 < cfg0.N := by rw [N50]; decide

/-- The stored exponentials with every tile written, and the history with every row of a tile written (the rows past
    24 at row 24's): functions of the specified rows only. -/
def eStar : Vec F S100000x128 .f32 := fun y => View.canon (acc m c ((y 0).val / 4000) (row_tile_lt y)).LE y
def mhStar : Vec F S32x128 .f32 := fun y => View.canon (acc m c (min (y 0).val 24) (row_hist_lt y)).LMH y

/-- What a normalising point writes into the output buffer: tile `t - 25` of the stored exponentials times the row
    factor `exp (m_j - m) / s`. -/
def outTile (t : Fin cfg0.N) : Vec F S4000x128 .f32 :=
  if h : isNorm (grid0.coords t) then
    k0_pay6 (View.ld (mhStar m c) (Rect.unit (s := S32x128) (k0_off3 (grid0.coords t)) S1x128.size (k0_off3_inb (grid0.coords t) h)))
      (acc m c 24 lt24).M (acc m c 24 lt24).S
      (View.ld (eStar m c) (Rect.unit (s := S100000x128) (k0_off4 (grid0.coords t)) S4000x128.size (k0_off4_inb (grid0.coords t) h)))
  else View.canon []

/-- The region's invariant before point `n`: before the first, every scratch at anything; afterwards the hidden layer
    and the running statistics at what point `n - 1` left, the two big buffers at contents whose written rows are as
    specified, and the generator register at some state. -/
def PhiS : (n : ℕ) → n ≤ cfg0.N → sProp 𝕄
  | 0, _ => Pipeline.ΦA spec0 c
  | n + 1, hn => iprop(∃ e mh, ⌜EInv m c n e ∧ MHInv m c n mh⌝ ∗ iprop(owns (c : Thread nD τ) scH fullShare (Hs m c) ∗ owns (c : Thread nD τ) scE fullShare e ∗ owns (c : Thread nD τ) scMH fullShare mh ∗ owns (c : Thread nD τ) scM fullShare (acc m c n hn).M ∗ owns (c : Thread nD τ) scS fullShare (acc m c n hn).S) ∗ (∃ r, prngReg c r))

theorem PhiS_zero (n : ℕ) (h : n ≤ cfg0.N) (hz : n = 0) : PhiS m c n h = Pipeline.ΦA spec0 c := by
  subst hz; rfl
theorem PhiS_succ (n : ℕ) (hn : n < cfg0.N) :
    PhiS m c (n + 1) hn = iprop(∃ e mh, ⌜EInv m c n e ∧ MHInv m c n mh⌝ ∗ iprop(owns (c : Thread nD τ) scH fullShare (Hs m c) ∗ owns (c : Thread nD τ) scE fullShare e ∗ owns (c : Thread nD τ) scMH fullShare mh ∗ owns (c : Thread nD τ) scM fullShare (acc m c n hn).M ∗ owns (c : Thread nD τ) scS fullShare (acc m c n hn).S) ∗ (∃ r, prngReg c r)) := rfl
theorem PhiS_pos (n : ℕ) (h : n ≤ cfg0.N) (hz : n ≠ 0) :
    PhiS m c n h = iprop(∃ e mh, ⌜EInv m c (n - 1) e ∧ MHInv m c (n - 1) mh⌝ ∗ iprop(owns (c : Thread nD τ) scH fullShare (Hs m c) ∗ owns (c : Thread nD τ) scE fullShare e ∗ owns (c : Thread nD τ) scMH fullShare mh ∗ owns (c : Thread nD τ) scM fullShare (acc m c (n - 1) (by omega)).M ∗ owns (c : Thread nD τ) scS fullShare (acc m c (n - 1) (by omega)).S) ∗ (∃ r, prngReg c r)) := by
  cases n with
  | zero => exact absurd rfl hz
  | succ n => rfl

/-- The proof data of the pipeline on core `c`: the arrays as the region finds them; after the body at point `t` each
    input's buffer at its block and the output's at `outTile`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile m c t
  Φ t := PhiS m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = PhiS m c t.val (Nat.le_of_lt t.isLt) := by
  dsimp only [dats]; simp only [Fin.coe_castSucc]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = outTile m c t := by dsimp only [dats]

/-- Each input's current staging buffer holds its block at every point, fetched there or not. -/
theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before3 (t : Fin cfg0.N) (d) : (dats m 0 c).before 3 t d = iblk m c 3 t := before0_3_of m (dats m 0 c) (A_eq m c 3) (after3 m c) t d
theorem before4 (t : Fin cfg0.N) (d) : (dats m 0 c).before 4 t d = iblk m c 4 t := before0_4_of m (dats m 0 c) (A_eq m c 4) (after4 m c) t d

end Cert.Kernel.Body

end
-- ==== Proof.K.Body.lean ====
import proofs.«150519_g40793599377725_cont_8to1_b_782_10_alg».proof.Proof.K.State

/-!
# The body obligation, the run of the region and the frame

At every grid point the body, called on the pipeline's current staging buffers and on the scratch buffers as the
invariant holds them, runs to the invariant of the next point: the first point establishes it from nothing; a later
accumulating point extends the written rows by one tile and one row of history; a normalising point changes no scratch
and leaves `outTile` in the output buffer. The launch theorem of the pipeline library then gives the run of @main, and
the frame claim follows from it.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Pure steps of the invariant -/

theorem hit_of {S : Shape} {L : List (View.Piece (Elt F) S .f32)} (hne : L ≠ []) {P : S.Idx → Prop}
    (hmem : ∀ y p, p ∈ L → (y ∈ p.1.set ↔ P y)) (y : S.Idx) (hy : P y) : ∃ p ∈ L, y ∈ p.1.set := by
  obtain ⟨p, hp⟩ := List.exists_mem_of_ne_nil L hne
  exact ⟨p, hp, (hmem y p hp).mpr hy⟩
theorem miss_of {S : Shape} {L : List (View.Piece (Elt F) S .f32)} {P : S.Idx → Prop}
    (hmem : ∀ y p, p ∈ L → (y ∈ p.1.set ↔ P y)) (y : S.Idx) (hy : ¬P y) : ∀ p ∈ L, y ∉ p.1.set :=
  fun p hp h => hy ((hmem y p hp).mp h)

theorem acc_congr {n n' : ℕ} (e : n = n') (h : n < cfg0.N) (h' : n' < cfg0.N) : acc m c n h = acc m c n' h' := by
  subst e; rfl

/-- Storing tile `k`'s pieces over contents whose earlier tiles are as specified gives contents whose tiles up to `k` are. -/
theorem EInv_write (k : ℕ) (hk : k < cfg0.N) (hk25 : k < 25) (M : Memref sig .tc .vmem S100000x128 .f32) (hM : M.IsWhole)
    (e : Vec F S100000x128 .f32)
    (hprev : ∀ (i : ℕ) (hi : i < cfg0.N), i < k → i < 25 → ∀ y : S100000x128.Idx, 4000 * i ≤ (y 0).val → (y 0).val < 4000 * i + 4000 →
      e y = View.canon (acc m c i hi).LE y)
    (L : List (View.Piece (Elt F) S100000x128 .f32)) (hL : (acc m c k hk).LE = L) (hne : L ≠ [])
    (hmem : ∀ y p, p ∈ L → (y ∈ p.1.set ↔ 4000 * k ≤ (y 0).val ∧ (y 0).val < 4000 * k + 4000)) :
    EInv m c k (M.view.read (Elt F) (M.view.writes (Elt F) (hM.unread e) L)) := by
  intro i hi hik hi25 y hy1 hy2
  by_cases hik' : i = k
  · subst hik'
    rw [View.read_writes_apply_eq_canon _ _ y L (hit_of hne hmem y ⟨hy1, hy2⟩), ← hL]
  · have hlt : i < k := by omega
    rw [View.read_writes_apply_of_forall_not_mem _ _ y L (miss_of hmem y (by omega)), hM.read_unread e]
    exact hprev i hi hlt hi25 y hy1 hy2

/-- The same for the history of running maxima, one row per tile. -/
theorem MHInv_write (k : ℕ) (hk : k < cfg0.N) (hk25 : k < 25) (M : Memref sig .tc .vmem S32x128 .f32) (hM : M.IsWhole)
    (mh : Vec F S32x128 .f32)
    (hprev : ∀ (i : ℕ) (hi : i < cfg0.N), i < k → i < 25 → ∀ y : S32x128.Idx, (y 0).val = i → mh y = View.canon (acc m c i hi).LMH y)
    (L : List (View.Piece (Elt F) S32x128 .f32)) (hL : (acc m c k hk).LMH = L) (hne : L ≠ [])
    (hmem : ∀ y p, p ∈ L → (y ∈ p.1.set ↔ k ≤ (y 0).val ∧ (y 0).val < k + 1)) :
    MHInv m c k (M.view.read (Elt F) (M.view.writes (Elt F) (hM.unread mh) L)) := by
  intro i hi hik hi25 y hy
  by_cases hik' : i = k
  · subst hik'
    rw [View.read_writes_apply_eq_canon _ _ y L (hit_of hne hmem y (by omega)), ← hL]
  · have hlt : i < k := by omega
    rw [View.read_writes_apply_of_forall_not_mem _ _ y L (miss_of hmem y (by omega)), hM.read_unread mh]
    exact hprev i hi hlt hi25 y hy

/-- From tile 24 on the accumulation is frozen. -/
theorem acc_ge24 : ∀ (n : ℕ) (h : n < cfg0.N), 24 ≤ n → acc m c n h = acc m c 24 lt24
  | 0, _, h24 => absurd h24 (by omega)
  | n + 1, h, h24 => by
    by_cases he : n + 1 = 24
    · exact acc_congr m c he h lt24
    · rw [acc_succ_ge m c n h (by omega)]
      exact acc_ge24 n (Nat.lt_of_succ_lt h) (by omega)

theorem EInv_mono {k k' : ℕ} (e : Vec F S100000x128 .f32) (h24 : 24 ≤ k) (h : EInv m c k e) : EInv m c k' e :=
  fun i hi _ hi25 y hy1 hy2 => h i hi (by omega) hi25 y hy1 hy2
theorem MHInv_mono {k k' : ℕ} (mh : Vec F S32x128 .f32) (h24 : 24 ≤ k) (h : MHInv m c k mh) : MHInv m c k' mh :=
  fun i hi _ hi25 y hy => h i hi (by omega) hi25 y hy

/-- What a normalising point stores into the output buffer, from ANY contents of the two big scratch buffers whose
    written rows are as specified: `outTile`. -/
theorem out_eq (t : Fin cfg0.N) (h25 : 25 ≤ t.val) (e : Vec F S100000x128 .f32) (mh : Vec F S32x128 .f32)
    (hE : EInv m c 24 e) (hMH : MHInv m c 24 mh) (f : (ms5 t).view.ty.Contents (Elt F))
    (h0 : ¬isFirst (grid0.coords t)) (h1 : ¬isAccum (grid0.coords t)) (h2 : isNorm (grid0.coords t)) :
    (ms5 t).view.read (Elt F) ((ms5 t).view.writes (Elt F) f
      (runC (F := F) c (grid0.coords t) (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) h0 h1 h2 e mh (acc m c 24 lt24).M (acc m c 24 lt24).S).1) = outTile m c t := by
  rw [View.read_writes_eq_canon _ _ _ (runC_cover c t (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) h0 h1 h2 e mh _ _), runC_canon]
  unfold outTile
  rw [dif_pos h2]
  have hN : t.val < 50 := lt_of_lt_of_eq t.isLt N50
  have h3 : View.ld mh (Rect.unit (s := S32x128) (k0_off3 (grid0.coords t)) S1x128.size (k0_off3_inb (grid0.coords t) h2))
      = View.ld (mhStar m c) (Rect.unit (s := S32x128) (k0_off3 (grid0.coords t)) S1x128.size (k0_off3_inb (grid0.coords t) h2)) := by
    funext x
    show mh (LoadRect.idx _ x) = mhStar m c (LoadRect.idx _ x)
    have hrow : ((LoadRect.idx (Rect.unit (s := S32x128) (k0_off3 (grid0.coords t)) S1x128.size (k0_off3_inb (grid0.coords t) h2)).toLoadRect x) 0).val = t.val - 25 := by
      rw [LoadRect.idx_apply]
      show k0_off3 (grid0.coords t) 0 + 1 * (x 0).val = _
      have ho : k0_off3 (grid0.coords t) 0 = t.val - 25 := congrFun (off3_eq t h25) 0
      have : (x 0).val < 1 := (x 0).isLt
      omega
    unfold mhStar
    rw [hMH (t.val - 25) (lt_of_le_of_lt (Nat.sub_le _ _) t.isLt) (by omega) (by omega) _ hrow]
    exact congrArg (fun a : Acc F => View.canon a.LMH _) (acc_congr m c (by rw [hrow]; omega) _ _)
  have h4 : View.ld e (Rect.unit (s := S100000x128) (k0_off4 (grid0.coords t)) S4000x128.size (k0_off4_inb (grid0.coords t) h2))
      = View.ld (eStar m c) (Rect.unit (s := S100000x128) (k0_off4 (grid0.coords t)) S4000x128.size (k0_off4_inb (grid0.coords t) h2)) := by
    funext x
    show e (LoadRect.idx _ x) = eStar m c (LoadRect.idx _ x)
    have hrow : ((LoadRect.idx (Rect.unit (s := S100000x128) (k0_off4 (grid0.coords t)) S4000x128.size (k0_off4_inb (grid0.coords t) h2)).toLoadRect x) 0).val = 4000 * (t.val - 25) + (x 0).val := by
      rw [LoadRect.idx_apply]
      show k0_off4 (grid0.coords t) 0 + 1 * (x 0).val = _
      have ho : k0_off4 (grid0.coords t) 0 = 4000 * (t.val - 25) := congrFun (off4_eq t h25) 0
      omega
    have hx : (x 0).val < 4000 := (x 0).isLt
    unfold eStar
    rw [hE (t.val - 25) (lt_of_le_of_lt (Nat.sub_le _ _) t.isLt) (by omega) (by omega) _ (by rw [hrow]; omega) (by rw [hrow]; omega)]
    exact congrArg (fun a : Acc F => View.canon a.LE _) (acc_congr m c (by rw [hrow]; omega) _ _)
  rw [h3, h4]

end Cert.Kernel.Body

end
-- ==== Proof.K.Obligation.lean ====
import proofs.«150519_g40793599377725_cont_8to1_b_782_10_alg».proof.Proof.K.Body

/-!
# The body obligation at every point, the run and the frame

The three cases of the body are taken at a symbolic grid point. At point 0 the invariant is established from buffers at
arbitrary contents; at a later accumulating point the tile's rows are added to the written part of the two big scratch
buffers; at a normalising point the scratch buffers are handed back unchanged and the output buffer is left at
`outTile`. The output window is idle and not written back before point 25, so there its buffer is handed back as found.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The accumulation at a later accumulating point, from what the point before left. -/
theorem acc_at (t : Fin cfg0.N) (hz : t.val ≠ 0) (h25 : t.val < 25) :
    acc m c t.val t.isLt =
      ⟨(runLater m c t hz h25 (acc m c (t.val - 1) (by omega)).M (acc m c (t.val - 1) (by omega)).S).1,
       (runLater m c t hz h25 (acc m c (t.val - 1) (by omega)).M (acc m c (t.val - 1) (by omega)).S).2.1,
       View.canon (runLater m c t hz h25 (acc m c (t.val - 1) (by omega)).M (acc m c (t.val - 1) (by omega)).S).2.2.1,
       View.canon (runLater m c t hz h25 (acc m c (t.val - 1) (by omega)).M (acc m c (t.val - 1) (by omega)).S).2.2.2.1⟩ := by
  obtain ⟨tv, ht⟩ := t
  cases tv with
  | zero => exact absurd rfl hz
  | succ n => exact acc_succ_lt m c n ht h25

/-- The hypotheses of the accumulation at point 0 are those of the first run. -/
theorem acc_zero (h : 0 < cfg0.N) : acc m c 0 h = ⟨(runFirst m c h).2.1, (runFirst m c h).2.2.1, View.canon (runFirst m c h).2.2.2.1, View.canon (runFirst m c h).2.2.2.2.1⟩ := rfl

/-- What the body is called with at point `t`, -/
def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 50 := lt_of_lt_of_eq t.isLt N50
  by_cases h25 : t.val < 25
  · have hidle : cfg0.idle 5 (grid0.coords t) = true := (idle5_iff t).mpr h25
    have hfl : (cfg0.win 5).flush t = false := by
      cases hf : (cfg0.win 5).flush t with
      | false => rfl
      | true => exact absurd ((flush5_iff t).mp hf) (by omega)
    rw [(dats m 0 c).leavesExact_idle 5 t hidle hfl]
    by_cases hz : t.val = 0
    · -- the first point
      obtain rfl : t = ⟨0, N_pos⟩ := Fin.ext hz
      rw [Phi_castSucc m c ⟨0, N_pos⟩, PhiS_zero m c _ _ rfl, PhiA_eq]
      iintro ⟨⟨⟨⟨%dH, HH⟩, ⟨%dE, HE⟩, ⟨%dMH, HMH⟩, ⟨%dM, HM⟩, ⟨%dS, HS⟩⟩, Hg⟩, Ho, ⟨%d0, H0⟩, ⟨%d1, H1⟩, ⟨%d2, H2⟩, ⟨%d3, H3⟩, ⟨%d4, H4⟩, ⟨%d5, H5⟩⟩
      iapply ((runFirst m c N_pos).2.2.2.2.2 ((dats m 0 c).before 5 ⟨0, N_pos⟩ d5) dH dE dMH dM dS Set.univ _)
      isplitl [H0]; · iexact H0
      isplitl [H1]; · iexact H1
      isplitl [H2]; · iexact H2
      isplitl [H3]; · iexact H3
      isplitl [H4]; · iexact H4
      isplitl [H5]; · iexact H5
      isplitl [HH]; · iexact HH
      isplitl [HE]; · iexact HE
      isplitl [HMH]; · iexact HMH
      isplitl [HM]; · iexact HM
      isplitl [HS]; · iexact HS
      iintro ⟨H0, H1, H2, H3, H4, H5, HH, HE, HMH, HM, HS⟩
      isplitl [HH HE HMH HM HS Hg]
      · iexists (scE.view.read (Elt F) (scE.view.writes (Elt F) ((Memref.isWhole_whole _).unread dE) (runFirst m c N_pos).2.1)),
          (scMH.view.read (Elt F) (scMH.view.writes (Elt F) ((Memref.isWhole_whole _).unread dMH) (runFirst m c N_pos).2.2.1))
        isplitr
        · ipureintro
          exact ⟨EInv_write m c 0 N_pos (by omega) scE _ dE (fun i _ hik => absurd hik (Nat.not_lt_zero i)) _ rfl
              (runA_neE c ⟨0, N_pos⟩ _ _ _ _ _ _ _ _ _ _ _ _ _ _ _ _ _ _ _ _ _ _ _ _ _ _ _ _ _ _)
              (fun y p hp => runA_memE c ⟨0, N_pos⟩ _ _ _ _ _ _ _ _ _ _ _ _ _ _ _ _ _ _ _ _ _ _ _ _ _ _ _ _ _ _ (by show (0 : ℕ) < 25; omega) y p hp),
            MHInv_write m c 0 N_pos (by omega) scMH _ dMH (fun i _ hik => absurd hik (Nat.not_lt_zero i)) _ rfl
              (runA_neMH c ⟨0, N_pos⟩ _ _ _ _ _ _ _ _ _ _ _ _ _ _ _ _ _ _ _ _ _ _ _ _ _ _ _ _ _ _)
              (fun y p hp => runA_memMH c ⟨0, N_pos⟩ _ _ _ _ _ _ _ _ _ _ _ _ _ _ _ _ _ _ _ _ _ _ _ _ _ _ _ _ _ _ (by show (0 : ℕ) < 25; omega) y p hp)⟩
        isplitl [HH HE HMH HM HS]
        · isplitl [HH]
          · unfold owns; iexists _; isplitr
            swap; · iexact HH
            ipureintro; exact View.read_writes_eq_canon _ _ _ (fun y => runA_coverH c ⟨0, N_pos⟩ _ _ _ _ _ _ _ _ _ _ _ _ _ _ _ _ _ _ _ _ _ _ _ _ _ _ _ _ _ _ y)
          isplitl [HE]
          · unfold owns; iexists _; isplitr
            swap; · iexact HE
            ipureintro; rfl
          isplitl [HMH]
          · unfold owns; iexists _; isplitr
            swap; · iexact HMH
            ipureintro; rfl
          isplitl [HM]
          · unfold owns; iexists _; isplitr
            swap; · iexact HM
            ipureintro; exact View.read_writes_eq_canon _ _ _ (fun y => runA_coverM c ⟨0, N_pos⟩ _ _ _ _ _ _ _ _ _ _ _ _ _ _ _ _ _ _ _ _ _ _ _ _ _ _ _ _ _ _ y)
          unfold owns; iexists _; isplitr
          swap; · iexact HS
          ipureintro; exact View.read_writes_eq_canon _ _ _ (fun y => runA_coverS c ⟨0, N_pos⟩ _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · -- a later accumulating point
      rw [Phi_castSucc m c t, PhiS_pos m c _ _ hz, acc_at m c t hz h25]
      iintro ⟨⟨%e, %mh, %hinv, ⟨HH, HE, HMH, HM, HS⟩, Hg⟩, Ho, ⟨%d0, H0⟩, ⟨%d1, H1⟩, ⟨%d2, H2⟩, ⟨%d3, H3⟩, ⟨%d4, H4⟩, ⟨%d5, H5⟩⟩
      iapply ((runLater m c t hz h25 (acc m c (t.val - 1) (by omega)).M (acc m c (t.val - 1) (by omega)).S).2.2.2.2
        (iblk m c 0 t) (iblk m c 1 t) (iblk m c 2 t) ((dats m 0 c).before 5 t d5) e mh Set.univ _)
      isplitl [H0]; · iexact H0
      isplitl [H1]; · iexact H1
      isplitl [H2]; · iexact H2
      isplitl [H3]; · iexact H3
      isplitl [H4]; · iexact H4
      isplitl [H5]; · iexact H5
      isplitl [HH]; · iexact HH
      isplitl [HE]; · iexact HE
      isplitl [HMH]; · iexact HMH
      isplitl [HM]; · iexact HM
      isplitl [HS]; · iexact HS
      iintro ⟨H0, H1, H2, H3, H4, H5, HH, HE, HMH, HM, HS⟩
      isplitl [HH HE HMH HM HS Hg]
      · iexists (scE.view.read (Elt F) (scE.view.writes (Elt F) ((Memref.isWhole_whole _).unread e) (runLater m c t hz h25 (acc m c (t.val - 1) (by omega)).M (acc m c (t.val - 1) (by omega)).S).1)),
          (scMH.view.read (Elt F) (scMH.view.writes (Elt F) ((Memref.isWhole_whole _).unread mh) (runLater m c t hz h25 (acc m c (t.val - 1) (by omega)).M (acc m c (t.val - 1) (by omega)).S).2.1))
        isplitr
        · ipureintro
          exact ⟨EInv_write m c t.val t.isLt h25 scE _ e (fun i hi hik hi25 y hy1 hy2 => hinv.1 i hi (by omega) hi25 y hy1 hy2) _
              (by rw [acc_at m c t hz h25])
              (runB_neE c t _ _ _ _ _ _ _ _ _ _ _ _ _ _ _ _ _ _ _ _ _ _ _ _ _ _ _ _ _ _)
              (fun y p hp => runB_memE c t _ _ _ _ _ _ _ _ _ _ _ _ _ _ _ _ _ _ _ _ _ _ _ _ _ _ _ _ _ _ h25 y p hp),
            MHInv_write m c t.val t.isLt h25 scMH _ mh (fun i hi hik hi25 y hy => hinv.2 i hi (by omega) hi25 y hy) _
              (by rw [acc_at m c t hz h25])
              (runB_neMH c t _ _ _ _ _ _ _ _ _ _ _ _ _ _ _ _ _ _ _ _ _ _ _ _ _ _ _ _ _ _)
              (fun y p hp => runB_memMH c t _ _ _ _ _ _ _ _ _ _ _ _ _ _ _ _ _ _ _ _ _ _ _ _ _ _ _ _ _ _ h25 y p hp)⟩
        isplitl [HH HE HMH HM HS]
        · isplitl [HH]; · iexact HH
          isplitl [HE]
          · unfold owns; iexists _; isplitr
            swap; · iexact HE
            ipureintro; rfl
          isplitl [HMH]
          · unfold owns; iexists _; isplitr
            swap; · iexact HMH
            ipureintro; rfl
          isplitl [HM]
          · unfold owns; iexists _; isplitr
            swap; · iexact HM
            ipureintro; exact View.read_writes_eq_canon _ _ _ (fun y => runB_coverM c t _ _ _ _ _ _ _ _ _ _ _ _ _ _ _ _ _ _ _ _ _ _ _ _ _ _ _ _ _ _ y)
          unfold owns; iexists _; isplitr
          swap; · iexact HS
          ipureintro; exact View.read_writes_eq_canon _ _ _ (fun y => runB_coverS c t _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · -- a normalising point
    have h25' : 25 ≤ t.val := by omega
    have hz : t.val ≠ 0 := by omega
    have hlive : cfg0.idle 5 (grid0.coords t) = false := by
      cases hi : cfg0.idle 5 (grid0.coords t) with
      | false => rfl
      | true => exact absurd ((idle5_iff t).mp hi) h25
    rw [show (dats m 0 c).leavesExact 5 t = owns (c : Thread nD τ) (ms5 t) fullShare ((dats m 0 c).after 5 t) from by
      unfold Dat.leavesExact; rw [hlive], after5]
    rw [Phi_castSucc m c t, PhiS_pos m c _ _ hz, acc_ge24 m c (t.val - 1) (by omega) (by omega), acc_ge24 m c t.val t.isLt (by omega)]
    iintro ⟨⟨%e, %mh, %hinv, ⟨HH, HE, HMH, HM, HS⟩, Hg⟩, Ho, ⟨%d0, H0⟩, ⟨%d1, H1⟩, ⟨%d2, H2⟩, ⟨%d3, H3⟩, ⟨%d4, H4⟩, ⟨%d5, H5⟩⟩
    iapply ((runC (F := F) c (grid0.coords t) (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) (notFirst_of t hz) (notAccum_of t h25) (norm_of t h25')
        e mh (acc m c 24 lt24).M (acc m c 24 lt24).S).2
      (iblk m c 0 t) (iblk m c 1 t) (iblk m c 2 t) (iblk m c 3 t) (iblk m c 4 t) ((dats m 0 c).before 5 t d5) (Hs m c) Set.univ _)
    isplitl [H0]; · iexact H0
    isplitl [H1]; · iexact H1
    isplitl [H2]; · iexact H2
    isplitl [H3]; · iexact H3
    isplitl [H4]; · iexact H4
    isplitl [H5]; · iexact H5
    isplitl [HH]; · iexact HH
    isplitl [HE]; · iexact HE
    isplitl [HMH]; · iexact HMH
    isplitl [HM]; · iexact HM
    isplitl [HS]; · iexact HS
    iintro ⟨H0, H1, H2, H3, H4, H5, HH, HE, HMH, HM, HS⟩
    isplitl [HH HE HMH HM HS Hg]
    · iexists e, mh
      isplitr
      · ipureintro
        exact ⟨EInv_mono m c e (by omega : 24 ≤ t.val - 1) hinv.1, MHInv_mono m c mh (by omega : 24 ≤ t.val - 1) hinv.2⟩
      isplitl [HH HE HMH HM HS]
      · isplitl [HH]; · iexact HH
        isplitl [HE]; · iexact HE
        isplitl [HMH]; · iexact HMH
        isplitl [HM]; · iexact HM
        iexact HS
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact out_eq m c t h25' e mh (EInv_mono m c e (by omega : 24 ≤ t.val - 1) hinv.1) (MHInv_mono m c mh (by omega : 24 ≤ t.val - 1) hinv.2) _ _ _ _

/-- The library's body obligation, at every point. -/
theorem body_obligation : BodyObligation (dats (F := F) m 0 c) (defs₀ (F := F)) Variants.none () Set.univ := fun t => by
  rw [bigSep_W0, bigSep_W0]
  exact sound_body m c t

/-- What the launch hands the region is the invariant before the first point. -/
theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives every scratch buffer back at some contents. -/
theorem hout : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N50; omega), PhiA_eq]
  iintro ⟨%e, %mh, -, ⟨HH, HE, HMH, HM, HS⟩, Hg⟩
  isplitl [HH HE HMH HM HS]
  · isplitl [HH]; · iexists _; iexact HH
    isplitl [HE]; · iexists _; iexact HE
    isplitl [HMH]; · iexists _; iexact HMH
    isplitl [HM]; · iexists _; iexact HM
    iexists _; iexact HS
  iexact Hg

/-! ## The run and the frame -/

set_option backward.isDefEq.respectTransparency.types false in
/-- Every weakly fair execution of @main terminates; in every final state each array of the pipeline holds what its
    write-backs left (the output: the normalised tiles) and every other unscoped buffer what the host operations after
    the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun c w => A_eq m c w) (hin := fun c => hin m c) (hout := fun c => hout m c)

/-- The frame: @main terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (fun c w => A_eq m c w) (run_main m ρ)

end Cert.Kernel.Body

end
-- ==== Proof.KI.Setup.lean ====
import proofs.«150519_g40793599377725_cont_8to1_b_782_10_alg».proof.Proof.Gen.KernelIdeal.Frame
import proofs.«150519_g40793599377725_cont_8to1_b_782_10_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

/-!
# The grid's three phases and the memrefs the body is called with

The grid has 50 points. Point 0 initialises the hidden layer and the running statistics; points 0–24 each consume one
tile of 4000 actions; points 25–49 each normalise one stored tile and write it out. The three conditions of the body are
decided over the grid here, once, and the output window is shown idle (and never written back) before point 25 and
written back at every point from 25 on.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first condition (`program_id == 0`) as its scalar chain over the grid coordinate. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)
/-- The second condition (`program_id < 25`): the points that consume a tile. -/
abbrev isAccum (i : grid0.Coords) : Prop := k0_cond2 i = 1#1
theorem isAccum_iff : ∀ t : Fin cfg0.N, isAccum (grid0.coords t) ↔ t.val < 25 :=
  (by decide +kernel : ∀ t : Fin grid0.N, isAccum (grid0.coords t) ↔ t.val < 25)
/-- The third condition (`program_id ≥ 25`): the points that normalise a tile. -/
abbrev isNorm (i : grid0.Coords) : Prop := k0_cond3 i = 1#1
theorem isNorm_iff : ∀ t : Fin cfg0.N, isNorm (grid0.coords t) ↔ 25 ≤ t.val :=
  (by decide +kernel : ∀ t : Fin grid0.N, isNorm (grid0.coords t) ↔ 25 ≤ t.val)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle exactly at the points that consume a tile, -/
theorem idle5_iff : ∀ t : Fin cfg0.N, cfg0.idle 5 (grid0.coords t) = true ↔ t.val < 25 :=
  (by decide +kernel : ∀ t : Fin grid0.N, idle0 5 (grid0.coords t) = true ↔ t.val < 25)
/-- and written back exactly at the points that normalise one. -/
theorem flush5_iff : ∀ t : Fin cfg0.N, (cfg0.win 5).flush t = true ↔ 25 ≤ t.val :=
  (by decide +kernel : ∀ t : Fin grid0.N, win0_5.flush t = true ↔ 25 ≤ t.val)
/-- The block the output window writes back at point `25 + j` is block `j`; the tile of `W2ᵀ` fetched at point `i < 25` is tile `i`. -/
theorem outIdx_iff : ∀ t : Fin cfg0.N, win0_5.index t (0 : Fin 2) = t.val - 25 ∧ win0_5.index t (1 : Fin 2) = 0 :=
  (by decide +kernel : ∀ t : Fin grid0.N, win0_5.index t (0 : Fin 2) = t.val - 25 ∧ win0_5.index t (1 : Fin 2) = 0)
theorem w2Idx_iff : ∀ t : Fin cfg0.N, win0_3.index t (0 : Fin 2) = min t.val 24 ∧ win0_3.index t (1 : Fin 2) = 0 :=
  (by decide +kernel : ∀ t : Fin grid0.N, win0_3.index t (0 : Fin 2) = min t.val 24 ∧ win0_3.index t (1 : Fin 2) = 0)

/-- Each window's current staging memref at point `t`, as the pipeline passes it, and its wholeness. -/
abbrev ms0 (t : Fin cfg0.N) : Memref sig .tc .vmem S21x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4000x25 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4000x128 .f32 := win0_5.stage (cfg0.slots t 5)
abbrev hs5 (t : Fin cfg0.N) : (ms5 t).IsWhole := hstage0_5 ((cfg0.slots t 5).cast nbuf0_5)
/-- The five scratch operands: the hidden layer, the stored exponentials, the history of running maxima, the running
    maximum and the running sum. -/
abbrev scH : Memref sig .tc .vmem S128x128 .f32 := Memref.whole cc0_scratch0
abbrev scE : Memref sig .tc .vmem S100000x128 .f32 := Memref.whole cc0_scratch1
abbrev scMH : Memref sig .tc .vmem S32x128 .f32 := Memref.whole cc0_scratch2
abbrev scM : Memref sig .tc .vmem S1x128 .f32 := Memref.whole cc0_scratch3
abbrev scS : Memref sig .tc .vmem S1x128 .f32 := Memref.whole cc0_scratch4

/-- The region's invariant before the first point: every scratch operand at some contents, the generator register at
    some state. -/
theorem PhiA_eq (c : Dev nD) :
    (Pipeline.ΦA spec0 c : sProp 𝕄)
      = iprop(iprop((∃ d, owns (c : Thread nD τ) scH fullShare d) ∗ (∃ d, owns (c : Thread nD τ) scE fullShare d) ∗ (∃ d, owns (c : Thread nD τ) scMH fullShare d) ∗ (∃ d, owns (c : Thread nD τ) scM fullShare d) ∗ (∃ d, owns (c : Thread nD τ) scS fullShare d)) ∗ (∃ r, prngReg c r)) := by
  unfold Pipeline.ΦA; rw [scopedRest0_eq]; simp only [scH, scE, scMH, scM, scS, owns_whole]; try rfl

end Cert.KernelIdeal.Body

end
-- ==== Proof.KI.RunB.lean ====
import proofs.«150519_g40793599377725_cont_8to1_b_782_10_alg».proof.Proof.KI.Setup

/-!
# The body at a point that consumes a tile but is not the first (points 1–24)

The body loads the tile of `W2ᵀ`, the bias table, the hidden layer and the running statistics, and stores: the tile's
exponentials into rows `[4000 i, 4000 i + 4000)` of the big scratch, the new running maximum into row `i` of the
history, the rescaled running sum, and the new running maximum. Everything else is handed back as found.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the stores of such a point leave in the four scratch buffers it writes (newest first) — functions of the
    tile, the bias table, the hidden layer and the running statistics only — with the proof that from every buffer at
    named contents the body runs to the continuation holding the inputs, the output buffer and the hidden layer as they
    were and each written scratch at its old contents overwritten by its pieces. -/
noncomputable def runB (c : Dev nD) (i : grid0.Coords) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst i) (hc1 : isAccum i) (hc2 : ¬isNorm i)
    (x3 : Vec F S4000x128 .f32) (x4 : Vec F S4000x25 .f32) (xH : Vec F S128x128 .f32) (xM : Vec F S1x128 .f32) (xS : Vec F S1x128 .f32) :
    Σ' (LE : List (View.Piece (Elt F) S100000x128 .f32)) (LMH : List (View.Piece (Elt F) S32x128 .f32)) (LM : List (View.Piece (Elt F) S1x128 .f32)), { LS : List (View.Piece (Elt F) S1x128 .f32) //
      ∀ (x0 : Vec F S21x128x128 .f32) (x1 : Vec F S256x128 .f32) (x2 : Vec F S1x128 .f32) (x5 : Vec F S4000x128 .f32) (xE : Vec F S100000x128 .f32) (xMH : Vec F S32x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ (arg8.view.loc (c : Thread nD τ) ↦[arg8.view.set]{fullShare} arg8.view.writes (Elt F) (harg8.unread xE) LE) ∗ (arg9.view.loc (c : Thread nD τ) ↦[arg9.view.set]{fullShare} arg9.view.writes (Elt F) (harg9.unread xMH) LMH) ∗ (arg10.view.loc (c : Thread nD τ) ↦[arg10.view.set]{fullShare} arg10.view.writes (Elt F) (harg10.unread xM) LM) ∗ (arg11.view.loc (c : Thread nD τ) ↦[arg11.view.set]{fullShare} arg11.view.writes (Elt F) (harg11.unread xS) LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, fun x0 x1 x2 x5 xE xMH E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH, %hfH, HH⟩, ⟨%fE, %hfE, HE⟩, ⟨%fMH, %hfMH, HMH⟩, ⟨%fM, %hfM, HM⟩, ⟨%fS, %hfS, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfH; obtain rfl := harg8.eq_unread hfE; obtain rfl := harg9.eq_unread hfMH; obtain rfl := harg10.eq_unread hfM; obtain rfl := harg11.eq_unread hfS
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]
    · iexists _; isplitr; · ipureintro; exact harg7.read_unread _
      iexact HH
    isplitl [HE]; · iexact HE
    isplitl [HMH]; · iexact HMH
    isplitl [HM]; · iexact HM
    iexact HS

end Cert.KernelIdeal.Body

end
-- ==== Proof.KI.RunA.lean ====
import proofs.«150519_g40793599377725_cont_8to1_b_782_10_alg».proof.Proof.KI.RunB

/-!
# The body at the first point

Point 0 first stores the hidden layer `max (hcat · W1 + b1) 0`, the running maximum `-∞` and the running sum `0`, and
then consumes tile 0 exactly as a later point does, reading those three back. Five scratch buffers are written.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the first point's stores leave in the five scratch buffers (newest first) — functions of the input
    blocks only — with the proof that the body runs from every buffer at named contents to the continuation holding the
    inputs and the output buffer as they were and each scratch at its old contents overwritten by its pieces. -/
noncomputable def runA (c : Dev nD) (i : grid0.Coords) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : isFirst i) (hc1 : isAccum i) (hc2 : ¬isNorm i)
    (x0 : Vec F S21x128x128 .f32) (x1 : Vec F S256x128 .f32) (x2 : Vec F S1x128 .f32) (x3 : Vec F S4000x128 .f32) (x4 : Vec F S4000x25 .f32) :
    Σ' (LH : List (View.Piece (Elt F) S128x128 .f32)) (LE : List (View.Piece (Elt F) S100000x128 .f32)) (LMH : List (View.Piece (Elt F) S32x128 .f32)) (LM : List (View.Piece (Elt F) S1x128 .f32)), { LS : List (View.Piece (Elt F) S1x128 .f32) //
      ∀ (x5 : Vec F S4000x128 .f32) (xH : Vec F S128x128 .f32) (xE : Vec F S100000x128 .f32) (xMH : Vec F S32x128 .f32) (xM : Vec F S1x128 .f32) (xS : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread xH) LH) ∗ (arg8.view.loc (c : Thread nD τ) ↦[arg8.view.set]{fullShare} arg8.view.writes (Elt F) (harg8.unread xE) LE) ∗ (arg9.view.loc (c : Thread nD τ) ↦[arg9.view.set]{fullShare} arg9.view.writes (Elt F) (harg9.unread xMH) LMH) ∗ (arg10.view.loc (c : Thread nD τ) ↦[arg10.view.set]{fullShare} arg10.view.writes (Elt F) (harg10.unread xM) LM) ∗ (arg11.view.loc (c : Thread nD τ) ↦[arg11.view.set]{fullShare} arg11.view.writes (Elt F) (harg11.unread xS) LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, ?_, fun x5 xH xE xMH xM xS E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH, %hfH, HH⟩, ⟨%fE, %hfE, HE⟩, ⟨%fMH, %hfMH, HMH⟩, ⟨%fM, %hfM, HM⟩, ⟨%fS, %hfS, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfH; obtain rfl := harg8.eq_unread hfE; obtain rfl := harg9.eq_unread hfMH; obtain rfl := harg10.eq_unread hfM; obtain rfl := harg11.eq_unread hfS
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexact HH
    isplitl [HE]; · iexact HE
    isplitl [HMH]; · iexact HMH
    isplitl [HM]; · iexact HM
    iexact HS

end Cert.KernelIdeal.Body

end
-- ==== Proof.KI.RunC.lean ====
import proofs.«150519_g40793599377725_cont_8to1_b_782_10_alg».proof.Proof.KI.RunA

/-!
# The body at a point that normalises a tile (points 25–49)

The body loads row `t - 25` of the history of running maxima, the final running maximum and sum, and rows
`[4000 (t - 25), 4000 (t - 25) + 4000)` of the stored exponentials, and stores their product with the row factor
`exp (m_j - m) / s` over the whole output buffer. No scratch is written.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The piece such a point's one store leaves in the output buffer — a function of the four scratch buffers it reads —
    with the proof that the body runs from every buffer at named contents to the continuation holding everything else
    as it was. -/
noncomputable def runC (c : Dev nD) (i : grid0.Coords) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst i) (hc1 : ¬isAccum i) (hc2 : isNorm i)
    (xE : Vec F S100000x128 .f32) (xMH : Vec F S32x128 .f32) (xM : Vec F S1x128 .f32) (xS : Vec F S1x128 .f32) :
    { LO : List (View.Piece (Elt F) S4000x128 .f32) //
      ∀ (x0 : Vec F S21x128x128 .f32) (x1 : Vec F S256x128 .f32) (x2 : Vec F S1x128 .f32) (x3 : Vec F S4000x128 .f32) (x4 : Vec F S4000x25 .f32) (x5 : Vec F S4000x128 .f32) (xH : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread x5) LO) ∗ owns (c : Thread nD τ) arg7 fullShare xH ∗ owns (c : Thread nD τ) arg8 fullShare xE ∗ owns (c : Thread nD τ) arg9 fullShare xMH ∗ owns (c : Thread nD τ) arg10 fullShare xM ∗ owns (c : Thread nD τ) arg11 fullShare xS) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x0 x1 x2 x3 x4 x5 xH E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fH, %hfH, HH⟩, ⟨%fE, %hfE, HE⟩, ⟨%fMH, %hfMH, HMH⟩, ⟨%fM, %hfM, HM⟩, ⟨%fS, %hfS, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfH; obtain rfl := harg8.eq_unread hfE; obtain rfl := harg9.eq_unread hfMH; obtain rfl := harg10.eq_unread hfM; obtain rfl := harg11.eq_unread hfS
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HH]
    · iexists _; isplitr; · ipureintro; exact harg7.read_unread _
      iexact HH
    isplitl [HE]
    · iexists _; isplitr; · ipureintro; exact harg8.read_unread _
      iexact HE
    isplitl [HMH]
    · iexists _; isplitr; · ipureintro; exact harg9.read_unread _
      iexact HMH
    isplitl [HM]
    · iexists _; isplitr; · ipureintro; exact harg10.read_unread _
      iexact HM
    iexists _; isplitr; · ipureintro; exact harg11.read_unread _
    iexact HS

end Cert.KernelIdeal.Body

end
-- ==== Proof.KI.Cover.lean ====
import proofs.«150519_g40793599377725_cont_8to1_b_782_10_alg».proof.Proof.KI.RunC
import Idealize.ShloMosaic.Lib.Pipeline.Value

/-!
# Which elements each point's stores cover

Each store of the body goes through a unit-stride rectangle: the whole of a small scratch buffer, the rows
`[4000 t, 4000 t + 4000)` of the stored exponentials, row `t` of the history of running maxima, or the whole output
buffer. The offsets the body computes from the grid coordinate are put in closed form over the grid, and for each case of
the body the elements its pieces cover are read off.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The row offsets the body computes, in closed form over the grid. -/
theorem off1_eq : ∀ t : Fin cfg0.N, t.val < 25 → k0_off1 (grid0.coords t) = ![4000 * t.val, 0] :=
  (by decide +kernel : ∀ t : Fin grid0.N, t.val < 25 → k0_off1 (grid0.coords t) = ![4000 * t.val, 0])
theorem off2_eq : ∀ t : Fin cfg0.N, t.val < 25 → k0_off2 (grid0.coords t) = ![t.val, 0] :=
  (by decide +kernel : ∀ t : Fin grid0.N, t.val < 25 → k0_off2 (grid0.coords t) = ![t.val, 0])
theorem off3_eq : ∀ t : Fin cfg0.N, 25 ≤ t.val → k0_off3 (grid0.coords t) = ![t.val - 25, 0] :=
  (by decide +kernel : ∀ t : Fin grid0.N, 25 ≤ t.val → k0_off3 (grid0.coords t) = ![t.val - 25, 0])
theorem off4_eq : ∀ t : Fin cfg0.N, 25 ≤ t.val → k0_off4 (grid0.coords t) = ![4000 * (t.val - 25), 0] :=
  (by decide +kernel : ∀ t : Fin grid0.N, 25 ≤ t.val → k0_off4 (grid0.coords t) = ![4000 * (t.val - 25), 0])

/-- Membership in the rows `[o, o + W)` of a two-axis buffer of `C` columns, all columns. -/
theorem mem_rows {R C W o : ℕ} (off : Fin 2 → ℕ) (inb : ∀ a, off a + (![W, C] : Fin 2 → ℕ) a ≤ (⟨2, ![R, C]⟩ : Shape).size a)
    (hoff : off = ![o, 0]) (y : (⟨2, ![R, C]⟩ : Shape).Idx) :
    y ∈ (Rect.unit (s := ⟨2, ![R, C]⟩) off ![W, C] inb).set ↔ o ≤ (y 0).val ∧ (y 0).val < o + W := by
  subst hoff
  rw [Rect.mem_set_unit]
  constructor
  · intro h; exact h 0
  · intro h a
    match a with
    | ⟨0, _⟩ => exact h
    | ⟨1, _⟩ => exact ⟨Nat.zero_le _, by show (y 1).val < 0 + C; rw [Nat.zero_add]; exact (y 1).isLt⟩

section CaseB
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst (grid0.coords t)) (hc1 : isAccum (grid0.coords t)) (hc2 : ¬isNorm (grid0.coords t))
  (x3 : Vec F S4000x128 .f32) (x4 : Vec F S4000x25 .f32) (xH : Vec F S128x128 .f32) (xM : Vec F S1x128 .f32) (xS : Vec F S1x128 .f32)

/-- A later accumulating point overwrites the running maximum and the running sum whole, -/
theorem runB_coverM (y : S1x128.Idx) : ∃ p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.2.1, y ∈ p.1.set := by
  unfold runB; dsimp only
  refine ⟨_, List.mem_cons_self, ?_⟩
  exact View.mem_set_unit_zero (S := S1x128) hz2 inb_S1x128_S1x128_0_0 y
theorem runB_coverS (y : S1x128.Idx) : ∃ p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.2.2.1, y ∈ p.1.set := by
  unfold runB; dsimp only
  refine ⟨_, List.mem_cons_self, ?_⟩
  exact View.mem_set_unit_zero (S := S1x128) hz2 inb_S1x128_S1x128_0_0 y
/-- and of the stored exponentials exactly the rows of its tile, -/
theorem runB_memE (ht : t.val < 25) (y : S100000x128.Idx) (p) (hp : p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).1) :
    y ∈ p.1.set ↔ 4000 * t.val ≤ (y 0).val ∧ (y 0).val < 4000 * t.val + 4000 := by
  unfold runB at hp; dsimp only at hp
  rw [List.mem_singleton] at hp; subst hp
  exact mem_rows (R := 100000) (C := 128) (W := 4000) (k0_off1 (grid0.coords t)) (k0_off1_inb (grid0.coords t) hc1) (off1_eq t ht) y
theorem runB_neE : (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).1 ≠ [] := by
  unfold runB; dsimp only; exact List.cons_ne_nil _ _
/-- and of the history exactly its own row. -/
theorem runB_memMH (ht : t.val < 25) (y : S32x128.Idx) (p) (hp : p ∈ (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.1) :
    y ∈ p.1.set ↔ t.val ≤ (y 0).val ∧ (y 0).val < t.val + 1 := by
  unfold runB at hp; dsimp only at hp
  rw [List.mem_singleton] at hp; subst hp
  exact mem_rows (R := 32) (C := 128) (W := 1) (k0_off2 (grid0.coords t)) (k0_off2_inb (grid0.coords t) hc1) (off2_eq t ht) y
theorem runB_neMH : (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.1 ≠ [] := by
  unfold runB; dsimp only; exact List.cons_ne_nil _ _
end CaseB

section CaseA
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : isFirst (grid0.coords t)) (hc1 : isAccum (grid0.coords t)) (hc2 : ¬isNorm (grid0.coords t))
  (x0 : Vec F S21x128x128 .f32) (x1 : Vec F S256x128 .f32) (x2 : Vec F S1x128 .f32) (x3 : Vec F S4000x128 .f32) (x4 : Vec F S4000x25 .f32)

/-- The first point overwrites the hidden layer, the running maximum and the running sum whole, -/
theorem runA_coverH (y : S128x128.Idx) : ∃ p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).1, y ∈ p.1.set := by
  unfold runA; dsimp only
  try sl_unfold_words
  refine ⟨_, List.mem_cons_self, ?_⟩
  exact View.mem_set_unit_zero (S := S128x128) hz2 inb_S128x128_S128x128_0_0 y
theorem runA_coverM (y : S1x128.Idx) : ∃ p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.2.1, y ∈ p.1.set := by
  unfold runA; dsimp only
  try sl_unfold_words
  refine ⟨_, List.mem_cons_self, ?_⟩
  exact View.mem_set_unit_zero (S := S1x128) hz2 inb_S1x128_S1x128_0_0 y
theorem runA_coverS (y : S1x128.Idx) : ∃ p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.2.2.1, y ∈ p.1.set := by
  unfold runA; dsimp only
  try sl_unfold_words
  refine ⟨_, List.mem_cons_self, ?_⟩
  exact View.mem_set_unit_zero (S := S1x128) hz2 inb_S1x128_S1x128_0_0 y
/-- and of the stored exponentials exactly the rows of tile `t` (tile 0), of the history exactly row `t` (row 0). -/
theorem runA_memE (ht : t.val < 25) (y : S100000x128.Idx) (p) (hp : p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.1) :
    y ∈ p.1.set ↔ 4000 * t.val ≤ (y 0).val ∧ (y 0).val < 4000 * t.val + 4000 := by
  unfold runA at hp; dsimp only at hp
  rw [List.mem_singleton] at hp; subst hp
  exact mem_rows (R := 100000) (C := 128) (W := 4000) (k0_off1 (grid0.coords t)) (k0_off1_inb (grid0.coords t) hc1) (off1_eq t ht) y
theorem runA_neE : (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.1 ≠ [] := by
  unfold runA; dsimp only; exact List.cons_ne_nil _ _
theorem runA_memMH (ht : t.val < 25) (y : S32x128.Idx) (p) (hp : p ∈ (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.1) :
    y ∈ p.1.set ↔ t.val ≤ (y 0).val ∧ (y 0).val < t.val + 1 := by
  unfold runA at hp; dsimp only at hp
  rw [List.mem_singleton] at hp; subst hp
  exact mem_rows (R := 32) (C := 128) (W := 1) (k0_off2 (grid0.coords t)) (k0_off2_inb (grid0.coords t) hc1) (off2_eq t ht) y
theorem runA_neMH : (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.1 ≠ [] := by
  unfold runA; dsimp only; exact List.cons_ne_nil _ _
end CaseA

section CaseC
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst (grid0.coords t)) (hc1 : ¬isAccum (grid0.coords t)) (hc2 : isNorm (grid0.coords t))
  (xE : Vec F S100000x128 .f32) (xMH : Vec F S32x128 .f32) (xM : Vec F S1x128 .f32) (xS : Vec F S1x128 .f32)

/-- A normalising point overwrites the output buffer whole, -/
theorem runC_cover (y : S4000x128.Idx) : ∃ p ∈ (runC c (grid0.coords t) arg1 harg1 arg2 harg2 arg3 harg3 arg4 harg4 arg5 harg5 arg6 harg6 arg7 harg7 arg8 harg8 arg9 harg9 arg10 harg10 arg11 harg11 hc0 hc1 hc2 xE xMH xM xS).1, y ∈ p.1.set := by
  unfold runC; dsimp only
  refine ⟨_, List.mem_cons_self, ?_⟩
  exact View.mem_set_unit_zero (S := S4000x128) hz2 inb_S4000x128_S4000x128_0_0 y

/-- with the product of the loaded tile of stored exponentials and the row factor computed from the loaded row of the
    history, the running maximum and the running sum: it reads nothing else of the two big scratch buffers. -/
theorem runC_canon : View.canon (runC c (grid0.coords t) arg1 harg1 arg2 harg2 arg3 harg3 arg4 harg4 arg5 harg5 arg6 harg6 arg7 harg7 arg8 harg8 arg9 harg9 arg10 harg10 arg11 harg11 hc0 hc1 hc2 xE xMH xM xS).1
    = k0_pay6 (View.ld xMH (Rect.unit (s := S32x128) (k0_off3 (grid0.coords t)) S1x128.size (k0_off3_inb (grid0.coords t) hc2)))
        xM xS (View.ld xE (Rect.unit (s := S100000x128) (k0_off4 (grid0.coords t)) S4000x128.size (k0_off4_inb (grid0.coords t) hc2))) := by
  unfold runC; dsimp only
  rw [View.canon_unit_zero hz2]
  simp only [View.readAt_eq_ld, harg8.read_unread, harg9.read_unread, harg10.read_unread, harg11.read_unread,
    View.ld_unit_zero (S := S1x128) hz2]
end CaseC

end Cert.KernelIdeal.Body

end
-- ==== Proof.KI.State.lean ====
import proofs.«150519_g40793599377725_cont_8to1_b_782_10_alg».proof.Proof.KI.Cover

/-!
# What the scratch buffers hold after each point, and the proof data of the pipeline

After accumulating point `n` (tile `n`, `n < 25`) the kernel has stored: the hidden layer (at point 0, never touched
again); tile `n`'s exponentials `exp (logits - m_n)` into rows `[4000 n, 4000 n + 4000)`; the running maximum `m_n` into
row `n` of the history; and the running maximum and the rescaled running sum. `acc n` names them through the pieces the
run of point `n` found, by recursion on the point: point `n + 1` runs from the running statistics point `n` left. From
point 25 on nothing changes any more.

The two big scratch buffers are only ever PARTLY specified: rows of tiles not yet consumed hold whatever they held.
The region's invariant therefore holds them at SOME contents `e`, `mh` of which only the rows written so far are
stated (`EInv`, `MHInv`). A normalising point reads one written tile and one written row, so what it writes out is a
function of the specified rows only: `outTile`.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

theorem N50 : cfg0.N = 50 := N_0
theorem N_pos : 0 < cfg0.N := by rw [N50]; decide

theorem first_of (t : Fin cfg0.N) (h : t.val = 0) : isFirst (grid0.coords t) := (isFirst_iff t).mpr h
theorem notFirst_of (t : Fin cfg0.N) (h : t.val ≠ 0) : ¬isFirst (grid0.coords t) := fun hh => h ((isFirst_iff t).mp hh)
theorem accum_of (t : Fin cfg0.N) (h : t.val < 25) : isAccum (grid0.coords t) := (isAccum_iff t).mpr h
theorem notAccum_of (t : Fin cfg0.N) (h : ¬t.val < 25) : ¬isAccum (grid0.coords t) := fun hh => h ((isAccum_iff t).mp hh)
theorem norm_of (t : Fin cfg0.N) (h : 25 ≤ t.val) : isNorm (grid0.coords t) := (isNorm_iff t).mpr h
theorem notNorm_of (t : Fin cfg0.N) (h : ¬25 ≤ t.val) : ¬isNorm (grid0.coords t) := fun hh => h ((isNorm_iff t).mp hh)

/-- The run of the first point, on the pipeline's memrefs and the input blocks there. -/
def runFirst (h : 0 < cfg0.N) :=
  runA (F := F) c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _)
    (first_of ⟨0, h⟩ rfl) (accum_of ⟨0, h⟩ (by show (0 : ℕ) < 25; omega)) (notNorm_of ⟨0, h⟩ (by show ¬25 ≤ (0 : ℕ); omega))
    (iblk m c 0 ⟨0, h⟩) (iblk m c 1 ⟨0, h⟩) (iblk m c 2 ⟨0, h⟩) (iblk m c 3 ⟨0, h⟩) (iblk m c 4 ⟨0, h⟩)

/-- The hidden layer: what the first point's store leaves in its scratch buffer. -/
def Hs : Vec F S128x128 .f32 := View.canon (runFirst m c N_pos).1

/-- What an accumulating point leaves: its pieces for the stored exponentials and for the history, and the running
    maximum and running sum it stores. -/
structure Acc (F : FTy → Type) [FloatOps F] where
  LE : List (View.Piece (Elt F) S100000x128 .f32)
  LMH : List (View.Piece (Elt F) S32x128 .f32)
  M : Vec F S1x128 .f32
  S : Vec F S1x128 .f32

/-- The run of a later accumulating point, from the running statistics `xM`, `xS`. -/
def runLater (t : Fin cfg0.N) (h0 : t.val ≠ 0) (h25 : t.val < 25) (xM xS : Vec F S1x128 .f32) :=
  runB (F := F) c (grid0.coords t) (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _)
    (notFirst_of t h0) (accum_of t h25) (notNorm_of t (by omega))
    (iblk m c 3 t) (iblk m c 4 t) (Hs m c) xM xS

/-- THE ACCUMULATION, by recursion on the point. -/
def acc : (n : ℕ) → n < cfg0.N → Acc F
  | 0, h => ⟨(runFirst m c h).2.1, (runFirst m c h).2.2.1, View.canon (runFirst m c h).2.2.2.1, View.canon (runFirst m c h).2.2.2.2.1⟩
  | n + 1, h =>
    if h25 : n + 1 < 25 then
      ⟨(runLater m c ⟨n + 1, h⟩ (Nat.succ_ne_zero n) h25 (acc n (Nat.lt_of_succ_lt h)).M (acc n (Nat.lt_of_succ_lt h)).S).1,
       (runLater m c ⟨n + 1, h⟩ (Nat.succ_ne_zero n) h25 (acc n (Nat.lt_of_succ_lt h)).M (acc n (Nat.lt_of_succ_lt h)).S).2.1,
       View.canon (runLater m c ⟨n + 1, h⟩ (Nat.succ_ne_zero n) h25 (acc n (Nat.lt_of_succ_lt h)).M (acc n (Nat.lt_of_succ_lt h)).S).2.2.1,
       View.canon (runLater m c ⟨n + 1, h⟩ (Nat.succ_ne_zero n) h25 (acc n (Nat.lt_of_succ_lt h)).M (acc n (Nat.lt_of_succ_lt h)).S).2.2.2.1⟩
    else acc n (Nat.lt_of_succ_lt h)

theorem acc_succ_lt (n : ℕ) (h : n + 1 < cfg0.N) (h25 : n + 1 < 25) :
    acc m c (n + 1) h =
      ⟨(runLater m c ⟨n + 1, h⟩ (Nat.succ_ne_zero n) h25 (acc m c n (Nat.lt_of_succ_lt h)).M (acc m c n (Nat.lt_of_succ_lt h)).S).1,
       (runLater m c ⟨n + 1, h⟩ (Nat.succ_ne_zero n) h25 (acc m c n (Nat.lt_of_succ_lt h)).M (acc m c n (Nat.lt_of_succ_lt h)).S).2.1,
       View.canon (runLater m c ⟨n + 1, h⟩ (Nat.succ_ne_zero n) h25 (acc m c n (Nat.lt_of_succ_lt h)).M (acc m c n (Nat.lt_of_succ_lt h)).S).2.2.1,
       View.canon (runLater m c ⟨n + 1, h⟩ (Nat.succ_ne_zero n) h25 (acc m c n (Nat.lt_of_succ_lt h)).M (acc m c n (Nat.lt_of_succ_lt h)).S).2.2.2.1⟩ :=
  dif_pos h25
theorem acc_succ_ge (n : ℕ) (h : n + 1 < cfg0.N) (h25 : ¬n + 1 < 25) : acc m c (n + 1) h = acc m c n (Nat.lt_of_succ_lt h) :=
  dif_neg h25

/-- The rows of the stored exponentials written up to point `k` hold the tiles' exponentials, -/
def EInv (k : ℕ) (e : Vec F S100000x128 .f32) : Prop :=
  ∀ (i : ℕ) (hi : i < cfg0.N), i ≤ k → i < 25 → ∀ y : S100000x128.Idx, 4000 * i ≤ (y 0).val → (y 0).val < 4000 * i + 4000 →
    e y = View.canon (acc m c i hi).LE y
/-- and the rows of the history written up to point `k` the running maxima. -/
def MHInv (k : ℕ) (mh : Vec F S32x128 .f32) : Prop :=
  ∀ (i : ℕ) (hi : i < cfg0.N), i ≤ k → i < 25 → ∀ y : S32x128.Idx, (y 0).val = i →
    mh y = View.canon (acc m c i hi).LMH y

theorem row_tile_lt (y : S100000x128.Idx) : (y 0).val / 4000 < cfg0.N := by
  have h : (y 0).val < 100000 := (y 0).isLt
  rw [N50]; omega
theorem row_hist_lt (y : S32x128.Idx) : min (y 0).val 24 < cfg0.N := by
  rw [N50]; omega
theorem lt24 : 24 < cfg0.N := by rw [N50]; decide

/-- The stored exponentials with every tile written, and the history with every row of a tile written (the rows past
    24 at row 24's): functions of the specified rows only. -/
def eStar : Vec F S100000x128 .f32 := fun y => View.canon (acc m c ((y 0).val / 4000) (row_tile_lt y)).LE y
def mhStar : Vec F S32x128 .f32 := fun y => View.canon (acc m c (min (y 0).val 24) (row_hist_lt y)).LMH y

/-- What a normalising point writes into the output buffer: tile `t - 25` of the stored exponentials times the row
    factor `exp (m_j - m) / s`. -/
def outTile (t : Fin cfg0.N) : Vec F S4000x128 .f32 :=
  if h : isNorm (grid0.coords t) then
    k0_pay6 (View.ld (mhStar m c) (Rect.unit (s := S32x128) (k0_off3 (grid0.coords t)) S1x128.size (k0_off3_inb (grid0.coords t) h)))
      (acc m c 24 lt24).M (acc m c 24 lt24).S
      (View.ld (eStar m c) (Rect.unit (s := S100000x128) (k0_off4 (grid0.coords t)) S4000x128.size (k0_off4_inb (grid0.coords t) h)))
  else View.canon []

/-- The region's invariant before point `n`: before the first, every scratch at anything; afterwards the hidden layer
    and the running statistics at what point `n - 1` left, the two big buffers at contents whose written rows are as
    specified, and the generator register at some state. -/
def PhiS : (n : ℕ) → n ≤ cfg0.N → sProp 𝕄
  | 0, _ => Pipeline.ΦA spec0 c
  | n + 1, hn => iprop(∃ e mh, ⌜EInv m c n e ∧ MHInv m c n mh⌝ ∗ iprop(owns (c : Thread nD τ) scH fullShare (Hs m c) ∗ owns (c : Thread nD τ) scE fullShare e ∗ owns (c : Thread nD τ) scMH fullShare mh ∗ owns (c : Thread nD τ) scM fullShare (acc m c n hn).M ∗ owns (c : Thread nD τ) scS fullShare (acc m c n hn).S) ∗ (∃ r, prngReg c r))

theorem PhiS_zero (n : ℕ) (h : n ≤ cfg0.N) (hz : n = 0) : PhiS m c n h = Pipeline.ΦA spec0 c := by
  subst hz; rfl
theorem PhiS_succ (n : ℕ) (hn : n < cfg0.N) :
    PhiS m c (n + 1) hn = iprop(∃ e mh, ⌜EInv m c n e ∧ MHInv m c n mh⌝ ∗ iprop(owns (c : Thread nD τ) scH fullShare (Hs m c) ∗ owns (c : Thread nD τ) scE fullShare e ∗ owns (c : Thread nD τ) scMH fullShare mh ∗ owns (c : Thread nD τ) scM fullShare (acc m c n hn).M ∗ owns (c : Thread nD τ) scS fullShare (acc m c n hn).S) ∗ (∃ r, prngReg c r)) := rfl
theorem PhiS_pos (n : ℕ) (h : n ≤ cfg0.N) (hz : n ≠ 0) :
    PhiS m c n h = iprop(∃ e mh, ⌜EInv m c (n - 1) e ∧ MHInv m c (n - 1) mh⌝ ∗ iprop(owns (c : Thread nD τ) scH fullShare (Hs m c) ∗ owns (c : Thread nD τ) scE fullShare e ∗ owns (c : Thread nD τ) scMH fullShare mh ∗ owns (c : Thread nD τ) scM fullShare (acc m c (n - 1) (by omega)).M ∗ owns (c : Thread nD τ) scS fullShare (acc m c (n - 1) (by omega)).S) ∗ (∃ r, prngReg c r)) := by
  cases n with
  | zero => exact absurd rfl hz
  | succ n => rfl

/-- The proof data of the pipeline on core `c`: the arrays as the region finds them; after the body at point `t` each
    input's buffer at its block and the output's at `outTile`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile m c t
  Φ t := PhiS m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = PhiS m c t.val (Nat.le_of_lt t.isLt) := by
  dsimp only [dats]; simp only [Fin.coe_castSucc]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = outTile m c t := by dsimp only [dats]

/-- Each input's current staging buffer holds its block at every point, fetched there or not. -/
theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before3 (t : Fin cfg0.N) (d) : (dats m 0 c).before 3 t d = iblk m c 3 t := before0_3_of m (dats m 0 c) (A_eq m c 3) (after3 m c) t d
theorem before4 (t : Fin cfg0.N) (d) : (dats m 0 c).before 4 t d = iblk m c 4 t := before0_4_of m (dats m 0 c) (A_eq m c 4) (after4 m c) t d

end Cert.KernelIdeal.Body

end
-- ==== Proof.KI.Body.lean ====
import proofs.«150519_g40793599377725_cont_8to1_b_782_10_alg».proof.Proof.KI.State

/-!
# The body obligation, the run of the region and the frame

At every grid point the body, called on the pipeline's current staging buffers and on the scratch buffers as the
invariant holds them, runs to the invariant of the next point: the first point establishes it from nothing; a later
accumulating point extends the written rows by one tile and one row of history; a normalising point changes no scratch
and leaves `outTile` in the output buffer. The launch theorem of the pipeline library then gives the run of @main, and
the frame claim follows from it.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Pure steps of the invariant -/

theorem hit_of {S : Shape} {L : List (View.Piece (Elt F) S .f32)} (hne : L ≠ []) {P : S.Idx → Prop}
    (hmem : ∀ y p, p ∈ L → (y ∈ p.1.set ↔ P y)) (y : S.Idx) (hy : P y) : ∃ p ∈ L, y ∈ p.1.set := by
  obtain ⟨p, hp⟩ := List.exists_mem_of_ne_nil L hne
  exact ⟨p, hp, (hmem y p hp).mpr hy⟩
theorem miss_of {S : Shape} {L : List (View.Piece (Elt F) S .f32)} {P : S.Idx → Prop}
    (hmem : ∀ y p, p ∈ L → (y ∈ p.1.set ↔ P y)) (y : S.Idx) (hy : ¬P y) : ∀ p ∈ L, y ∉ p.1.set :=
  fun p hp h => hy ((hmem y p hp).mp h)

theorem acc_congr {n n' : ℕ} (e : n = n') (h : n < cfg0.N) (h' : n' < cfg0.N) : acc m c n h = acc m c n' h' := by
  subst e; rfl

/-- Storing tile `k`'s pieces over contents whose earlier tiles are as specified gives contents whose tiles up to `k` are. -/
theorem EInv_write (k : ℕ) (hk : k < cfg0.N) (hk25 : k < 25) (M : Memref sig .tc .vmem S100000x128 .f32) (hM : M.IsWhole)
    (e : Vec F S100000x128 .f32)
    (hprev : ∀ (i : ℕ) (hi : i < cfg0.N), i < k → i < 25 → ∀ y : S100000x128.Idx, 4000 * i ≤ (y 0).val → (y 0).val < 4000 * i + 4000 →
      e y = View.canon (acc m c i hi).LE y)
    (L : List (View.Piece (Elt F) S100000x128 .f32)) (hL : (acc m c k hk).LE = L) (hne : L ≠ [])
    (hmem : ∀ y p, p ∈ L → (y ∈ p.1.set ↔ 4000 * k ≤ (y 0).val ∧ (y 0).val < 4000 * k + 4000)) :
    EInv m c k (M.view.read (Elt F) (M.view.writes (Elt F) (hM.unread e) L)) := by
  intro i hi hik hi25 y hy1 hy2
  by_cases hik' : i = k
  · subst hik'
    rw [View.read_writes_apply_eq_canon _ _ y L (hit_of hne hmem y ⟨hy1, hy2⟩), ← hL]
  · have hlt : i < k := by omega
    rw [View.read_writes_apply_of_forall_not_mem _ _ y L (miss_of hmem y (by omega)), hM.read_unread e]
    exact hprev i hi hlt hi25 y hy1 hy2

/-- The same for the history of running maxima, one row per tile. -/
theorem MHInv_write (k : ℕ) (hk : k < cfg0.N) (hk25 : k < 25) (M : Memref sig .tc .vmem S32x128 .f32) (hM : M.IsWhole)
    (mh : Vec F S32x128 .f32)
    (hprev : ∀ (i : ℕ) (hi : i < cfg0.N), i < k → i < 25 → ∀ y : S32x128.Idx, (y 0).val = i → mh y = View.canon (acc m c i hi).LMH y)
    (L : List (View.Piece (Elt F) S32x128 .f32)) (hL : (acc m c k hk).LMH = L) (hne : L ≠ [])
    (hmem : ∀ y p, p ∈ L → (y ∈ p.1.set ↔ k ≤ (y 0).val ∧ (y 0).val < k + 1)) :
    MHInv m c k (M.view.read (Elt F) (M.view.writes (Elt F) (hM.unread mh) L)) := by
  intro i hi hik hi25 y hy
  by_cases hik' : i = k
  · subst hik'
    rw [View.read_writes_apply_eq_canon _ _ y L (hit_of hne hmem y (by omega)), ← hL]
  · have hlt : i < k := by omega
    rw [View.read_writes_apply_of_forall_not_mem _ _ y L (miss_of hmem y (by omega)), hM.read_unread mh]
    exact hprev i hi hlt hi25 y hy

/-- From tile 24 on the accumulation is frozen. -/
theorem acc_ge24 : ∀ (n : ℕ) (h : n < cfg0.N), 24 ≤ n → acc m c n h = acc m c 24 lt24
  | 0, _, h24 => absurd h24 (by omega)
  | n + 1, h, h24 => by
    by_cases he : n + 1 = 24
    · exact acc_congr m c he h lt24
    · rw [acc_succ_ge m c n h (by omega)]
      exact acc_ge24 n (Nat.lt_of_succ_lt h) (by omega)

theorem EInv_mono {k k' : ℕ} (e : Vec F S100000x128 .f32) (h24 : 24 ≤ k) (h : EInv m c k e) : EInv m c k' e :=
  fun i hi _ hi25 y hy1 hy2 => h i hi (by omega) hi25 y hy1 hy2
theorem MHInv_mono {k k' : ℕ} (mh : Vec F S32x128 .f32) (h24 : 24 ≤ k) (h : MHInv m c k mh) : MHInv m c k' mh :=
  fun i hi _ hi25 y hy => h i hi (by omega) hi25 y hy

/-- What a normalising point stores into the output buffer, from ANY contents of the two big scratch buffers whose
    written rows are as specified: `outTile`. -/
theorem out_eq (t : Fin cfg0.N) (h25 : 25 ≤ t.val) (e : Vec F S100000x128 .f32) (mh : Vec F S32x128 .f32)
    (hE : EInv m c 24 e) (hMH : MHInv m c 24 mh) (f : (ms5 t).view.ty.Contents (Elt F))
    (h0 : ¬isFirst (grid0.coords t)) (h1 : ¬isAccum (grid0.coords t)) (h2 : isNorm (grid0.coords t)) :
    (ms5 t).view.read (Elt F) ((ms5 t).view.writes (Elt F) f
      (runC (F := F) c (grid0.coords t) (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) h0 h1 h2 e mh (acc m c 24 lt24).M (acc m c 24 lt24).S).1) = outTile m c t := by
  rw [View.read_writes_eq_canon _ _ _ (runC_cover c t (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) h0 h1 h2 e mh _ _), runC_canon]
  unfold outTile
  rw [dif_pos h2]
  have hN : t.val < 50 := lt_of_lt_of_eq t.isLt N50
  have h3 : View.ld mh (Rect.unit (s := S32x128) (k0_off3 (grid0.coords t)) S1x128.size (k0_off3_inb (grid0.coords t) h2))
      = View.ld (mhStar m c) (Rect.unit (s := S32x128) (k0_off3 (grid0.coords t)) S1x128.size (k0_off3_inb (grid0.coords t) h2)) := by
    funext x
    show mh (LoadRect.idx _ x) = mhStar m c (LoadRect.idx _ x)
    have hrow : ((LoadRect.idx (Rect.unit (s := S32x128) (k0_off3 (grid0.coords t)) S1x128.size (k0_off3_inb (grid0.coords t) h2)).toLoadRect x) 0).val = t.val - 25 := by
      rw [LoadRect.idx_apply]
      show k0_off3 (grid0.coords t) 0 + 1 * (x 0).val = _
      have ho : k0_off3 (grid0.coords t) 0 = t.val - 25 := congrFun (off3_eq t h25) 0
      have : (x 0).val < 1 := (x 0).isLt
      omega
    unfold mhStar
    rw [hMH (t.val - 25) (lt_of_le_of_lt (Nat.sub_le _ _) t.isLt) (by omega) (by omega) _ hrow]
    exact congrArg (fun a : Acc F => View.canon a.LMH _) (acc_congr m c (by rw [hrow]; omega) _ _)
  have h4 : View.ld e (Rect.unit (s := S100000x128) (k0_off4 (grid0.coords t)) S4000x128.size (k0_off4_inb (grid0.coords t) h2))
      = View.ld (eStar m c) (Rect.unit (s := S100000x128) (k0_off4 (grid0.coords t)) S4000x128.size (k0_off4_inb (grid0.coords t) h2)) := by
    funext x
    show e (LoadRect.idx _ x) = eStar m c (LoadRect.idx _ x)
    have hrow : ((LoadRect.idx (Rect.unit (s := S100000x128) (k0_off4 (grid0.coords t)) S4000x128.size (k0_off4_inb (grid0.coords t) h2)).toLoadRect x) 0).val = 4000 * (t.val - 25) + (x 0).val := by
      rw [LoadRect.idx_apply]
      show k0_off4 (grid0.coords t) 0 + 1 * (x 0).val = _
      have ho : k0_off4 (grid0.coords t) 0 = 4000 * (t.val - 25) := congrFun (off4_eq t h25) 0
      omega
    have hx : (x 0).val < 4000 := (x 0).isLt
    unfold eStar
    rw [hE (t.val - 25) (lt_of_le_of_lt (Nat.sub_le _ _) t.isLt) (by omega) (by omega) _ (by rw [hrow]; omega) (by rw [hrow]; omega)]
    exact congrArg (fun a : Acc F => View.canon a.LE _) (acc_congr m c (by rw [hrow]; omega) _ _)
  rw [h3, h4]

end Cert.KernelIdeal.Body

end
-- ==== Proof.KI.Obligation.lean ====
import proofs.«150519_g40793599377725_cont_8to1_b_782_10_alg».proof.Proof.KI.Body

/-!
# The body obligation at every point, the run and the frame

The three cases of the body are taken at a symbolic grid point. At point 0 the invariant is established from buffers at
arbitrary contents; at a later accumulating point the tile's rows are added to the written part of the two big scratch
buffers; at a normalising point the scratch buffers are handed back unchanged and the output buffer is left at
`outTile`. The output window is idle and not written back before point 25, so there its buffer is handed back as found.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The accumulation at a later accumulating point, from what the point before left. -/
theorem acc_at (t : Fin cfg0.N) (hz : t.val ≠ 0) (h25 : t.val < 25) :
    acc m c t.val t.isLt =
      ⟨(runLater m c t hz h25 (acc m c (t.val - 1) (by omega)).M (acc m c (t.val - 1) (by omega)).S).1,
       (runLater m c t hz h25 (acc m c (t.val - 1) (by omega)).M (acc m c (t.val - 1) (by omega)).S).2.1,
       View.canon (runLater m c t hz h25 (acc m c (t.val - 1) (by omega)).M (acc m c (t.val - 1) (by omega)).S).2.2.1,
       View.canon (runLater m c t hz h25 (acc m c (t.val - 1) (by omega)).M (acc m c (t.val - 1) (by omega)).S).2.2.2.1⟩ := by
  obtain ⟨tv, ht⟩ := t
  cases tv with
  | zero => exact absurd rfl hz
  | succ n => exact acc_succ_lt m c n ht h25

/-- The hypotheses of the accumulation at point 0 are those of the first run. -/
theorem acc_zero (h : 0 < cfg0.N) : acc m c 0 h = ⟨(runFirst m c h).2.1, (runFirst m c h).2.2.1, View.canon (runFirst m c h).2.2.2.1, View.canon (runFirst m c h).2.2.2.2.1⟩ := rfl

/-- What the body is called with at point `t`, -/
def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 50 := lt_of_lt_of_eq t.isLt N50
  by_cases h25 : t.val < 25
  · have hidle : cfg0.idle 5 (grid0.coords t) = true := (idle5_iff t).mpr h25
    have hfl : (cfg0.win 5).flush t = false := by
      cases hf : (cfg0.win 5).flush t with
      | false => rfl
      | true => exact absurd ((flush5_iff t).mp hf) (by omega)
    rw [(dats m 0 c).leavesExact_idle 5 t hidle hfl]
    by_cases hz : t.val = 0
    · -- the first point
      obtain rfl : t = ⟨0, N_pos⟩ := Fin.ext hz
      rw [Phi_castSucc m c ⟨0, N_pos⟩, PhiS_zero m c _ _ rfl, PhiA_eq]
      iintro ⟨⟨⟨⟨%dH, HH⟩, ⟨%dE, HE⟩, ⟨%dMH, HMH⟩, ⟨%dM, HM⟩, ⟨%dS, HS⟩⟩, Hg⟩, Ho, ⟨%d0, H0⟩, ⟨%d1, H1⟩, ⟨%d2, H2⟩, ⟨%d3, H3⟩, ⟨%d4, H4⟩, ⟨%d5, H5⟩⟩
      iapply ((runFirst m c N_pos).2.2.2.2.2 ((dats m 0 c).before 5 ⟨0, N_pos⟩ d5) dH dE dMH dM dS Set.univ _)
      isplitl [H0]; · iexact H0
      isplitl [H1]; · iexact H1
      isplitl [H2]; · iexact H2
      isplitl [H3]; · iexact H3
      isplitl [H4]; · iexact H4
      isplitl [H5]; · iexact H5
      isplitl [HH]; · iexact HH
      isplitl [HE]; · iexact HE
      isplitl [HMH]; · iexact HMH
      isplitl [HM]; · iexact HM
      isplitl [HS]; · iexact HS
      iintro ⟨H0, H1, H2, H3, H4, H5, HH, HE, HMH, HM, HS⟩
      isplitl [HH HE HMH HM HS Hg]
      · iexists (scE.view.read (Elt F) (scE.view.writes (Elt F) ((Memref.isWhole_whole _).unread dE) (runFirst m c N_pos).2.1)),
          (scMH.view.read (Elt F) (scMH.view.writes (Elt F) ((Memref.isWhole_whole _).unread dMH) (runFirst m c N_pos).2.2.1))
        isplitr
        · ipureintro
          exact ⟨EInv_write m c 0 N_pos (by omega) scE _ dE (fun i _ hik => absurd hik (Nat.not_lt_zero i)) _ rfl
              (runA_neE c ⟨0, N_pos⟩ _ _ _ _ _ _ _ _ _ _ _ _ _ _ _ _ _ _ _ _ _ _ _ _ _ _ _ _ _ _)
              (fun y p hp => runA_memE c ⟨0, N_pos⟩ _ _ _ _ _ _ _ _ _ _ _ _ _ _ _ _ _ _ _ _ _ _ _ _ _ _ _ _ _ _ (by show (0 : ℕ) < 25; omega) y p hp),
            MHInv_write m c 0 N_pos (by omega) scMH _ dMH (fun i _ hik => absurd hik (Nat.not_lt_zero i)) _ rfl
              (runA_neMH c ⟨0, N_pos⟩ _ _ _ _ _ _ _ _ _ _ _ _ _ _ _ _ _ _ _ _ _ _ _ _ _ _ _ _ _ _)
              (fun y p hp => runA_memMH c ⟨0, N_pos⟩ _ _ _ _ _ _ _ _ _ _ _ _ _ _ _ _ _ _ _ _ _ _ _ _ _ _ _ _ _ _ (by show (0 : ℕ) < 25; omega) y p hp)⟩
        isplitl [HH HE HMH HM HS]
        · isplitl [HH]
          · unfold owns; iexists _; isplitr
            swap; · iexact HH
            ipureintro; exact View.read_writes_eq_canon _ _ _ (fun y => runA_coverH c ⟨0, N_pos⟩ _ _ _ _ _ _ _ _ _ _ _ _ _ _ _ _ _ _ _ _ _ _ _ _ _ _ _ _ _ _ y)
          isplitl [HE]
          · unfold owns; iexists _; isplitr
            swap; · iexact HE
            ipureintro; rfl
          isplitl [HMH]
          · unfold owns; iexists _; isplitr
            swap; · iexact HMH
            ipureintro; rfl
          isplitl [HM]
          · unfold owns; iexists _; isplitr
            swap; · iexact HM
            ipureintro; exact View.read_writes_eq_canon _ _ _ (fun y => runA_coverM c ⟨0, N_pos⟩ _ _ _ _ _ _ _ _ _ _ _ _ _ _ _ _ _ _ _ _ _ _ _ _ _ _ _ _ _ _ y)
          unfold owns; iexists _; isplitr
          swap; · iexact HS
          ipureintro; exact View.read_writes_eq_canon _ _ _ (fun y => runA_coverS c ⟨0, N_pos⟩ _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · -- a later accumulating point
      rw [Phi_castSucc m c t, PhiS_pos m c _ _ hz, acc_at m c t hz h25]
      iintro ⟨⟨%e, %mh, %hinv, ⟨HH, HE, HMH, HM, HS⟩, Hg⟩, Ho, ⟨%d0, H0⟩, ⟨%d1, H1⟩, ⟨%d2, H2⟩, ⟨%d3, H3⟩, ⟨%d4, H4⟩, ⟨%d5, H5⟩⟩
      iapply ((runLater m c t hz h25 (acc m c (t.val - 1) (by omega)).M (acc m c (t.val - 1) (by omega)).S).2.2.2.2
        (iblk m c 0 t) (iblk m c 1 t) (iblk m c 2 t) ((dats m 0 c).before 5 t d5) e mh Set.univ _)
      isplitl [H0]; · iexact H0
      isplitl [H1]; · iexact H1
      isplitl [H2]; · iexact H2
      isplitl [H3]; · iexact H3
      isplitl [H4]; · iexact H4
      isplitl [H5]; · iexact H5
      isplitl [HH]; · iexact HH
      isplitl [HE]; · iexact HE
      isplitl [HMH]; · iexact HMH
      isplitl [HM]; · iexact HM
      isplitl [HS]; · iexact HS
      iintro ⟨H0, H1, H2, H3, H4, H5, HH, HE, HMH, HM, HS⟩
      isplitl [HH HE HMH HM HS Hg]
      · iexists (scE.view.read (Elt F) (scE.view.writes (Elt F) ((Memref.isWhole_whole _).unread e) (runLater m c t hz h25 (acc m c (t.val - 1) (by omega)).M (acc m c (t.val - 1) (by omega)).S).1)),
          (scMH.view.read (Elt F) (scMH.view.writes (Elt F) ((Memref.isWhole_whole _).unread mh) (runLater m c t hz h25 (acc m c (t.val - 1) (by omega)).M (acc m c (t.val - 1) (by omega)).S).2.1))
        isplitr
        · ipureintro
          exact ⟨EInv_write m c t.val t.isLt h25 scE _ e (fun i hi hik hi25 y hy1 hy2 => hinv.1 i hi (by omega) hi25 y hy1 hy2) _
              (by rw [acc_at m c t hz h25])
              (runB_neE c t _ _ _ _ _ _ _ _ _ _ _ _ _ _ _ _ _ _ _ _ _ _ _ _ _ _ _ _ _ _)
              (fun y p hp => runB_memE c t _ _ _ _ _ _ _ _ _ _ _ _ _ _ _ _ _ _ _ _ _ _ _ _ _ _ _ _ _ _ h25 y p hp),
            MHInv_write m c t.val t.isLt h25 scMH _ mh (fun i hi hik hi25 y hy => hinv.2 i hi (by omega) hi25 y hy) _
              (by rw [acc_at m c t hz h25])
              (runB_neMH c t _ _ _ _ _ _ _ _ _ _ _ _ _ _ _ _ _ _ _ _ _ _ _ _ _ _ _ _ _ _)
              (fun y p hp => runB_memMH c t _ _ _ _ _ _ _ _ _ _ _ _ _ _ _ _ _ _ _ _ _ _ _ _ _ _ _ _ _ _ h25 y p hp)⟩
        isplitl [HH HE HMH HM HS]
        · isplitl [HH]; · iexact HH
          isplitl [HE]
          · unfold owns; iexists _; isplitr
            swap; · iexact HE
            ipureintro; rfl
          isplitl [HMH]
          · unfold owns; iexists _; isplitr
            swap; · iexact HMH
            ipureintro; rfl
          isplitl [HM]
          · unfold owns; iexists _; isplitr
            swap; · iexact HM
            ipureintro; exact View.read_writes_eq_canon _ _ _ (fun y => runB_coverM c t _ _ _ _ _ _ _ _ _ _ _ _ _ _ _ _ _ _ _ _ _ _ _ _ _ _ _ _ _ _ y)
          unfold owns; iexists _; isplitr
          swap; · iexact HS
          ipureintro; exact View.read_writes_eq_canon _ _ _ (fun y => runB_coverS c t _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · -- a normalising point
    have h25' : 25 ≤ t.val := by omega
    have hz : t.val ≠ 0 := by omega
    have hlive : cfg0.idle 5 (grid0.coords t) = false := by
      cases hi : cfg0.idle 5 (grid0.coords t) with
      | false => rfl
      | true => exact absurd ((idle5_iff t).mp hi) h25
    rw [show (dats m 0 c).leavesExact 5 t = owns (c : Thread nD τ) (ms5 t) fullShare ((dats m 0 c).after 5 t) from by
      unfold Dat.leavesExact; rw [hlive], after5]
    rw [Phi_castSucc m c t, PhiS_pos m c _ _ hz, acc_ge24 m c (t.val - 1) (by omega) (by omega), acc_ge24 m c t.val t.isLt (by omega)]
    iintro ⟨⟨%e, %mh, %hinv, ⟨HH, HE, HMH, HM, HS⟩, Hg⟩, Ho, ⟨%d0, H0⟩, ⟨%d1, H1⟩, ⟨%d2, H2⟩, ⟨%d3, H3⟩, ⟨%d4, H4⟩, ⟨%d5, H5⟩⟩
    iapply ((runC (F := F) c (grid0.coords t) (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) (notFirst_of t hz) (notAccum_of t h25) (norm_of t h25')
        e mh (acc m c 24 lt24).M (acc m c 24 lt24).S).2
      (iblk m c 0 t) (iblk m c 1 t) (iblk m c 2 t) (iblk m c 3 t) (iblk m c 4 t) ((dats m 0 c).before 5 t d5) (Hs m c) Set.univ _)
    isplitl [H0]; · iexact H0
    isplitl [H1]; · iexact H1
    isplitl [H2]; · iexact H2
    isplitl [H3]; · iexact H3
    isplitl [H4]; · iexact H4
    isplitl [H5]; · iexact H5
    isplitl [HH]; · iexact HH
    isplitl [HE]; · iexact HE
    isplitl [HMH]; · iexact HMH
    isplitl [HM]; · iexact HM
    isplitl [HS]; · iexact HS
    iintro ⟨H0, H1, H2, H3, H4, H5, HH, HE, HMH, HM, HS⟩
    isplitl [HH HE HMH HM HS Hg]
    · iexists e, mh
      isplitr
      · ipureintro
        exact ⟨EInv_mono m c e (by omega : 24 ≤ t.val - 1) hinv.1, MHInv_mono m c mh (by omega : 24 ≤ t.val - 1) hinv.2⟩
      isplitl [HH HE HMH HM HS]
      · isplitl [HH]; · iexact HH
        isplitl [HE]; · iexact HE
        isplitl [HMH]; · iexact HMH
        isplitl [HM]; · iexact HM
        iexact HS
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact out_eq m c t h25' e mh (EInv_mono m c e (by omega : 24 ≤ t.val - 1) hinv.1) (MHInv_mono m c mh (by omega : 24 ≤ t.val - 1) hinv.2) _ _ _ _

/-- The library's body obligation, at every point. -/
theorem body_obligation : BodyObligation (dats (F := F) m 0 c) (defs₀ (F := F)) Variants.none () Set.univ := fun t => by
  rw [bigSep_W0, bigSep_W0]
  exact sound_body m c t

/-- What the launch hands the region is the invariant before the first point. -/
theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives every scratch buffer back at some contents. -/
theorem hout : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N50; omega), PhiA_eq]
  iintro ⟨%e, %mh, -, ⟨HH, HE, HMH, HM, HS⟩, Hg⟩
  isplitl [HH HE HMH HM HS]
  · isplitl [HH]; · iexists _; iexact HH
    isplitl [HE]; · iexists _; iexact HE
    isplitl [HMH]; · iexists _; iexact HMH
    isplitl [HM]; · iexists _; iexact HM
    iexists _; iexact HS
  iexact Hg

/-! ## The run and the frame -/

set_option backward.isDefEq.respectTransparency.types false in
/-- Every weakly fair execution of @main terminates; in every final state each array of the pipeline holds what its
    write-backs left (the output: the normalised tiles) and every other unscoped buffer what the host operations after
    the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun c w => A_eq m c w) (hin := fun c => hin m c) (hout := fun c => hout m c)

/-- The frame: @main terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (fun c w => A_eq m c w) (run_main m ρ)

end Cert.KernelIdeal.Body

end
-- ==== Proof.KernelTail.lean ====
import proofs.«150519_g40793599377725_cont_8to1_b_782_10_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

/-!
# The result array after the kernel

One host operation follows the kernel: the kernel's `[100000, 128]` result, actions first, is transposed into
the `[128, 100000]` result of the program. So, whatever the kernel's run leaves in its output array, the
program's result at `(b, n)` is that array at `(n, b)`.
-/

noncomputable section

open Idealize.ShloMosaic Idealize.ShloMosaic.TcCoe Idealize.SL.Sem Idealize.ShloMosaic.ValueIdx

namespace Cert.KernelIdeal.Arrays

open Cert.KernelIdeal Cert.KernelIdeal.Gen

variable {F : FTy → Type} [FloatOps F]
variable (m : (ℓ : Loc nD τ sig) → Buf (Elt F) ℓ)

/-- The program's result is the transpose of what the kernel's output array holds after the last grid point. -/
theorem tail_term (dats : (p : Fin 1) → (c : Dev nD) → Pipeline.Dat τ (Elt F) Unit ℕ (UR sig nD τ) ℕ (cfgs p) c)
    (c : Dev nD) :
    (Pipeline.afterTail₀ cfgs dats 0 (V0 m) [hostOps1] c main_v0 : (⟨S128x100000, .f32⟩ : BufTy).Contents (Elt F))
      = transpose S128x100000 [1, 0] ((dats 0 c).arrAt 5 cfg0.N : (⟨S100000x128, .f32⟩ : BufTy).Contents (Elt F))
          transposes_S100000x128_S128x100000_1_0 := by
  unfold Pipeline.afterTail₀
  show StableHlo.after hostOps1 _ (Proc.devRef .tc main_v0) = _
  after_results
  exact congrArg (fun x : (⟨S100000x128, .f32⟩ : BufTy).Contents (Elt F) =>
      transpose S128x100000 [1, 0] x transposes_S100000x128_S128x100000_1_0)
    (Pipeline.withArrays_arr spec0 launch0.win.arr_inj c (V0 m c) (fun w => (dats 0 c).arrAt w cfg0.N) 5)

/-- The same, index by index: batch row `b`, action `n` of the result is action `n`, batch column `b` of the
    kernel's output array. -/
theorem tail_apply (dats : (p : Fin 1) → (c : Dev nD) → Pipeline.Dat τ (Elt F) Unit ℕ (UR sig nD τ) ℕ (cfgs p) c)
    (c : Dev nD) (b : Fin 128) (n : Fin 100000) :
    (Pipeline.afterTail₀ cfgs dats 0 (V0 m) [hostOps1] c main_v0 : (⟨S128x100000, .f32⟩ : BufTy).Contents (Elt F)) (ix2 b n)
      = ((dats 0 c).arrAt 5 cfg0.N : (⟨S100000x128, .f32⟩ : BufTy).Contents (Elt F)) (ix2 n b) := by
  rw [tail_term]
  exact transpose_ix2_apply _ transposes_S100000x128_S128x100000_1_0 b n

end Cert.KernelIdeal.Arrays

end
-- ==== Proof.KI.Pieces.lean ====
import proofs.«150519_g40793599377725_cont_8to1_b_782_10_alg».proof.Proof.KI.Cover
import Idealize.ShloMosaic.Lib.Pipeline.Value

/-!
# What each accumulating point's stores hold

A point that consumes a tile writes four scratch buffers: the rows of its tile of the stored exponentials, its row of the
history of running maxima, the running maximum and the running sum; the first point also writes the hidden layer before
it. Each stored value is one of the body's payloads applied to what the point loaded. At a later point the loads read the
buffers' contents as found. At the first point the hidden layer, the running maximum and the running sum are read back
after the point's own stores, so they read the hidden layer just computed, `-∞` and `0`.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section CaseB
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : ¬isFirst (grid0.coords t)) (hc1 : isAccum (grid0.coords t)) (hc2 : ¬isNorm (grid0.coords t))
  (x3 : Vec F S4000x128 .f32) (x4 : Vec F S4000x25 .f32) (xH : Vec F S128x128 .f32) (xM : Vec F S1x128 .f32) (xS : Vec F S1x128 .f32)

/-- A later accumulating point leaves, as the running maximum, the larger of the old one and the tile's column maxima, -/
theorem runB_canonM : View.canon (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.2.1
    = k0_pay5 (k0_pay8 (BitVec.ofNat 32 (grid0.coords t 0).val) x4 x3 xH xM) := by
  unfold runB; dsimp only
  rw [View.canon_unit_zero hz2]
  sl_unfold_words
  simp only [View.readAt_eq_ld, harg4.read_unread, harg5.read_unread, harg7.read_unread, harg10.read_unread, harg11.read_unread,
    View.ld_unit_zero (S := S1x128) hz2, View.ld_unit_zero (S := S4000x25) hz2, View.ld_unit_zero (S := S4000x128) hz2,
    View.ld_unit_zero (S := S128x128) hz2]

/-- as the running sum, the old one rescaled to the new maximum plus the tile's column sums of exponentials, -/
theorem runB_canonS : View.canon (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.2.2.1
    = k0_pay4 (k0_pay12 (BitVec.ofNat 32 (grid0.coords t 0).val) x4 x3 xH xM xS xM)
        (k0_pay13 (BitVec.ofNat 32 (grid0.coords t 0).val) x4 x3 xH xM) := by
  unfold runB; dsimp only
  rw [View.canon_unit_zero hz2]
  sl_unfold_words
  simp only [View.readAt_eq_ld, harg4.read_unread, harg5.read_unread, harg7.read_unread, harg10.read_unread, harg11.read_unread,
    View.ld_unit_zero (S := S1x128) hz2, View.ld_unit_zero (S := S4000x25) hz2, View.ld_unit_zero (S := S4000x128) hz2,
    View.ld_unit_zero (S := S128x128) hz2]

/-- in the rows of its tile of the stored exponentials, the tile's exponentials, -/
theorem runB_pieceE (x : S4000x128.Idx) : View.canon (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).1
      ((Rect.unit (s := S100000x128) (k0_off1 (grid0.coords t)) S4000x128.size (k0_off1_inb (grid0.coords t) hc1)).emb x)
    = k0_pay10 (BitVec.ofNat 32 (grid0.coords t 0).val) x4 x3 xH xM x := by
  unfold runB; dsimp only
  rw [View.canon_cons_emb]
  simp only [View.readAt_eq_ld, harg4.read_unread, harg5.read_unread, harg7.read_unread, harg10.read_unread, harg11.read_unread,
    View.ld_unit_zero (S := S1x128) hz2, View.ld_unit_zero (S := S4000x25) hz2, View.ld_unit_zero (S := S4000x128) hz2,
    View.ld_unit_zero (S := S128x128) hz2]

/-- and in its row of the history, the new running maximum. -/
theorem runB_pieceMH (x : S1x128.Idx) : View.canon (runB c (grid0.coords t) arg1 harg1 arg2 harg2 arg3 harg3 arg4 harg4 arg5 harg5 arg6 harg6 arg7 harg7 arg8 harg8 arg9 harg9 arg10 harg10 arg11 harg11 hc0 hc1 hc2 x3 x4 xH xM xS).2.1
      ((Rect.unit (s := S32x128) (k0_off2 (grid0.coords t)) S1x128.size (k0_off2_inb (grid0.coords t) hc1)).emb x)
    = k0_pay11 (BitVec.ofNat 32 (grid0.coords t 0).val) x4 x3 xH xM x := by
  unfold runB; dsimp only
  rw [View.canon_cons_emb]
  simp only [View.readAt_eq_ld, harg4.read_unread, harg5.read_unread, harg7.read_unread, harg10.read_unread, harg11.read_unread,
    View.ld_unit_zero (S := S1x128) hz2, View.ld_unit_zero (S := S4000x25) hz2, View.ld_unit_zero (S := S4000x128) hz2,
    View.ld_unit_zero (S := S128x128) hz2]
end CaseB

/-- The hidden layer the first point computes from its input blocks: the twenty leading slabs and the last slab of the
    states block, the first weight and the first bias. -/
abbrev hiddenOf (x0 : Vec F S21x128x128 .f32) (x1 : Vec F S256x128 .f32) (x2 : Vec F S1x128 .f32) : FVec F S128x128 .f32 :=
  k0_pay1 (View.ld x0 (Rect.unit (s := S21x128x128) ![0, 0, 0] S20x128x128.size inb_S21x128x128_S20x128x128_0_0_0))
    (View.ld x0 (Rect.unit (s := S21x128x128) ![20, 0, 0] S1x128x128.size inb_S21x128x128_S1x128x128_20_0_0)) x1 x2

section CaseA
variable (c : Dev nD) (t : Fin cfg0.N) (arg1 : Memref sig .tc .vmem S21x128x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S4000x128 .f32) (harg4 : arg4.IsWhole) (arg5 : Memref sig .tc .vmem S4000x25 .f32) (harg5 : arg5.IsWhole) (arg6 : Memref sig .tc .vmem S4000x128 .f32) (harg6 : arg6.IsWhole) (arg7 : Memref sig .tc .vmem S128x128 .f32) (harg7 : arg7.IsWhole) (arg8 : Memref sig .tc .vmem S100000x128 .f32) (harg8 : arg8.IsWhole) (arg9 : Memref sig .tc .vmem S32x128 .f32) (harg9 : arg9.IsWhole) (arg10 : Memref sig .tc .vmem S1x128 .f32) (harg10 : arg10.IsWhole) (arg11 : Memref sig .tc .vmem S1x128 .f32) (harg11 : arg11.IsWhole) (hc0 : isFirst (grid0.coords t)) (hc1 : isAccum (grid0.coords t)) (hc2 : ¬isNorm (grid0.coords t))
  (x0 : Vec F S21x128x128 .f32) (x1 : Vec F S256x128 .f32) (x2 : Vec F S1x128 .f32) (x3 : Vec F S4000x128 .f32) (x4 : Vec F S4000x25 .f32)

/-- The first point leaves the hidden layer in its scratch buffer, -/
theorem runA_canonH : View.canon (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).1 = hiddenOf x0 x1 x2 := by
  unfold runA; dsimp only
  sl_unfold_words
  rw [View.canon_unit_zero hz2]
  simp only [View.readAt_eq_ld, harg1.read_unread, harg2.read_unread, harg3.read_unread,
    View.ld_unit_zero (S := S1x128) hz2, View.ld_unit_zero (S := S256x128) hz2]

/-- as the running maximum, the larger of `-∞` and the first tile's column maxima (it reads back the hidden layer and the
    `-∞` it has just stored), -/
theorem runA_canonM : View.canon (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.2.1
    = k0_pay5 (k0_pay8 (BitVec.ofNat 32 (grid0.coords t 0).val) x4 x3 (hiddenOf x0 x1 x2) k0_pay2) := by
  unfold runA; dsimp only
  rw [View.canon_cons_unit_zero (S := S1x128) hz2]
  sl_unfold_words
  simp only [View.readCov_unit_zero (S := S128x128) _ hz2, View.readCov_unit_zero (S := S1x128) _ hz2,
    View.readAt_eq_ld, harg1.read_unread, harg2.read_unread, harg3.read_unread, harg4.read_unread, harg5.read_unread,
    View.ld_unit_zero (S := S1x128) hz2, View.ld_unit_zero (S := S256x128) hz2, View.ld_unit_zero (S := S4000x25) hz2,
    View.ld_unit_zero (S := S4000x128) hz2]

/-- as the running sum, `0` rescaled plus the first tile's column sums of exponentials, -/
theorem runA_canonS : View.canon (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.2.2.1
    = k0_pay4 (k0_pay12 (BitVec.ofNat 32 (grid0.coords t 0).val) x4 x3 (hiddenOf x0 x1 x2) k0_pay2 k0_pay3 k0_pay2)
        (k0_pay13 (BitVec.ofNat 32 (grid0.coords t 0).val) x4 x3 (hiddenOf x0 x1 x2) k0_pay2) := by
  unfold runA; dsimp only
  sl_unfold_words
  rw [View.canon_cons_unit_zero (S := S1x128) hz2]
  simp only [View.readCov_unit_zero (S := S128x128) _ hz2, View.readCov_unit_zero (S := S1x128) _ hz2,
    View.readAt_eq_ld, harg1.read_unread, harg2.read_unread, harg3.read_unread, harg4.read_unread, harg5.read_unread,
    View.ld_unit_zero (S := S1x128) hz2, View.ld_unit_zero (S := S256x128) hz2, View.ld_unit_zero (S := S4000x25) hz2,
    View.ld_unit_zero (S := S4000x128) hz2]

/-- in the rows of tile 0 of the stored exponentials, that tile's exponentials, -/
theorem runA_pieceE (x : S4000x128.Idx) : View.canon (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.1
      ((Rect.unit (s := S100000x128) (k0_off1 (grid0.coords t)) S4000x128.size (k0_off1_inb (grid0.coords t) hc1)).emb x)
    = k0_pay10 (BitVec.ofNat 32 (grid0.coords t 0).val) x4 x3 (hiddenOf x0 x1 x2) k0_pay2 x := by
  unfold runA; dsimp only
  rw [View.canon_cons_emb]
  sl_unfold_words
  simp only [View.readCov_unit_zero (S := S128x128) _ hz2, View.readCov_unit_zero (S := S1x128) _ hz2,
    View.readAt_eq_ld, harg1.read_unread, harg2.read_unread, harg3.read_unread, harg4.read_unread, harg5.read_unread,
    View.ld_unit_zero (S := S1x128) hz2, View.ld_unit_zero (S := S256x128) hz2, View.ld_unit_zero (S := S4000x25) hz2,
    View.ld_unit_zero (S := S4000x128) hz2]

/-- and in row 0 of the history, the new running maximum. -/
theorem runA_pieceMH (x : S1x128.Idx) : View.canon (runA c (grid0.coords t) arg1 harg1 arg2 harg2 arg3 harg3 arg4 harg4 arg5 harg5 arg6 harg6 arg7 harg7 arg8 harg8 arg9 harg9 arg10 harg10 arg11 harg11 hc0 hc1 hc2 x0 x1 x2 x3 x4).2.2.1
      ((Rect.unit (s := S32x128) (k0_off2 (grid0.coords t)) S1x128.size (k0_off2_inb (grid0.coords t) hc1)).emb x)
    = k0_pay11 (BitVec.ofNat 32 (grid0.coords t 0).val) x4 x3 (hiddenOf x0 x1 x2) k0_pay2 x := by
  unfold runA; dsimp only
  rw [View.canon_cons_emb]
  sl_unfold_words
  simp only [View.readCov_unit_zero (S := S128x128) _ hz2, View.readCov_unit_zero (S := S1x128) _ hz2,
    View.readAt_eq_ld, harg1.read_unread, harg2.read_unread, harg3.read_unread, harg4.read_unread, harg5.read_unread,
    View.ld_unit_zero (S := S1x128) hz2, View.ld_unit_zero (S := S256x128) hz2, View.ld_unit_zero (S := S4000x25) hz2,
    View.ld_unit_zero (S := S4000x128) hz2]
end CaseA

end Cert.KernelIdeal.Body
end
-- ==== Proof.KernelValuePoints.lean ====
import proofs.«150519_g40793599377725_cont_8to1_b_782_10_alg».proof.Proof.KI.State
import proofs.«150519_g40793599377725_cont_8to1_b_782_10_alg».proof.Proof.KI.Pieces
import Idealize.ShloMosaic.Lib.ValueIdx

/-!
# The accumulating points' stores on the pipeline's own memrefs and blocks

The first point's run and a later point's run, called with the pipeline's staging memrefs, the five scratch
buffers and the input blocks at the point, leave: the hidden layer; the running maximum and the running sum as
payloads of the blocks, of the hidden layer and of the running statistics found; the tile's exponentials in rows
`4000 t … 4000 t + 3999` of the stored exponentials; and the running maximum in row `t` of the history.
-/

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Body

variable (m : (ℓ : Loc nD τ sig) → Buf (Elt Ideal) ℓ) (c : Dev nD)

/-! ## The points' stores, on the pipeline's own memrefs and blocks -/

/-- The first point leaves the hidden layer, -/
theorem first_H (h : 0 < cfg0.N) :
    View.canon (runFirst m c h).1 = hiddenOf (iblk m c 0 ⟨0, h⟩) (iblk m c 1 ⟨0, h⟩) (iblk m c 2 ⟨0, h⟩) :=
  runA_canonH c ⟨0, h⟩ (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _) (first_of ⟨0, h⟩ rfl) (accum_of ⟨0, h⟩ (Nat.zero_lt_succ 24)) (notNorm_of ⟨0, h⟩ (Nat.not_succ_le_zero 24)) (iblk m c 0 ⟨0, h⟩) (iblk m c 1 ⟨0, h⟩) (iblk m c 2 ⟨0, h⟩) (iblk m c 3 ⟨0, h⟩) (iblk m c 4 ⟨0, h⟩)

/-- the running maximum after tile 0 from `-∞`, -/
theorem first_M (h : 0 < cfg0.N) :
    View.canon (runFirst m c h).2.2.2.1
      = k0_pay5 (k0_pay8 (BitVec.ofNat 32 (grid0.coords ⟨0, h⟩ 0).val) (iblk m c 4 ⟨0, h⟩) (iblk m c 3 ⟨0, h⟩) (Hs m c) (k0_pay2 (F := Ideal))) := by
  have e := runA_canonM c ⟨0, h⟩ (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _) (first_of ⟨0, h⟩ rfl) (accum_of ⟨0, h⟩ (Nat.zero_lt_succ 24)) (notNorm_of ⟨0, h⟩ (Nat.not_succ_le_zero 24)) (iblk m c 0 ⟨0, h⟩) (iblk m c 1 ⟨0, h⟩) (iblk m c 2 ⟨0, h⟩) (iblk m c 3 ⟨0, h⟩) (iblk m c 4 ⟨0, h⟩)
  rw [← first_H m c h] at e
  exact e

/-- the running sum after tile 0 from `0`, -/
theorem first_S (h : 0 < cfg0.N) :
    View.canon (runFirst m c h).2.2.2.2.1
      = k0_pay4 (k0_pay12 (BitVec.ofNat 32 (grid0.coords ⟨0, h⟩ 0).val) (iblk m c 4 ⟨0, h⟩) (iblk m c 3 ⟨0, h⟩) (Hs m c) (k0_pay2 (F := Ideal)) (k0_pay3 (F := Ideal)) (k0_pay2 (F := Ideal)))
          (k0_pay13 (BitVec.ofNat 32 (grid0.coords ⟨0, h⟩ 0).val) (iblk m c 4 ⟨0, h⟩) (iblk m c 3 ⟨0, h⟩) (Hs m c) (k0_pay2 (F := Ideal))) := by
  have e := runA_canonS c ⟨0, h⟩ (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _) (first_of ⟨0, h⟩ rfl) (accum_of ⟨0, h⟩ (Nat.zero_lt_succ 24)) (notNorm_of ⟨0, h⟩ (Nat.not_succ_le_zero 24)) (iblk m c 0 ⟨0, h⟩) (iblk m c 1 ⟨0, h⟩) (iblk m c 2 ⟨0, h⟩) (iblk m c 3 ⟨0, h⟩) (iblk m c 4 ⟨0, h⟩)
  rw [← first_H m c h] at e
  exact e

/-- tile 0's exponentials, -/
theorem first_E (h : 0 < cfg0.N) (x : S4000x128.Idx) :
    View.canon (runFirst m c h).2.1
        ((Rect.unit (s := S100000x128) (k0_off1 (grid0.coords ⟨0, h⟩)) S4000x128.size
          (k0_off1_inb (grid0.coords ⟨0, h⟩) (accum_of ⟨0, h⟩ (Nat.zero_lt_succ 24)))).emb x)
      = k0_pay10 (BitVec.ofNat 32 (grid0.coords ⟨0, h⟩ 0).val) (iblk m c 4 ⟨0, h⟩) (iblk m c 3 ⟨0, h⟩) (Hs m c) (k0_pay2 (F := Ideal)) x := by
  have e := runA_pieceE c ⟨0, h⟩ (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _) (first_of ⟨0, h⟩ rfl) (accum_of ⟨0, h⟩ (Nat.zero_lt_succ 24)) (notNorm_of ⟨0, h⟩ (Nat.not_succ_le_zero 24)) (iblk m c 0 ⟨0, h⟩) (iblk m c 1 ⟨0, h⟩) (iblk m c 2 ⟨0, h⟩) (iblk m c 3 ⟨0, h⟩) (iblk m c 4 ⟨0, h⟩) x
  rw [← first_H m c h] at e
  exact e

/-- and the running maximum in row 0 of the history. -/
theorem first_MH (h : 0 < cfg0.N) (x : S1x128.Idx) :
    View.canon (runFirst m c h).2.2.1
        ((Rect.unit (s := S32x128) (k0_off2 (grid0.coords ⟨0, h⟩)) S1x128.size
          (k0_off2_inb (grid0.coords ⟨0, h⟩) (accum_of ⟨0, h⟩ (Nat.zero_lt_succ 24)))).emb x)
      = k0_pay11 (BitVec.ofNat 32 (grid0.coords ⟨0, h⟩ 0).val) (iblk m c 4 ⟨0, h⟩) (iblk m c 3 ⟨0, h⟩) (Hs m c) (k0_pay2 (F := Ideal)) x := by
  have e := runA_pieceMH c ⟨0, h⟩ (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) scH (Memref.isWhole_whole _) scE (Memref.isWhole_whole _) scMH (Memref.isWhole_whole _) scM (Memref.isWhole_whole _) scS (Memref.isWhole_whole _) (first_of ⟨0, h⟩ rfl) (accum_of ⟨0, h⟩ (Nat.zero_lt_succ 24)) (notNorm_of ⟨0, h⟩ (Nat.not_succ_le_zero 24)) (iblk m c 0 ⟨0, h⟩) (iblk m c 1 ⟨0, h⟩) (iblk m c 2 ⟨0, h⟩) (iblk m c 3 ⟨0, h⟩) (iblk m c 4 ⟨0, h⟩) x
  rw [← first_H m c h] at e
  exact e

section Later
variable (t : Fin cfg0.N) (h0 : t.val ≠ 0) (h25 : t.val < 25) (xM xS : Vec Ideal S1x128 .f32)

/-- A later accumulating point leaves the running maximum, -/
theorem later_M :
    View.canon (runLater m c t h0 h25 xM xS).2.2.1
      = k0_pay5 (k0_pay8 (BitVec.ofNat 32 (grid0.coords t 0).val) (iblk m c 4 t) (iblk m c 3 t) (Hs m c) xM) :=
  runB_canonM c t (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) (notFirst_of t h0) (accum_of t h25) (notNorm_of t (Nat.not_le.mpr h25)) (iblk m c 3 t) (iblk m c 4 t) (Hs m c) xM xS

/-- the running sum, -/
theorem later_S :
    View.canon (runLater m c t h0 h25 xM xS).2.2.2.1
      = k0_pay4 (k0_pay12 (BitVec.ofNat 32 (grid0.coords t 0).val) (iblk m c 4 t) (iblk m c 3 t) (Hs m c) xM xS xM)
          (k0_pay13 (BitVec.ofNat 32 (grid0.coords t 0).val) (iblk m c 4 t) (iblk m c 3 t) (Hs m c) xM) :=
  runB_canonS c t (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) (notFirst_of t h0) (accum_of t h25) (notNorm_of t (Nat.not_le.mpr h25)) (iblk m c 3 t) (iblk m c 4 t) (Hs m c) xM xS

/-- its tile's exponentials, -/
theorem later_E (x : S4000x128.Idx) :
    View.canon (runLater m c t h0 h25 xM xS).1
        ((Rect.unit (s := S100000x128) (k0_off1 (grid0.coords t)) S4000x128.size
          (k0_off1_inb (grid0.coords t) (accum_of t h25))).emb x)
      = k0_pay10 (BitVec.ofNat 32 (grid0.coords t 0).val) (iblk m c 4 t) (iblk m c 3 t) (Hs m c) xM x :=
  runB_pieceE c t (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) (notFirst_of t h0) (accum_of t h25) (notNorm_of t (Nat.not_le.mpr h25)) (iblk m c 3 t) (iblk m c 4 t) (Hs m c) xM xS x

/-- and the running maximum in its row of the history. -/
theorem later_MH (x : S1x128.Idx) :
    View.canon (runLater m c t h0 h25 xM xS).2.1
        ((Rect.unit (s := S32x128) (k0_off2 (grid0.coords t)) S1x128.size
          (k0_off2_inb (grid0.coords t) (accum_of t h25))).emb x)
      = k0_pay11 (BitVec.ofNat 32 (grid0.coords t 0).val) (iblk m c 4 t) (iblk m c 3 t) (Hs m c) xM x :=
  runB_pieceMH c t (ms0 t) (hs0 t) (ms1 t) (hs1 t) (ms2 t) (hs2 t) (ms3 t) (hs3 t) (ms4 t) (hs4 t) (ms5 t) (hs5 t) scH (Memref.isWhole_whole _) scE (Memref.isWhole_whole _) scMH (Memref.isWhole_whole _) scM (Memref.isWhole_whole _) scS (Memref.isWhole_whole _) (notFirst_of t h0) (accum_of t h25) (notNorm_of t (Nat.not_le.mpr h25)) (iblk m c 3 t) (iblk m c 4 t) (Hs m c) xM xS x

end Later

/-! ## Where a point's tile and history row sit in the scratch buffers -/

/-- Row `r` of tile `i < 25` is an action. -/
theorem tileRow_lt (i : ℕ) (hi : i < 25) (r : Fin 4000) : 4000 * i + r.val < 100000 := by
  have := r.isLt
  omega

/-- Row `r` of the tile point `t` stores is row `4000 t + r` of the stored exponentials. -/
theorem embE (t : Fin cfg0.N) (h25 : t.val < 25) (hc1 : isAccum (grid0.coords t)) (r : Fin 4000) (b : Fin 128) :
    (Rect.unit (s := S100000x128) (k0_off1 (grid0.coords t)) S4000x128.size (k0_off1_inb (grid0.coords t) hc1)).emb (ix2 r b)
      = ix2 (⟨4000 * t.val + r.val, tileRow_lt t.val h25 r⟩ : Fin 100000) b := by
  have ho := off1_eq t h25
  funext a
  apply Fin.ext
  match a with
  | ⟨0, _⟩ =>
    show k0_off1 (grid0.coords t) 0 + 1 * r.val = 4000 * t.val + r.val
    rw [ho]
    show 4000 * t.val + 1 * r.val = 4000 * t.val + r.val
    omega
  | ⟨1, _⟩ =>
    show k0_off1 (grid0.coords t) 1 + 1 * b.val = b.val
    rw [ho]
    show 0 + 1 * b.val = b.val
    omega

/-- The history row point `t` stores is row `t`. -/
theorem embMH (t : Fin cfg0.N) (h25 : t.val < 25) (hc1 : isAccum (grid0.coords t)) (u : Fin 1) (b : Fin 128) :
    (Rect.unit (s := S32x128) (k0_off2 (grid0.coords t)) S1x128.size (k0_off2_inb (grid0.coords t) hc1)).emb (ix2 u b)
      = ix2 (⟨t.val, Nat.lt_trans h25 (by decide)⟩ : Fin 32) b := by
  have ho := off2_eq t h25
  have hu : u.val = 0 := by omega
  funext a
  apply Fin.ext
  match a with
  | ⟨0, _⟩ =>
    show k0_off2 (grid0.coords t) 0 + 1 * u.val = t.val
    rw [ho]
    show t.val + 1 * u.val = t.val
    omega
  | ⟨1, _⟩ =>
    show k0_off2 (grid0.coords t) 1 + 1 * b.val = b.val
    rw [ho]
    show 0 + 1 * b.val = b.val
    omega

end Cert.KernelIdeal.Value

end
-- ==== Proof.KernelPayLiterals.lean ====
import Idealize.ShloMosaic.PureOps.Ideal.Laws

/-!
# The float literals of the kernel as extended reals

The binary32 word `0xFF800000` is `-∞` and the word `0x3F800000` is the real `1`
(the word `0x00000000` is `0`: `Ideal.ofBits_zero_f32`).
-/

noncomputable section

namespace Cert.KernelIdeal.Pay

open Idealize.ShloMosaic

/-- The word `0xFF800000`: sign set, exponent all ones, zero fraction — minus infinity. -/
theorem ofBits_negInf : Ideal.ofBits .f32 0xFF800000#32 = ⊥ := by
  simp [Ideal.ofBits, Ideal.ieee]

/-- The word `0x3F800000`: exponent equal to the bias, zero fraction — the real one. -/
theorem ofBits_one : Ideal.ofBits .f32 0x3F800000#32 = 1 :=
  IdealRules.sign_bit.ideal_onePat .f32

end Cert.KernelIdeal.Pay

end
-- ==== Proof.KernelPayInit.lean ====
import proofs.«150519_g40793599377725_cont_8to1_b_782_10_alg».proof.Proof.Gen.KernelIdeal.Skeleton
import proofs.«150519_g40793599377725_cont_8to1_b_782_10_alg».proof.Proof.KernelPayLiterals
import Idealize.ShloMosaic.Lib.ValueIdx
import Idealize.ShloMosaic.Lib.Pipeline.Value
import Idealize.ShloMosaic.PureOps.Ideal.Laws

/-!
# The initial running maximum and running sum

Before the first tile the running maximum of every row is `-∞` and the running sum of every row is `0`.
-/

noncomputable section

namespace Cert.KernelIdeal.Pay

open Idealize.ShloMosaic Idealize.ShloMosaic.ValueIdx Cert.KernelIdeal Cert.KernelIdeal.Gen

/-- The initial running maximum is `-∞` at every entry. -/
theorem k0_pay2_apply (i : S1x128.Idx) : k0_pay2 (F := Ideal) i = ⊥ := by
  unfold k0_pay2
  rw [shapeCast_self]
  exact ofBits_negInf

/-- The initial running maximum at `(0, b)`. -/
theorem k0_pay2_ix2 (b : Fin 128) : k0_pay2 (F := Ideal) (ix2 (0 : Fin 1) b) = ⊥ := k0_pay2_apply _

/-- The initial running sum is `0` at every entry. -/
theorem k0_pay3_apply (i : S1x128.Idx) : k0_pay3 (F := Ideal) i = 0 := by
  unfold k0_pay3
  rw [shapeCast_self]
  exact Ideal.ofBits_zero_f32

/-- The initial running sum at `(0, b)`. -/
theorem k0_pay3_ix2 (b : Fin 128) : k0_pay3 (F := Ideal) (ix2 (0 : Fin 1) b) = 0 := k0_pay3_apply _

end Cert.KernelIdeal.Pay

end
-- ==== Proof.LibMaxReduce.lean ====
import Idealize.ShloMosaic.PureOps.Ideal.Laws

/-!
# A maximum over one axis as a supremum

A fold of `max` over a finite set, started from `b`, is the larger of `b` and the supremum of the set; so a
`maximumf` reduction over one axis of a vector of extended reals, read at an index, is the larger of the
accumulator's value and the supremum over that axis's coordinates, and the supremum alone when the accumulator is `-∞`.
-/

noncomputable section

namespace Cert.Lib

open Idealize.ShloMosaic

/-- A fold of `max` from `b` over a finite set is `max b` of the supremum of the set. -/
theorem fold_max_eq_max_sup {ι : Type*} (s : Finset ι) (b : EReal) (f : ι → EReal) :
    s.fold max b f = max b (s.sup f) := by
  classical
  induction s using Finset.induction_on with
  | empty => simp
  | insert a s ha ih =>
    rw [Finset.fold_insert ha, Finset.sup_insert, ih, max_left_comm]

/-- A `maximumf` reduction over ONE axis of a vector of extended reals, read at an index `j` of the result: the larger
    of the accumulator's value and the supremum, over the reduced axis's coordinates `k`, of the source at `j` with
    `k` inserted (`Shape.Reduces.lift`). -/
theorem multiReduction_maximumf_single_sup {s t : Shape} {a : Fin s.rank} {φ : FTy} (src : FVec Ideal s φ)
    (acc : BitVec φ.bits) (h : s.Reduces [a] t) (hφ : FKind.Formats φ) (hacc : acc = FKind.maximumf.neutral φ hφ)
    (j : t.Idx) :
    multiReduction .maximumf [a] t src acc h hφ hacc j
      = max (Ideal.ofBits φ acc) (Finset.univ.sup fun k : Fin (s.size a) => src (h.lift j k)) :=
  (Ideal.multiReduction_maximumf_single src acc h hφ hacc j).trans (fold_max_eq_max_sup _ _ _)

/-- The same when the accumulator's value is `-∞` (`hb`): the supremum alone. -/
theorem multiReduction_maximumf_single_sup_of_bot {s t : Shape} {a : Fin s.rank} {φ : FTy} (src : FVec Ideal s φ)
    (acc : BitVec φ.bits) (h : s.Reduces [a] t) (hφ : FKind.Formats φ) (hacc : acc = FKind.maximumf.neutral φ hφ)
    (hb : Ideal.ofBits φ acc = ⊥) (j : t.Idx) :
    multiReduction .maximumf [a] t src acc h hφ hacc j
      = Finset.univ.sup fun k : Fin (s.size a) => src (h.lift j k) := by
  rw [multiReduction_maximumf_single_sup, hb]
  exact max_eq_right bot_le

end Cert.Lib

end
-- ==== Proof.KernelPayMax.lean ====
import proofs.«150519_g40793599377725_cont_8to1_b_782_10_alg».proof.Proof.Gen.KernelIdeal.Skeleton
import proofs.«150519_g40793599377725_cont_8to1_b_782_10_alg».proof.Proof.KernelPayLiterals
import proofs.«150519_g40793599377725_cont_8to1_b_782_10_alg».proof.Proof.LibMaxReduce
import Idealize.ShloMosaic.Lib.ValueIdx
import Idealize.ShloMosaic.Lib.ValueLayout
import Idealize.ShloMosaic.Lib.Pipeline.Value
import Idealize.ShloMosaic.PureOps.Ideal.Laws

/-!
# The running maximum after a tile

The new running maximum of row `b` is the larger of the old one and the supremum of the tile's 4000 logits of that row.
-/

noncomputable section

namespace Cert.KernelIdeal.Pay

open Idealize.ShloMosaic Idealize.ShloMosaic.ValueIdx Cert.KernelIdeal Cert.KernelIdeal.Gen

/-- The maximum over the leading axis of a `4000 × 128` block, from `-∞`, at `b`: the supremum of column `b`. -/
theorem column_max_apply (x : FVec Ideal S4000x128 .f32) (hr : S4000x128.Reduces [0] S128) (hφ : FKind.Formats .f32)
    (hacc : (0xFF800000#32 : BitVec 32) = 0xFF800000#32) (b : Fin 128) :
    multiReduction (F := Ideal) (φ := .f32) .maximumf [0] S128 x 0xFF800000#32 hr hφ hacc (ix1 b)
      = Finset.univ.sup fun r : Fin 4000 => x (ix2 r b) := by
  refine (Cert.Lib.multiReduction_maximumf_single_sup_of_bot x 0xFF800000#32 hr hφ hacc ofBits_negInf (ix1 b)).trans ?_
  refine congrArg Finset.univ.sup (funext fun r => congrArg x ?_)
  exact funext fun a => Fin.ext (by match a with | ⟨0, _⟩ => rfl | ⟨1, _⟩ => rfl)

/-- The running maximum after a tile, at `(0, b)`: `max` of the old one and the supremum of the tile's logits of row `b`. -/
theorem k0_pay8_apply (arg0 : BitVec 32) (v14 : Vec Ideal S4000x25 .f32) (v17 : Vec Ideal S4000x128 .f32)
    (v19 : Vec Ideal S128x128 .f32) (v25 : Vec Ideal S1x128 .f32) (b : Fin 128) :
    k0_pay8 (F := Ideal) arg0 v14 v17 v19 v25 (ix2 (0 : Fin 1) b)
      = max (v25 (ix2 (0 : Fin 1) b))
          (Finset.univ.sup fun r : Fin 4000 => k0_pay7 (F := Ideal) arg0 v14 v17 v19 (ix2 r b)) := by
  unfold k0_pay8
  refine (maximumf_apply _ _ _).trans ?_
  refine congrArg (max _ ·) ?_
  refine (shapeCast_a_1a_apply _ _ (0 : Fin 1) b).trans ?_
  exact column_max_apply (k0_pay7 (F := Ideal) arg0 v14 v17 v19) _ _ _ b

/-- The running maximum stored for the tile is the running maximum. -/
theorem k0_pay11_eq (arg0 : BitVec 32) (v14 : Vec Ideal S4000x25 .f32) (v17 : Vec Ideal S4000x128 .f32)
    (v19 : Vec Ideal S128x128 .f32) (v25 : Vec Ideal S1x128 .f32) :
    k0_pay11 (F := Ideal) arg0 v14 v17 v19 v25 = k0_pay8 (F := Ideal) arg0 v14 v17 v19 v25 := by
  unfold k0_pay11
  exact shapeCast_self _ _

/-- The running maximum written back is the value it is given. -/
theorem k0_pay5_eq (v26 : FVec Ideal S1x128 .f32) : k0_pay5 (F := Ideal) v26 = v26 := by
  unfold k0_pay5
  exact shapeCast_self _ _

end Cert.KernelIdeal.Pay

end
-- ==== Proof.LibMatmulOneAxis.lean ====
import Idealize.ShloMosaic.Lib.ValueIdx
import Idealize.ShloMosaic.PureOps.Ideal.Laws

/-!
# A matrix product with one contracted axis, into a zero accumulator, as a sum over that axis

At the extended reals a matrix product accumulated into the zero splat, read at an output index `j`, is the sum over the contraction
index of the products of the two operands. When the dimension numbers contract ONE axis of extent `n`, the contraction
index is that axis's coordinate, and the sum is a sum over `Fin n` of the left operand at `L k` times the right
operand at `R k`, for whatever index functions `L`, `R` the caller shows the operand indices to be.
-/

noncomputable section

namespace Cert.Lib

open Idealize.ShloMosaic Idealize.ShloMosaic.ValueIdx

/-- A product contracting one axis of extent `n` into the zero accumulator, at output index `j`: the sum over
    `k : Fin n` of `lhs (L k) * rhs (R k)`, where `L k` and `R k` are the operand indices at contraction
    coordinate `k` (`hL`, `hR`). -/
theorem matmul_zero_one_axis_apply {sl sr so : Shape} {φ₁ φ₂ : FTy} (d : DotDims sl sr so)
    (prec : Option ContractPrecision) (n : Nat) (hr : d.contr.rank = 1) (hs : d.contr.size ⟨0, by omega⟩ = n)
    (lhs : FVec Ideal sl φ₁) (rhs : FVec Ideal sr φ₂) (j : so.Idx) (L : Fin n → sl.Idx) (R : Fin n → sr.Idx)
    (hL : ∀ k : Fin n, d.lhsIdx j ((contrEquiv1 d n hr hs).symm k) = L k)
    (hR : ∀ k : Fin n, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

end Cert.Lib

end
-- ==== Proof.LibColumnLayout.lean ====
import Idealize.ShloMosaic.Lib.Pipeline.Value
import Idealize.ShloMosaic.Lib.ValueIdx

/-!
# A column `[a, 1]` broadcast along its rows, or laid out as a row `[1, a]`, read at an entry

A column vector kept with a trailing unit axis (what a reduction with the reduced axis kept, or a product with a
one-column matrix, leaves) is used in two ways: broadcast to `[a, b]`, where entry `(p, c)` is the column at `p`;
and shape-cast to the row `[1, a]`, where entry `(0, p)` is the column at `p`.
-/

noncomputable section

namespace Cert.Lib

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` array cast to `[1, a]` reads, at `(u, p)`, the operand at `(p, 0)`, whatever the unit coordinate `u`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.zero_mul, Nat.zero_add, Nat.mul_one, Nat.add_zero])

end Cert.Lib

end
-- ==== Proof.KernelPaySoftmax.lean ====
import proofs.«150519_g40793599377725_cont_8to1_b_782_10_alg».proof.Proof.Gen.KernelIdeal.Skeleton
import proofs.«150519_g40793599377725_cont_8to1_b_782_10_alg».proof.Proof.KernelPayLiterals
import proofs.«150519_g40793599377725_cont_8to1_b_782_10_alg».proof.Proof.LibMatmulOneAxis
import proofs.«150519_g40793599377725_cont_8to1_b_782_10_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The exponentials of a tile, the running sum, and the final rescaling

With `m` the running maximum after the tile: the stored exponentials are `exp (logit - m)`; the old running sum is
rescaled by `exp (m_old - m)`; the tile's contribution to the running sum is the sum of its stored exponentials over the
4000 actions (a product with a column of ones); the two are added. At the end each stored exponential of tile `j` is
multiplied by `exp (m_j - m_last) / s_last`.
-/

noncomputable section

namespace Cert.KernelIdeal.Pay

open Idealize.ShloMosaic Idealize.ShloMosaic.ValueIdx Cert.KernelIdeal Cert.KernelIdeal.Gen

/-- The stored exponential at `(r, b)`: `exp` of the logit less the running maximum of row `b`. -/
theorem k0_pay9_apply (arg0 : BitVec 32) (v14 : Vec Ideal S4000x25 .f32) (v17 : Vec Ideal S4000x128 .f32)
    (v19 : Vec Ideal S128x128 .f32) (v25 : Vec Ideal S1x128 .f32) (r : Fin 4000) (b : Fin 128) :
    k0_pay9 (F := Ideal) arg0 v14 v17 v19 v25 (ix2 r b)
      = Ideal.exp (k0_pay7 (F := Ideal) arg0 v14 v17 v19 (ix2 r b)
          - k0_pay8 (F := Ideal) arg0 v14 v17 v19 v25 (ix2 (0 : Fin 1) b)) := by
  unfold k0_pay9
  exact congrArg (fun z => Ideal.exp (k0_pay7 (F := Ideal) arg0 v14 v17 v19 (ix2 r b) - z))
    (broadcastTo_1b_ab_apply (k0_pay8 (F := Ideal) arg0 v14 v17 v19 v25) _ r b)

/-- The block of exponentials stored for the tile is the block of exponentials. -/
theorem k0_pay10_eq (arg0 : BitVec 32) (v14 : Vec Ideal S4000x25 .f32) (v17 : Vec Ideal S4000x128 .f32)
    (v19 : Vec Ideal S128x128 .f32) (v25 : Vec Ideal S1x128 .f32) :
    k0_pay10 (F := Ideal) arg0 v14 v17 v19 v25 = k0_pay9 (F := Ideal) arg0 v14 v17 v19 v25 := by
  unfold k0_pay10
  exact shapeCast_self _ _

/-- The old running sum rescaled to the new running maximum, at any entry. -/
theorem k0_pay12_apply (arg0 : BitVec 32) (v14 : Vec Ideal S4000x25 .f32) (v17 : Vec Ideal S4000x128 .f32)
    (v19 : Vec Ideal S128x128 .f32) (v25 v41 v42 : Vec Ideal S1x128 .f32) (i : S1x128.Idx) :
    k0_pay12 (F := Ideal) arg0 v14 v17 v19 v25 v41 v42 i
      = v41 i * Ideal.exp (v42 i - k0_pay8 (F := Ideal) arg0 v14 v17 v19 v25 i) := rfl

/-- The left operand's column coordinate in the product with the ones column is the output's row. -/
theorem rows_lhs_1 (i : S128x1.Idx) (q : dot_S4000x128_S4000x1_S128x1_0_0_1_1_n_n.contr.Idx) :
    (dot_S4000x128_S4000x1_S128x1_0_0_1_1_n_n.lhsIdx i q 1).val = (i 0).val := by
  unfold DotDims.lhsIdx
  rw [dif_neg (show ¬(1 : Fin S4000x128.rank) ∈ dot_S4000x128_S4000x1_S128x1_0_0_1_1_n_n.lhsBatch by decide),
    dif_pos (show (1 : Fin S4000x128.rank) ∈ dot_S4000x128_S4000x1_S128x1_0_0_1_1_n_n.lhsNonContracting by decide)]
  rfl

/-- The right operand's column coordinate in the product with the ones column is the output's column. -/
theorem rows_rhs_1 (i : S128x1.Idx) (q : dot_S4000x128_S4000x1_S128x1_0_0_1_1_n_n.contr.Idx) :
    (dot_S4000x128_S4000x1_S128x1_0_0_1_1_n_n.rhsIdx i q 1).val = (i 1).val := by
  unfold DotDims.rhsIdx
  rw [dif_neg (show ¬(1 : Fin S4000x1.rank) ∈ dot_S4000x128_S4000x1_S128x1_0_0_1_1_n_n.rhsBatch by decide),
    dif_pos (show (1 : Fin S4000x1.rank) ∈ dot_S4000x128_S4000x1_S128x1_0_0_1_1_n_n.rhsNonContracting by decide)]
  rfl

/-- The `4000 × 128` by `4000 × 1` product contracting the leading axis of both, into the zero accumulator, at `(b, 0)`:
    the sum over the 4000 rows. -/
theorem matmul_rows_apply (x : FVec Ideal S4000x128 .f32) (c : FVec Ideal S4000x1 .f32) (b : Fin 128) :
    matmul dot_S4000x128_S4000x1_S128x1_0_0_1_1_n_n none x c (constant S128x1 .f32 0x00000000#32) (ix2 b (0 : Fin 1))
      = ∑ r : Fin 4000, x (ix2 r b) * c (ix2 r (0 : Fin 1)) := by
  refine Cert.Lib.matmul_zero_one_axis_apply dot_S4000x128_S4000x1_S128x1_0_0_1_1_n_n none 4000 rfl rfl x c
    (ix2 b (0 : Fin 1)) (fun r => ix2 r b) (fun r => ix2 r (0 : Fin 1)) (fun r => ?_) (fun r => ?_)
  · have hk := contrEquiv1_symm_val dot_S4000x128_S4000x1_S128x1_0_0_1_1_n_n 4000 rfl rfl r
    exact funext fun a => Fin.ext (by
      match a with
      | ⟨0, _⟩ => exact (dot_S4000x128_S4000x1_S128x1_0_0_1_1_n_n.lhsIdx_val_of_single rfl _ _).trans hk
      | ⟨1, _⟩ => exact rows_lhs_1 _ _)
  · have hk := contrEquiv1_symm_val dot_S4000x128_S4000x1_S128x1_0_0_1_1_n_n 4000 rfl rfl r
    exact funext fun a => Fin.ext (by
      match a with
      | ⟨0, _⟩ => exact (dot_S4000x128_S4000x1_S128x1_0_0_1_1_n_n.rhsIdx_val_of_single rfl _ _).trans hk
      | ⟨1, _⟩ => exact rows_rhs_1 _ _)

/-- The tile's contribution to the running sum of row `b`: the sum of its 4000 stored exponentials. -/
theorem k0_pay13_apply (arg0 : BitVec 32) (v14 : Vec Ideal S4000x25 .f32) (v17 : Vec Ideal S4000x128 .f32)
    (v19 : Vec Ideal S128x128 .f32) (v25 : Vec Ideal S1x128 .f32) (b : Fin 128) :
    k0_pay13 (F := Ideal) arg0 v14 v17 v19 v25 (ix2 (0 : Fin 1) b)
      = ∑ r : Fin 4000, k0_pay9 (F := Ideal) arg0 v14 v17 v19 v25 (ix2 r b) := by
  unfold k0_pay13
  refine (Cert.Lib.shapeCast_a1_1a_apply _ _ (0 : Fin 1) b).trans ?_
  refine (matmul_rows_apply (k0_pay9 (F := Ideal) arg0 v14 v17 v19 v25) _ b).trans ?_
  exact Finset.sum_congr rfl fun r _ => (congrArg (_ * ·) ofBits_one).trans (mul_one _)

/-- The new running sum: the rescaled old one plus the tile's contribution, at any entry. -/
theorem k0_pay4_apply (v45 v46 : FVec Ideal S1x128 .f32) (i : S1x128.Idx) :
    k0_pay4 (F := Ideal) v45 v46 i = v45 i + v46 i := by
  unfold k0_pay4
  rw [shapeCast_self]
  rfl

/-- The final rescaling at `(r, b)`: the stored exponential times `exp (m_j - m_last) / s_last` of row `b`. -/
theorem k0_pay6_apply (v11 v12 v15 : Vec Ideal S1x128 .f32) (v19 : Vec Ideal S4000x128 .f32) (r : Fin 4000) (b : Fin 128) :
    k0_pay6 (F := Ideal) v11 v12 v15 v19 (ix2 r b)
      = v19 (ix2 r b) * Ideal.div (Ideal.exp (v11 (ix2 (0 : Fin 1) b) - v12 (ix2 (0 : Fin 1) b))) (v15 (ix2 (0 : Fin 1) b)) := by
  unfold k0_pay6
  refine (mulf_apply _ _ (ix2 r b)).trans ?_
  refine congrArg (v19 (ix2 r b) * ·) ?_
  exact (broadcastTo_1b_ab_apply _ _ r b).trans rfl

end Cert.KernelIdeal.Pay

end
-- ==== Proof.LibOnlineSoftmax.lean ====
import Mathlib
import Idealize.ShloMosaic.PureOps.Ideal

/-!
# The online softmax on the extended reals

A softmax over a long axis can be computed tile by tile with a running maximum and a running, rescaled
normaliser. This file states those recurrences on the extended reals (the running maximum starts at
`⊥`, the running sum at `0`) for logits that are finite reals, and proves that they compute the plain
softmax:

* the running maximum after tile `n` is a real, the supremum of every entry of tiles `0 … n`;
* the running sum after tile `n` is a positive real, the sum over those entries of `exp (entry - maximum)`;
* an entry's stored exponential, rescaled from its tile's maximum to the last one and divided by the last
  sum, is the softmax quotient.

It also re-indexes a flat axis of `T * R` entries into `T` tiles of `R`, joins the two, and collects the closure
properties of "is a finite real" on the extended reals.
-/

noncomputable section

namespace Cert.OnlineSoftmax

open Idealize.ShloMosaic
open scoped BigOperators

/-! ### Coercion helpers -/

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The exponential of a difference of two reals. -/
theorem exp_coe_sub (a b : ℝ) :
    Ideal.exp ((a : EReal) - (b : EReal)) = ((Real.exp (a - b) : ℝ) : EReal) := by
  rw [← EReal.coe_sub]; rfl

/-- `x` is a finite real. -/
def IsReal (x : EReal) : Prop := ∃ r : ℝ, x = (r : EReal)

/-! ### The recurrences -/

section Online

variable {R : ℕ} (l : ℕ → Fin R → ℝ)

/-- The maximum of tile `i`. -/
def tmax (i : ℕ) : EReal := Finset.univ.sup fun r : Fin R => ((l i r : ℝ) : EReal)

/-- The running maximum: `⊥` before the first tile, then the larger of itself and each tile's maximum. -/
def mrun : ℕ → EReal
  | 0 => max ⊥ (tmax l 0)
  | i + 1 => max (mrun i) (tmax l (i + 1))

/-- The sum over tile `i` of the exponentials taken against the running maximum at that tile. -/
def tsum (i : ℕ) : EReal := ∑ r : Fin R, Ideal.exp ((l i r : EReal) - mrun l i)

/-- The running sum: `0` before the first tile, then itself rescaled to the new maximum plus the tile's sum. -/
def srun : ℕ → EReal
  | 0 => 0 * Ideal.exp (⊥ - mrun l 0) + tsum l 0
  | i + 1 => srun i * Ideal.exp (mrun l i - mrun l (i + 1)) + tsum l (i + 1)

variable [NeZero R]

/-- A tile's maximum is one of its entries. -/
theorem tmax_eq_coe (i : ℕ) : ∃ r₀ : Fin R, tmax l i = ((l i r₀ : ℝ) : EReal) := by
  obtain ⟨r₀, -, h⟩ := Finset.exists_mem_eq_sup Finset.univ Finset.univ_nonempty
    (fun r : Fin R => ((l i r : ℝ) : EReal))
  exact ⟨r₀, h⟩

theorem isReal_tmax (i : ℕ) : IsReal (tmax l i) := by
  obtain ⟨r₀, h⟩ := tmax_eq_coe l i
  exact ⟨l i r₀, h⟩

/-- (1a) The running maximum is a real. -/
theorem isReal_mrun (n : ℕ) : ∃ μ : ℝ, mrun l n = (μ : EReal) := by
  induction n with
  | zero =>
    rw [mrun, max_bot_left]
    exact isReal_tmax l 0
  | succ n ih =>
    obtain ⟨a, ha⟩ := ih
    obtain ⟨b, hb⟩ := isReal_tmax l (n + 1)
    exact ⟨max a b, by rw [mrun, ha, hb, EReal.coe_strictMono.monotone.map_max]⟩

/-- (1b) The running maximum after tile `n` is the supremum of the maxima of tiles `0 … n`. -/
theorem mrun_eq_sup (n : ℕ) : mrun l n = (Finset.range (n + 1)).sup fun i => tmax l i := by
  induction n with
  | zero => rw [mrun, max_bot_left, Finset.range_one, Finset.sup_singleton]
  | succ n ih => rw [mrun, ih, Finset.range_add_one (n := n + 1), Finset.sup_insert, max_comm]

/-- The running maximum as a real number. -/
def mrunR (n : ℕ) : ℝ := (mrun l n).toReal

theorem mrun_eq_coe (n : ℕ) : mrun l n = ((mrunR l n : ℝ) : EReal) := by
  obtain ⟨a, ha⟩ := isReal_mrun l n
  rw [mrunR, ha, EReal.toReal_coe]

/-- The running sum is the coercion of the real sum of the exponentials against the current maximum. -/
theorem srun_eq_coe (n : ℕ) :
    srun l n
      = ((∑ i ∈ Finset.range (n + 1), ∑ r : Fin R, Real.exp (l i r - mrunR l n) : ℝ) : EReal) := by
  induction n with
  | zero =>
    rw [srun, zero_mul, zero_add, tsum, Finset.sum_range_one, coe_sum]
    refine Finset.sum_congr rfl fun r _ => ?_
    rw [mrun_eq_coe, exp_coe_sub]
  | succ n ih =>
    have ht : tsum l (n + 1)
        = ((∑ r : Fin R, Real.exp (l (n + 1) r - mrunR l (n + 1)) : ℝ) : EReal) := by
      rw [tsum, coe_sum, mrun_eq_coe]
      exact Finset.sum_congr rfl fun r _ => exp_coe_sub _ _
    rw [srun, ih, ht, mrun_eq_coe l n, mrun_eq_coe l (n + 1), exp_coe_sub, ← EReal.coe_mul,
      ← EReal.coe_add]
    congr 1
    rw [Finset.sum_range_succ _ (n + 1), Finset.sum_mul]
    congr 1
    refine Finset.sum_congr rfl fun i _ => ?_
    rw [Finset.sum_mul]
    refine Finset.sum_congr rfl fun r _ => ?_
    rw [← Real.exp_add]
    congr 1
    ring

/-- (2a) The running sum after tile `n` is the sum over every entry of tiles `0 … n` of the exponential
    taken against the running maximum after tile `n`: the rescalings telescope. -/
theorem srun_eq_sum (n : ℕ) :
    srun l n
      = ∑ i ∈ Finset.range (n + 1), ∑ r : Fin R, Ideal.exp ((l i r : EReal) - mrun l n) := by
  rw [srun_eq_coe, coe_sum]
  refine Finset.sum_congr rfl fun i _ => ?_
  rw [coe_sum]
  refine Finset.sum_congr rfl fun r _ => ?_
  rw [mrun_eq_coe l n, exp_coe_sub]

/-- (2b) The running sum is a positive real. -/
theorem srun_pos (n : ℕ) : ∃ σ : ℝ, 0 < σ ∧ srun l n = (σ : EReal) :=
  ⟨_, Finset.sum_pos (fun _ _ => Finset.sum_pos (fun _ _ => Real.exp_pos _) Finset.univ_nonempty)
    ⟨0, Finset.mem_range.2 (Nat.succ_pos n)⟩, srun_eq_coe l n⟩

/-- (3) A stored exponential, rescaled from its own tile's running maximum to the last one and divided by
    the last running sum, is the exponential against the last maximum divided by that sum. -/
theorem rescale (j n : ℕ) (r : Fin R) :
    Ideal.exp ((l j r : EReal) - mrun l j)
        * Ideal.div (Ideal.exp (mrun l j - mrun l n)) (srun l n)
      = Ideal.div (Ideal.exp ((l j r : EReal) - mrun l n)) (srun l n) := by
  obtain ⟨σ, hσ, hs⟩ := srun_pos l n
  obtain ⟨a, ha⟩ := isReal_mrun l j
  obtain ⟨b, hb⟩ := isReal_mrun l n
  rw [hs, Ideal.div_coe hσ.ne', Ideal.div_coe hσ.ne', ha, hb, exp_coe_sub, exp_coe_sub, exp_coe_sub,
    ← EReal.coe_mul, ← EReal.coe_mul, ← EReal.coe_mul]
  congr 1
  rw [← mul_assoc, ← Real.exp_add]
  congr 2
  ring

end Online

/-! ### A flat axis as tiles -/

section Tiles

variable {α : Type*} {N T R : ℕ}

/-- Row `r` of tile `i` lies on the flat axis. -/
theorem flat_lt (hN : N = T * R) {i : ℕ} (hi : i < T) (r : Fin R) : R * i + r.val < N := by
  subst hN
  calc R * i + r.val < R * i + R := Nat.add_lt_add_left r.isLt _
    _ = R * (i + 1) := (Nat.mul_succ R i).symm
    _ ≤ R * T := Nat.mul_le_mul_left R hi
    _ = T * R := Nat.mul_comm R T

/-- Row `r` of tile `i` of a flat array of `T * R` entries: the entry at `R * i + r`; past the last tile, the
    default `d`. -/
def tile (hN : N = T * R) (L : Fin N → α) (d : α) (i : ℕ) (r : Fin R) : α :=
  if h : i < T then L ⟨R * i + r.val, flat_lt hN h r⟩ else d

theorem tile_of_lt (hN : N = T * R) (L : Fin N → α) (d : α) {i : ℕ} (hi : i < T) (r : Fin R) :
    tile hN L d i r = L ⟨R * i + r.val, flat_lt hN hi r⟩ := dif_pos hi

/-- A function applied to a tile entry is the tile entry of the composed array. -/
theorem map_tile {β : Type*} (f : α → β) (hN : N = T * R) (L : Fin N → α) (d : α) (i : ℕ) (r : Fin R) :
    f (tile hN L d i r) = tile hN (fun k => f (L k)) (f d) i r := by
  unfold tile
  split <;> rfl

/-- (4a) The supremum over a flat axis is the supremum over the tiles of the tiles' suprema. -/
theorem sup_tile [SemilatticeSup α] [OrderBot α] (hN : N = T * R) (L : Fin N → α) (d : α) :
    Finset.univ.sup L
      = (Finset.range T).sup fun i => Finset.univ.sup fun r : Fin R => tile hN L d i r := by
  subst hN
  apply le_antisymm
  · refine Finset.sup_le fun k _ => ?_
    have hR : 0 < R := by
      rcases Nat.eq_zero_or_pos R with h | h
      · subst h
        exact absurd k.isLt (by simp)
      · exact h
    have hi : k.val / R < T := Nat.div_lt_of_lt_mul (lt_of_lt_of_eq k.isLt (Nat.mul_comm T R))
    refine Finset.le_sup_of_le (Finset.mem_range.2 hi) ?_
    refine Finset.le_sup_of_le (Finset.mem_univ (⟨k.val % R, Nat.mod_lt _ hR⟩ : Fin R)) (le_of_eq ?_)
    rw [tile_of_lt rfl L d hi]
    congr 1
    exact Fin.ext (Nat.div_add_mod k.val R).symm
  · refine Finset.sup_le fun i hi => Finset.sup_le fun r _ => ?_
    rw [tile_of_lt rfl L d (Finset.mem_range.1 hi)]
    exact Finset.le_sup (Finset.mem_univ _)

/-- (4b) A sum over a flat axis is the sum over the tiles of the tiles' sums. -/
theorem sum_tile {β : Type*} [AddCommMonoid β] (hN : N = T * R) (L : Fin N → α) (d : α) (g : α → β) :
    ∑ k : Fin N, g (L k)
      = ∑ i ∈ Finset.range T, ∑ r : Fin R, g (tile hN L d i r) := by
  subst hN
  rw [Finset.sum_range, ← Equiv.sum_comp finProdFinEquiv fun k => g (L k), Fintype.sum_prod_type]
  refine Finset.sum_congr rfl fun i _ => Finset.sum_congr rfl fun r _ => ?_
  rw [tile_of_lt rfl L d i.isLt]
  congr 2
  exact Fin.ext (Nat.add_comm _ _)

end Tiles

/-! ### The online softmax of a flat axis -/

section Join

variable {N R n : ℕ} [NeZero R] (hN : N = (n + 1) * R) (Lr : Fin N → ℝ)

/-- (5a) Over the tiles of a flat array of reals, the last running maximum is the supremum of the array. -/
theorem mrun_flat :
    mrun (tile hN Lr 0) n = Finset.univ.sup fun k : Fin N => ((Lr k : ℝ) : EReal) := by
  rw [mrun_eq_sup, sup_tile hN (fun k : Fin N => ((Lr k : ℝ) : EReal)) ((0 : ℝ) : EReal)]
  refine Finset.sup_congr rfl fun i _ => Finset.sup_congr rfl fun r _ => ?_
  exact map_tile (fun x : ℝ => (x : EReal)) hN Lr 0 i r

/-- (5b) Over the tiles of a flat array of reals, the last running sum is the softmax normaliser of the
    array. -/
theorem srun_flat :
    srun (tile hN Lr 0) n
      = ∑ k : Fin N, Ideal.exp (((Lr k : ℝ) : EReal)
          - Finset.univ.sup fun k : Fin N => ((Lr k : ℝ) : EReal)) := by
  rw [srun_eq_sum, mrun_flat,
    sum_tile hN (fun k : Fin N => ((Lr k : ℝ) : EReal)) ((0 : ℝ) : EReal)
      (fun x => Ideal.exp (x - Finset.univ.sup fun k : Fin N => ((Lr k : ℝ) : EReal)))]
  refine Finset.sum_congr rfl fun i _ => Finset.sum_congr rfl fun r _ => ?_
  exact congrArg (fun x => Ideal.exp (x - Finset.univ.sup fun k : Fin N => ((Lr k : ℝ) : EReal)))
    (map_tile (fun x : ℝ => (x : EReal)) hN Lr 0 i r)

/-- (5c) The online softmax is the softmax: an entry's stored exponential, rescaled to the last running
    maximum and divided by the last running sum, is the exponential against the supremum of the whole array
    divided by the whole array's normaliser. -/
theorem rescale_flat (j : ℕ) (r : Fin R) :
    Ideal.exp (((tile hN Lr 0 j r : ℝ) : EReal) - mrun (tile hN Lr 0) j)
        * Ideal.div
            (Ideal.exp (mrun (tile hN Lr 0) j - Finset.univ.sup fun k : Fin N => ((Lr k : ℝ) : EReal)))
            (∑ k : Fin N, Ideal.exp (((Lr k : ℝ) : EReal)
              - Finset.univ.sup fun k : Fin N => ((Lr k : ℝ) : EReal)))
      = Ideal.div
          (Ideal.exp (((tile hN Lr 0 j r : ℝ) : EReal)
            - Finset.univ.sup fun k : Fin N => ((Lr k : ℝ) : EReal)))
          (∑ k : Fin N, Ideal.exp (((Lr k : ℝ) : EReal)
            - Finset.univ.sup fun k : Fin N => ((Lr k : ℝ) : EReal))) := by
  have h := rescale (tile hN Lr 0) j n r
  rw [mrun_flat hN Lr, srun_flat hN Lr] at h
  exact h

end Join

/-! ### Finite reals: closure -/

section Closure

theorem isReal_coe (r : ℝ) : IsReal (r : EReal) := ⟨r, rfl⟩

theorem isReal_zero : IsReal 0 := ⟨0, rfl⟩

theorem IsReal.coe_toReal {x : EReal} (hx : IsReal x) : ((x.toReal : ℝ) : EReal) = x := by
  obtain ⟨a, rfl⟩ := hx
  rw [EReal.toReal_coe]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) {f : ι → EReal} (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add
      (ih fun i hi => hf i (Finset.mem_insert_of_mem hi))

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

theorem IsReal.max_zero {x : EReal} (hx : IsReal x) : IsReal (max x 0) := isReal_max hx isReal_zero

theorem IsReal.exp {x : EReal} (hx : IsReal x) : IsReal (Ideal.exp x) := by
  obtain ⟨a, rfl⟩ := hx
  exact ⟨Real.exp a, rfl⟩

/-- Division by a nonzero real keeps a finite real finite. -/
theorem IsReal.div_coe {x : EReal} (hx : IsReal x) {y : ℝ} (hy : y ≠ 0) :
    IsReal (Ideal.div x (y : EReal)) := by
  rw [Ideal.div_coe hy]
  exact hx.mul (isReal_coe _)

/-- The binary32 word `0x41A00000` denotes the real `20`. -/
theorem ofBits_20 : Ideal.ofBits .f32 0x41A00000#32 = ((20 : ℝ) : EReal) := by
  simp [Ideal.ofBits, Ideal.ieee, -EReal.coe_mul]; norm_num

end Closure

end Cert.OnlineSoftmax

end
-- ==== Proof.KernelValueStep.lean ====
import proofs.«150519_g40793599377725_cont_8to1_b_782_10_alg».proof.Proof.Gen.KernelIdeal.Skeleton
import proofs.«150519_g40793599377725_cont_8to1_b_782_10_alg».proof.Proof.KernelPayInit
import proofs.«150519_g40793599377725_cont_8to1_b_782_10_alg».proof.Proof.KernelPayMax
import proofs.«150519_g40793599377725_cont_8to1_b_782_10_alg».proof.Proof.KernelPaySoftmax
import proofs.«150519_g40793599377725_cont_8to1_b_782_10_alg».proof.Proof.LibOnlineSoftmax

/-!
# One tile's update of the running maximum and the running sum

For one batch column, with the tile's 4000 logits real numbers: the payloads that update the running maximum
and the running sum, and that store the tile's exponentials, are one step of the online softmax recurrences
— the first step from `-∞` and `0`, a later step from the values the tile before left.
-/

noncomputable section

namespace Cert.KernelIdeal.Value

open Idealize.ShloMosaic Idealize.ShloMosaic.ValueIdx Cert.KernelIdeal Cert.KernelIdeal.Gen Cert.OnlineSoftmax

section Step

variable (l : ℕ → Fin 4000 → ℝ) (i : ℕ)
variable (arg0 : BitVec 32) (X4 : Vec Ideal S4000x25 .f32) (X3 : Vec Ideal S4000x128 .f32)
  (H : Vec Ideal S128x128 .f32) (xM xS : Vec Ideal S1x128 .f32) (b : Fin 128)

/-- The new running maximum of column `b`: the larger of the old one and the tile's maximum. -/
theorem step_max (hlog : ∀ r : Fin 4000, k0_pay7 (F := Ideal) arg0 X4 X3 H (ix2 r b) = ((l i r : ℝ) : EReal)) :
    k0_pay8 (F := Ideal) arg0 X4 X3 H xM (ix2 (0 : Fin 1) b) = max (xM (ix2 (0 : Fin 1) b)) (tmax l i) := by
  rw [Pay.k0_pay8_apply]
  exact congrArg (max (xM (ix2 (0 : Fin 1) b))) (Finset.sup_congr rfl fun r _ => hlog r)

/-- A stored exponential: the logit less the new running maximum, exponentiated. -/
theorem step_exp (hlog : ∀ r : Fin 4000, k0_pay7 (F := Ideal) arg0 X4 X3 H (ix2 r b) = ((l i r : ℝ) : EReal))
    (r : Fin 4000) :
    k0_pay9 (F := Ideal) arg0 X4 X3 H xM (ix2 r b)
      = Ideal.exp (((l i r : ℝ) : EReal) - k0_pay8 (F := Ideal) arg0 X4 X3 H xM (ix2 (0 : Fin 1) b)) := by
  rw [Pay.k0_pay9_apply, hlog r]

/-- The new running sum of column `b`: the old one rescaled plus the tile's exponentials. -/
theorem step_sum (hlog : ∀ r : Fin 4000, k0_pay7 (F := Ideal) arg0 X4 X3 H (ix2 r b) = ((l i r : ℝ) : EReal)) :
    k0_pay4 (F := Ideal) (k0_pay12 (F := Ideal) arg0 X4 X3 H xM xS xM) (k0_pay13 (F := Ideal) arg0 X4 X3 H xM)
        (ix2 (0 : Fin 1) b)
      = xS (ix2 (0 : Fin 1) b)
          * Ideal.exp (xM (ix2 (0 : Fin 1) b) - k0_pay8 (F := Ideal) arg0 X4 X3 H xM (ix2 (0 : Fin 1) b))
        + ∑ r : Fin 4000,
            Ideal.exp (((l i r : ℝ) : EReal) - k0_pay8 (F := Ideal) arg0 X4 X3 H xM (ix2 (0 : Fin 1) b)) := by
  rw [Pay.k0_pay4_apply, Pay.k0_pay12_apply, Pay.k0_pay13_apply]
  exact congrArg (_ + ·) (Finset.sum_congr rfl fun r _ => step_exp l i arg0 X4 X3 H xM b hlog r)

end Step

section Recurrence

variable (l : ℕ → Fin 4000 → ℝ)
variable (arg0 : BitVec 32) (X4 : Vec Ideal S4000x25 .f32) (X3 : Vec Ideal S4000x128 .f32)
  (H : Vec Ideal S128x128 .f32) (xM xS : Vec Ideal S1x128 .f32) (b : Fin 128)

/-- The first tile, from `-∞`: the running maximum after tile 0. -/
theorem first_max (hlog : ∀ r : Fin 4000, k0_pay7 (F := Ideal) arg0 X4 X3 H (ix2 r b) = ((l 0 r : ℝ) : EReal))
    (hM : xM (ix2 (0 : Fin 1) b) = ⊥) :
    k0_pay8 (F := Ideal) arg0 X4 X3 H xM (ix2 (0 : Fin 1) b) = mrun l 0 := by
  rw [step_max l 0 arg0 X4 X3 H xM b hlog, hM]
  rfl

/-- The first tile, from `0`: the running sum after tile 0. -/
theorem first_sum (hlog : ∀ r : Fin 4000, k0_pay7 (F := Ideal) arg0 X4 X3 H (ix2 r b) = ((l 0 r : ℝ) : EReal))
    (hM : xM (ix2 (0 : Fin 1) b) = ⊥) (hS : xS (ix2 (0 : Fin 1) b) = 0) :
    k0_pay4 (F := Ideal) (k0_pay12 (F := Ideal) arg0 X4 X3 H xM xS xM) (k0_pay13 (F := Ideal) arg0 X4 X3 H xM)
        (ix2 (0 : Fin 1) b) = srun l 0 := by
  rw [step_sum l 0 arg0 X4 X3 H xM xS b hlog, first_max l arg0 X4 X3 H xM b hlog hM, hM, hS]
  rfl

/-- A later tile: the running maximum after tile `n + 1` from the one after tile `n`. -/
theorem later_max (n : ℕ)
    (hlog : ∀ r : Fin 4000, k0_pay7 (F := Ideal) arg0 X4 X3 H (ix2 r b) = ((l (n + 1) r : ℝ) : EReal))
    (hM : xM (ix2 (0 : Fin 1) b) = mrun l n) :
    k0_pay8 (F := Ideal) arg0 X4 X3 H xM (ix2 (0 : Fin 1) b) = mrun l (n + 1) := by
  rw [step_max l (n + 1) arg0 X4 X3 H xM b hlog, hM]
  rfl

/-- A later tile: the running sum after tile `n + 1` from the one after tile `n`. -/
theorem later_sum (n : ℕ)
    (hlog : ∀ r : Fin 4000, k0_pay7 (F := Ideal) arg0 X4 X3 H (ix2 r b) = ((l (n + 1) r : ℝ) : EReal))
    (hM : xM (ix2 (0 : Fin 1) b) = mrun l n) (hS : xS (ix2 (0 : Fin 1) b) = srun l n) :
    k0_pay4 (F := Ideal) (k0_pay12 (F := Ideal) arg0 X4 X3 H xM xS xM) (k0_pay13 (F := Ideal) arg0 X4 X3 H xM)
        (ix2 (0 : Fin 1) b) = srun l (n + 1) := by
  rw [step_sum l (n + 1) arg0 X4 X3 H xM xS b hlog, later_max l arg0 X4 X3 H xM b n hlog hM, hM, hS]
  rfl

end Recurrence

end Cert.KernelIdeal.Value

end
-- ==== Proof.Spec.lean ====
import Idealize.ShloMosaic.PureOps.Ideal
import Idealize.ShloMosaic.Lib.ValueIdx

/-!
# The function both programs compute

A two-layer perceptron over `[mean of the first 20 time steps ; the last time step]`, followed by a softmax over
100000 actions, all on the extended reals:

* `ghat b k`  — the mean over `t < 20` of `states (b, t, k)` (a sum divided by the literal `20`);
* `hcat b j`  — `ghat b j` for `j < 128`, and `states (b, 20, j - 128)` for `128 ≤ j < 256`;
* `hid b k`   — `max (∑ j, hcat b j * W1 (j, k) + b1 k) 0`;
* `logit b n` — `∑ k, hid b k * W2 (k, n) + b2 n`;
* `rowMax b`  — the supremum over `n` of `logit b n`;
* `G (b, n)`  — `exp (logit b n - rowMax b) / ∑ n', exp (logit b n' - rowMax b)`.
-/

noncomputable section

namespace Cert.Spec

open Idealize.ShloMosaic Idealize.ShloMosaic.ValueIdx

/-- Index types of the five argument arrays and of the result, over literal extents. -/
abbrev IStates := (⟨3, ![128, 21, 128]⟩ : Shape).Idx
abbrev IW1 := (⟨2, ![256, 128]⟩ : Shape).Idx
abbrev IB1 := (⟨1, ![128]⟩ : Shape).Idx
abbrev IW2 := (⟨2, ![128, 100000]⟩ : Shape).Idx
abbrev IB2 := (⟨1, ![100000]⟩ : Shape).Idx
abbrev IOut := (⟨2, ![128, 100000]⟩ : Shape).Idx

/-- The divisor of the mean: the binary32 word of `20.0`. -/
def lit20 : EReal := Ideal.ofBits .f32 0x41A00000#32

variable (st : IStates → EReal) (W1 : IW1 → EReal) (b1 : IB1 → EReal) (W2 : IW2 → EReal) (b2 : IB2 → EReal)

/-- The mean of the first twenty time steps of row `b`, feature `k`. -/
def ghat (b k : Fin 128) : EReal :=
  Ideal.div (∑ t : Fin 20, st (ix3 b (Fin.castLE (by decide) t) k)) lit20

/-- The concatenation `[ghat ; last time step]` along the feature axis. -/
def hcat (b : Fin 128) (j : Fin 256) : EReal :=
  if h : j.val < 128 then ghat st b ⟨j.val, h⟩
  else st (ix3 b (20 : Fin 21) ⟨j.val - 128, by have := j.isLt; omega⟩)

/-- The hidden layer after the rectifier. -/
def hid (b k : Fin 128) : EReal :=
  max (∑ j : Fin 256, hcat st b j * W1 (ix2 j k) + b1 (ix1 k)) 0

/-- The logits. -/
def logit (b : Fin 128) (n : Fin 100000) : EReal :=
  ∑ k : Fin 128, hid st W1 b1 b k * W2 (ix2 k n) + b2 (ix1 n)

/-- The largest logit of row `b`. -/
def rowMax (b : Fin 128) : EReal :=
  Finset.univ.sup fun n : Fin 100000 => logit st W1 b1 W2 b2 b n

/-- The normaliser of row `b`. -/
def rowSum (b : Fin 128) : EReal :=
  ∑ n : Fin 100000, Ideal.exp (logit st W1 b1 W2 b2 b n - rowMax st W1 b1 W2 b2 b)

/-- The softmax of the logits, row by row. -/
def G (i : IOut) : EReal :=
  Ideal.div (Ideal.exp (logit st W1 b1 W2 b2 (i 0) (i 1) - rowMax st W1 b1 W2 b2 (i 0))) (rowSum st W1 b1 W2 b2 (i 0))

end Cert.Spec

end
-- ==== Proof.KernelValueAcc.lean ====
import proofs.«150519_g40793599377725_cont_8to1_b_782_10_alg».proof.Proof.KernelValuePoints
import proofs.«150519_g40793599377725_cont_8to1_b_782_10_alg».proof.Proof.KernelValueStep
import proofs.«150519_g40793599377725_cont_8to1_b_782_10_alg».proof.Proof.Spec

/-!
# What each accumulating point leaves, in closed form

Point `i < 25` consumes tile `i`. For one batch column, with the logits real numbers, the running maximum and
the running sum it leaves are the online softmax recurrences after `i + 1` tiles; the rows of its tile of the
stored exponentials hold `exp (logit - running maximum)`; its row of the history holds the running maximum.
The first point starts from `-∞` and `0`; a later point from what the point before left: an induction on the point.
-/

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Body Cert.OnlineSoftmax

variable (m : (ℓ : Loc nD τ sig) → Buf (Elt Ideal) ℓ) (c : Dev nD)

/-! ## One batch column's logits as real numbers, tile by tile -/

/-- The 100000 actions are 25 tiles of 4000. -/
theorem tiles25 : (100000 : ℕ) = (24 + 1) * 4000 := by norm_num

/-- The logits of batch row `b` as real numbers. -/
def Lr (b : Fin 128) : Fin 100000 → ℝ := fun n => (Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b n).toReal

/-- The same, tile by tile. -/
def ltile (b : Fin 128) : ℕ → Fin 4000 → ℝ := tile tiles25 (Lr m c b) 0

section Closed

variable (hfin : ∀ (b : Fin 128) (n : Fin 100000), IsReal (Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b n))
variable (htl : ∀ (t : Fin cfg0.N) (ht : t.val < 25) (r : Fin 4000) (b : Fin 128),
    k0_pay7 (F := Ideal) (BitVec.ofNat 32 (grid0.coords t 0).val) (iblk m c 4 t) (iblk m c 3 t) (Hs m c) (ix2 r b)
      = Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b ⟨4000 * t.val + r.val, tileRow_lt t.val ht r⟩)

include hfin in
/-- A tile's real logit, coerced back, is the logit. -/
theorem coe_ltile (b : Fin 128) (i : ℕ) (hi : i < 25) (r : Fin 4000) :
    ((ltile m c b i r : ℝ) : EReal) = Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b ⟨4000 * i + r.val, tileRow_lt i hi r⟩ := by
  unfold ltile
  rw [tile_of_lt tiles25 (Lr m c b) 0 hi r]
  exact (hfin b _).coe_toReal

include hfin htl in
/-- The logits payload of an accumulating point, on the pipeline's blocks, is the tile's real logits. -/
theorem hlog (t : Fin cfg0.N) (ht : t.val < 25) (b : Fin 128) (r : Fin 4000) :
    k0_pay7 (F := Ideal) (BitVec.ofNat 32 (grid0.coords t 0).val) (iblk m c 4 t) (iblk m c 3 t) (Hs m c) (ix2 r b) = ((ltile m c b t.val r : ℝ) : EReal) :=
  (htl t ht r b).trans (coe_ltile m c hfin b t.val ht r).symm

include hfin htl in
/-- THE RUNNING STATISTICS after point `i < 25`: the recurrences after `i + 1` tiles. -/
theorem acc_MS (b : Fin 128) : ∀ (i : ℕ) (_ : i < 25) (hN : i < cfg0.N),
    (acc m c i hN).M (ix2 (0 : Fin 1) b) = mrun (ltile m c b) i
      ∧ (acc m c i hN).S (ix2 (0 : Fin 1) b) = srun (ltile m c b) i
  | 0, h25, hN => by
    constructor
    · show View.canon (runFirst m c hN).2.2.2.1 (ix2 (0 : Fin 1) b) = _
      rw [first_M m c hN, Pay.k0_pay5_eq]
      exact first_max (ltile m c b) (BitVec.ofNat 32 (grid0.coords ⟨0, hN⟩ 0).val) (iblk m c 4 ⟨0, hN⟩) (iblk m c 3 ⟨0, hN⟩) (Hs m c) (k0_pay2 (F := Ideal)) b
        (fun r => hlog m c hfin htl ⟨0, hN⟩ h25 b r) (Pay.k0_pay2_ix2 b)
    · show View.canon (runFirst m c hN).2.2.2.2.1 (ix2 (0 : Fin 1) b) = _
      rw [first_S m c hN]
      exact first_sum (ltile m c b) (BitVec.ofNat 32 (grid0.coords ⟨0, hN⟩ 0).val) (iblk m c 4 ⟨0, hN⟩) (iblk m c 3 ⟨0, hN⟩) (Hs m c) (k0_pay2 (F := Ideal)) (k0_pay3 (F := Ideal)) b
        (fun r => hlog m c hfin htl ⟨0, hN⟩ h25 b r) (Pay.k0_pay2_ix2 b) (Pay.k0_pay3_ix2 b)
  | n + 1, h25, hN => by
    obtain ⟨ihM, ihS⟩ := acc_MS b n (Nat.lt_of_succ_lt h25) (Nat.lt_of_succ_lt hN)
    rw [acc_succ_lt m c n hN h25]
    dsimp only
    constructor
    · rw [later_M m c ⟨n + 1, hN⟩ (Nat.succ_ne_zero n) h25, Pay.k0_pay5_eq]
      exact later_max (ltile m c b) (BitVec.ofNat 32 (grid0.coords ⟨n + 1, hN⟩ 0).val) (iblk m c 4 ⟨n + 1, hN⟩) (iblk m c 3 ⟨n + 1, hN⟩) (Hs m c) (acc m c n (Nat.lt_of_succ_lt hN)).M b n
        (fun r => hlog m c hfin htl ⟨n + 1, hN⟩ h25 b r) ihM
    · rw [later_S m c ⟨n + 1, hN⟩ (Nat.succ_ne_zero n) h25]
      exact later_sum (ltile m c b) (BitVec.ofNat 32 (grid0.coords ⟨n + 1, hN⟩ 0).val) (iblk m c 4 ⟨n + 1, hN⟩) (iblk m c 3 ⟨n + 1, hN⟩) (Hs m c) (acc m c n (Nat.lt_of_succ_lt hN)).M
        (acc m c n (Nat.lt_of_succ_lt hN)).S b n
        (fun r => hlog m c hfin htl ⟨n + 1, hN⟩ h25 b r) ihM ihS

include hfin htl in
/-- THE STORED EXPONENTIALS of tile `i < 25` after point `i`: `exp (logit - running maximum)`. -/
theorem acc_LE (b : Fin 128) (r : Fin 4000) : ∀ (i : ℕ) (h25 : i < 25) (hN : i < cfg0.N),
    View.canon (acc m c i hN).LE (ix2 (⟨4000 * i + r.val, tileRow_lt i h25 r⟩ : Fin 100000) b)
      = Ideal.exp (((ltile m c b i r : ℝ) : EReal) - mrun (ltile m c b) i)
  | 0, h25, hN => by
    show View.canon (runFirst m c hN).2.1 _ = _
    refine (congrArg (View.canon (runFirst m c hN).2.1)
      (embE ⟨0, hN⟩ h25 (accum_of ⟨0, hN⟩ (Nat.zero_lt_succ 24)) r b).symm).trans ?_
    rw [first_E m c hN, Pay.k0_pay10_eq,
      step_exp (ltile m c b) 0 (BitVec.ofNat 32 (grid0.coords ⟨0, hN⟩ 0).val) (iblk m c 4 ⟨0, hN⟩) (iblk m c 3 ⟨0, hN⟩) (Hs m c) (k0_pay2 (F := Ideal)) b
        (fun r => hlog m c hfin htl ⟨0, hN⟩ h25 b r) r,
      first_max (ltile m c b) (BitVec.ofNat 32 (grid0.coords ⟨0, hN⟩ 0).val) (iblk m c 4 ⟨0, hN⟩) (iblk m c 3 ⟨0, hN⟩) (Hs m c) (k0_pay2 (F := Ideal)) b
        (fun r => hlog m c hfin htl ⟨0, hN⟩ h25 b r) (Pay.k0_pay2_ix2 b)]
  | n + 1, h25, hN => by
    obtain ⟨ihM, -⟩ := acc_MS m c hfin htl b n (Nat.lt_of_succ_lt h25) (Nat.lt_of_succ_lt hN)
    rw [acc_succ_lt m c n hN h25]
    dsimp only
    refine (congrArg (View.canon (runLater m c ⟨n + 1, hN⟩ (Nat.succ_ne_zero n) h25
        (acc m c n (Nat.lt_of_succ_lt hN)).M (acc m c n (Nat.lt_of_succ_lt hN)).S).1)
      (embE ⟨n + 1, hN⟩ h25 (accum_of ⟨n + 1, hN⟩ h25) r b).symm).trans ?_
    rw [later_E m c ⟨n + 1, hN⟩ (Nat.succ_ne_zero n) h25, Pay.k0_pay10_eq,
      step_exp (ltile m c b) (n + 1) (BitVec.ofNat 32 (grid0.coords ⟨n + 1, hN⟩ 0).val) (iblk m c 4 ⟨n + 1, hN⟩) (iblk m c 3 ⟨n + 1, hN⟩) (Hs m c) (acc m c n (Nat.lt_of_succ_lt hN)).M b
        (fun r => hlog m c hfin htl ⟨n + 1, hN⟩ h25 b r) r,
      later_max (ltile m c b) (BitVec.ofNat 32 (grid0.coords ⟨n + 1, hN⟩ 0).val) (iblk m c 4 ⟨n + 1, hN⟩) (iblk m c 3 ⟨n + 1, hN⟩) (Hs m c) (acc m c n (Nat.lt_of_succ_lt hN)).M b n
        (fun r => hlog m c hfin htl ⟨n + 1, hN⟩ h25 b r) ihM]

include hfin htl in
/-- THE HISTORY ROW `i < 25` after point `i`: the running maximum after tile `i`. -/
theorem acc_LMH (b : Fin 128) : ∀ (i : ℕ) (h25 : i < 25) (hN : i < cfg0.N),
    View.canon (acc m c i hN).LMH (ix2 (⟨i, Nat.lt_trans h25 (by decide)⟩ : Fin 32) b) = mrun (ltile m c b) i
  | 0, h25, hN => by
    show View.canon (runFirst m c hN).2.2.1 _ = _
    refine (congrArg (View.canon (runFirst m c hN).2.2.1)
      (embMH ⟨0, hN⟩ h25 (accum_of ⟨0, hN⟩ (Nat.zero_lt_succ 24)) (0 : Fin 1) b).symm).trans ?_
    rw [first_MH m c hN, Pay.k0_pay11_eq]
    exact first_max (ltile m c b) (BitVec.ofNat 32 (grid0.coords ⟨0, hN⟩ 0).val) (iblk m c 4 ⟨0, hN⟩) (iblk m c 3 ⟨0, hN⟩) (Hs m c) (k0_pay2 (F := Ideal)) b
      (fun r => hlog m c hfin htl ⟨0, hN⟩ h25 b r) (Pay.k0_pay2_ix2 b)
  | n + 1, h25, hN => by
    obtain ⟨ihM, -⟩ := acc_MS m c hfin htl b n (Nat.lt_of_succ_lt h25) (Nat.lt_of_succ_lt hN)
    rw [acc_succ_lt m c n hN h25]
    dsimp only
    refine (congrArg (View.canon (runLater m c ⟨n + 1, hN⟩ (Nat.succ_ne_zero n) h25
        (acc m c n (Nat.lt_of_succ_lt hN)).M (acc m c n (Nat.lt_of_succ_lt hN)).S).2.1)
      (embMH ⟨n + 1, hN⟩ h25 (accum_of ⟨n + 1, hN⟩ h25) (0 : Fin 1) b).symm).trans ?_
    rw [later_MH m c ⟨n + 1, hN⟩ (Nat.succ_ne_zero n) h25, Pay.k0_pay11_eq]
    exact later_max (ltile m c b) (BitVec.ofNat 32 (grid0.coords ⟨n + 1, hN⟩ 0).val) (iblk m c 4 ⟨n + 1, hN⟩) (iblk m c 3 ⟨n + 1, hN⟩) (Hs m c) (acc m c n (Nat.lt_of_succ_lt hN)).M b n
      (fun r => hlog m c hfin htl ⟨n + 1, hN⟩ h25 b r) ihM

end Closed

end Cert.KernelIdeal.Value

end
-- ==== Proof.KernelOutCover.lean ====
import proofs.«150519_g40793599377725_cont_8to1_b_782_10_alg».proof.Proof.Gen.KernelIdeal.Frame
import Idealize.ShloMosaic.Lib.Pipeline.Value
import Idealize.ShloMosaic.Lib.ValueIdx

/-!
# The kernel's output array from its write-backs

The output window holds 4000 actions by 128 batch columns. It is written back at the grid points `25 … 49`,
point `t` into rows `4000 (t - 25) … 4000 (t - 25) + 3999` of the `[100000, 128]` output array. These
twenty-five blocks tile the array: row `ρ` lies under the write-back of point `25 + ρ / 4000`. So if every
write-back is the matching block of one whole-array function, the array ends holding that function.
-/

noncomputable section

open Idealize.ShloMosaic Idealize.ShloMosaic.TcCoe Idealize.SL.Sem Idealize.ShloMosaic.ValueIdx

namespace Cert.KernelIdeal.Arrays

open Cert.KernelIdeal Cert.KernelIdeal.Gen

variable {F : FTy → Type} [FloatOps F]

/-- The output window is written back exactly at the points of the second sweep. -/
theorem flush5 : ∀ t : Fin cfg0.N, (cfg0.win 5).flush t = true ↔ 25 ≤ t.val :=
  (by decide +kernel : ∀ t : Fin grid0.N, win0_5.flush t = true ↔ 25 ≤ t.val)

/-- Its block index: the tile `t - 25` (zero during the first sweep), the only block across. -/
theorem index5 : ∀ t : Fin cfg0.N, win0_5.index t (0 : Fin 2) = t.val - 25 ∧ win0_5.index t (1 : Fin 2) = 0 :=
  (by decide +kernel : ∀ t : Fin grid0.N, win0_5.index t (0 : Fin 2) = t.val - 25 ∧ win0_5.index t (1 : Fin 2) = 0)

/-- Row `r` of the block of point `t` is an action. -/
theorem out_lt (t : Fin cfg0.N) (r : Fin 4000) : 4000 * (t.val - 25) + r.val < 100000 := by
  have ht := t.isLt
  have hN : cfg0.N = 50 := N_0
  have hr := r.isLt
  omega

/-- An index of the output array is under point `t`'s block iff each coordinate is in the block's range. -/
theorem mem_blk5 (t : Fin cfg0.N) (i : S100000x128.Idx) :
    i ∈ ((cfg0.win 5).blk t).view.set
      ↔ ∀ a : Fin 2, win0_5.index t a * S4000x128.size a ≤ (i a).val
          ∧ (i a).val < win0_5.index t a * S4000x128.size a + S4000x128.size a := by
  show i ∈ ((View.whole main_call0_v5).slice (win0_5.rect t)).set ↔ _
  rw [View.set_slice_whole, Rect.mem_set_unit]
  exact Iff.rfl

/-- The write-backs cover the output array: row `ρ` is under the block of point `25 + ρ / 4000`. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : 25 + (i 0).val / 4000 < cfg0.N :=
    lt_of_lt_of_eq (by omega : 25 + (i 0).val / 4000 < 50) (N_0).symm
  obtain ⟨e0, e1⟩ := index5 ⟨25 + (i 0).val / 4000, hlt⟩
  have e0' : win0_5.index ⟨25 + (i 0).val / 4000, hlt⟩ (0 : Fin 2) = (i 0).val / 4000 := by
    rw [e0]
    show 25 + (i 0).val / 4000 - 25 = (i 0).val / 4000
    omega
  refine ⟨⟨25 + (i 0).val / 4000, hlt⟩, (flush5 _).mpr (Nat.le_add_right 25 _), ?_⟩
  rw [mem_blk5]
  intro a
  match a with
  | ⟨0, _⟩ =>
    show win0_5.index ⟨25 + (i 0).val / 4000, hlt⟩ (0 : Fin 2) * 4000 ≤ (i 0).val
      ∧ (i 0).val < win0_5.index ⟨25 + (i 0).val / 4000, hlt⟩ (0 : Fin 2) * 4000 + 4000
    rw [e0']
    omega
  | ⟨1, _⟩ =>
    show win0_5.index ⟨25 + (i 0).val / 4000, hlt⟩ (1 : Fin 2) * 128 ≤ (i 1).val
      ∧ (i 1).val < win0_5.index ⟨25 + (i 0).val / 4000, hlt⟩ (1 : Fin 2) * 128 + 128
    rw [e1]
    omega

/-- If every write-back of the output window is the matching block of one whole-array function `Z`, the output
    array ends holding `Z`. -/
theorem out_of_blocks {c : Dev nD} (dat : Pipeline.Dat τ (Elt F) Unit ℕ (UR sig nD τ) ℕ cfg0 c)
    (Z : (⟨S100000x128, .f32⟩ : BufTy).Contents (Elt F))
    (hfl : ∀ t : Fin cfg0.N, (cfg0.win 5).flush t = true →
      dat.flushed 5 t = ((cfg0.win 5).blk t).view.read (Elt F) Z) :
    dat.arrAt 5 cfg0.N = Z :=
  dat.arrAt_eq_of_cover 5 Z hfl cover5

/-- The block of point `t` of a whole-array function, at row `r` and batch column `b`: the function at action
    `4000 (t - 25) + r`. -/
theorem oblk_apply (Z : (⟨S100000x128, .f32⟩ : BufTy).Contents (Elt F)) (t : Fin cfg0.N) (r : Fin 4000) (b : Fin 128) :
    (((cfg0.win 5).blk t).view.read (Elt F) Z : Vec F S4000x128 .f32) (ix2 r b)
      = Z (ix2 ⟨4000 * (t.val - 25) + r.val, out_lt t r⟩ b) := by
  have hi := index5 t
  rw [View.read_apply]
  show Z _ = _
  refine congrArg Z (?_ : _ = ix2 ⟨4000 * (t.val - 25) + r.val, out_lt t r⟩ b)
  funext a
  apply Fin.ext
  match a with
  | ⟨0, _⟩ => show win0_5.index t 0 * 4000 + 1 * r.val = 4000 * (t.val - 25) + r.val; rw [hi.1]; omega
  | ⟨1, _⟩ => show win0_5.index t 1 * 128 + 1 * b.val = b.val; rw [hi.2]; omega

/-- The same block as a function of its index. -/
theorem oblk_eq (Z : (⟨S100000x128, .f32⟩ : BufTy).Contents (Elt F)) (t : Fin cfg0.N) :
    (((cfg0.win 5).blk t).view.read (Elt F) Z : Vec F S4000x128 .f32)
      = fun j => Z (ix2 ⟨4000 * (t.val - 25) + (j 0).val, out_lt t (j 0)⟩ (j 1)) := by
  funext j
  obtain ⟨r, b, rfl⟩ : ∃ (r : Fin 4000) (b : Fin 128), j = ix2 r b := ⟨j 0, j 1, eq_ix2 j⟩
  exact oblk_apply Z t r b

end Cert.KernelIdeal.Arrays

end
-- ==== Proof.KernelValueOut.lean ====
import proofs.«150519_g40793599377725_cont_8to1_b_782_10_alg».proof.Proof.KernelValueAcc
import proofs.«150519_g40793599377725_cont_8to1_b_782_10_alg».proof.Proof.KernelOutCover

/-!
# The kernel's output array is the softmax of the logits

A normalising point `t ≥ 25` multiplies tile `t - 25` of the stored exponentials by the row factor
`exp (m_j - m_24) / s_24`, with `m_j` read from row `t - 25` of the history and `m_24`, `s_24` the last
running maximum and running sum. With the closed forms of what the accumulating points left, and the logits
real numbers, this is the online softmax's last step: each entry it writes out is
`exp (logit - row maximum) / row sum`. The twenty-five written blocks tile the output array.
-/

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Body Cert.KernelIdeal.Arrays Cert.OnlineSoftmax

variable (m : (ℓ : Loc nD τ sig) → Buf (Elt Ideal) ℓ) (c : Dev nD)

/-- The softmax of the logits laid out as the kernel's output array: actions first. -/
def Z : (⟨S100000x128, .f32⟩ : BufTy).Contents (Elt Ideal) :=
  fun y => Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (ix2 (y 1 : Fin 128) (y 0 : Fin 100000))

theorem Z_apply (n : Fin 100000) (b : Fin 128) :
    Z m c (ix2 n b)
      = Ideal.div (Ideal.exp (Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b n - Cert.Spec.rowMax (m ((c : Thread nD τ).loc main_arg0)) (m ((c : Thread nD τ).loc main_arg1)) (m ((c : Thread nD τ).loc main_arg2)) (m ((c : Thread nD τ).loc main_arg3)) (m ((c : Thread nD τ).loc main_arg4)) b)) (Cert.Spec.rowSum (m ((c : Thread nD τ).loc main_arg0)) (m ((c : Thread nD τ).loc main_arg1)) (m ((c : Thread nD τ).loc main_arg2)) (m ((c : Thread nD τ).loc main_arg3)) (m ((c : Thread nD τ).loc main_arg4)) b) := rfl

/-- The accumulation at a point does not depend on how the point is written. -/
theorem acc_congr (i i' : ℕ) (e : i = i') (h : i < cfg0.N) (h' : i' < cfg0.N) : acc m c i h = acc m c i' h' := by
  subst e
  rfl

theorem lt_N (i : ℕ) (hi : i < 25) : i < cfg0.N := by
  rw [N50]
  omega

section Final

variable (hfin : ∀ (b : Fin 128) (n : Fin 100000), IsReal (Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b n))
variable (htl : ∀ (t : Fin cfg0.N) (ht : t.val < 25) (r : Fin 4000) (b : Fin 128),
    k0_pay7 (F := Ideal) (BitVec.ofNat 32 (grid0.coords t 0).val) (iblk m c 4 t) (iblk m c 3 t) (Hs m c) (ix2 r b)
      = Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b ⟨4000 * t.val + r.val, tileRow_lt t.val ht r⟩)

include hfin in
/-- The last running maximum is the row's largest logit, -/
theorem mrun_last (b : Fin 128) : mrun (ltile m c b) 24 = Cert.Spec.rowMax (m ((c : Thread nD τ).loc main_arg0)) (m ((c : Thread nD τ).loc main_arg1)) (m ((c : Thread nD τ).loc main_arg2)) (m ((c : Thread nD τ).loc main_arg3)) (m ((c : Thread nD τ).loc main_arg4)) b := by
  unfold ltile
  rw [mrun_flat tiles25 (Lr m c b)]
  exact Finset.sup_congr rfl fun k _ => (hfin b k).coe_toReal

include hfin in
/-- and the last running sum the row's normaliser. -/
theorem srun_last (b : Fin 128) : srun (ltile m c b) 24 = Cert.Spec.rowSum (m ((c : Thread nD τ).loc main_arg0)) (m ((c : Thread nD τ).loc main_arg1)) (m ((c : Thread nD τ).loc main_arg2)) (m ((c : Thread nD τ).loc main_arg3)) (m ((c : Thread nD τ).loc main_arg4)) b := by
  have hmax := mrun_last m c hfin b
  unfold ltile at hmax ⊢
  rw [mrun_flat tiles25 (Lr m c b)] at hmax
  rw [srun_flat tiles25 (Lr m c b), hmax]
  exact Finset.sum_congr rfl fun k _ =>
    congrArg (fun x => Ideal.exp (x - Cert.Spec.rowMax (m ((c : Thread nD τ).loc main_arg0)) (m ((c : Thread nD τ).loc main_arg1)) (m ((c : Thread nD τ).loc main_arg2)) (m ((c : Thread nD τ).loc main_arg3)) (m ((c : Thread nD τ).loc main_arg4)) b)) (hfin b k).coe_toReal

include hfin htl in
/-- The stored exponentials, every tile written, at row `r` of tile `j`. -/
theorem eStar_apply (b : Fin 128) (j : ℕ) (hj : j < 25) (r : Fin 4000) :
    eStar m c (ix2 (⟨4000 * j + r.val, tileRow_lt j hj r⟩ : Fin 100000) b)
      = Ideal.exp (((ltile m c b j r : ℝ) : EReal) - mrun (ltile m c b) j) := by
  have hr := r.isLt
  show View.canon (acc m c ((4000 * j + r.val) / 4000) _).LE _ = _
  rw [acc_congr m c ((4000 * j + r.val) / 4000) j (by omega) _ (lt_N j hj)]
  exact acc_LE m c hfin htl b r j hj (lt_N j hj)

include hfin htl in
/-- The history, every row written, at row `j`. -/
theorem mhStar_apply (b : Fin 128) (j : ℕ) (hj : j < 25) :
    mhStar m c (ix2 (⟨j, Nat.lt_trans hj (by decide)⟩ : Fin 32) b) = mrun (ltile m c b) j := by
  show View.canon (acc m c (min j 24) _).LMH _ = _
  rw [acc_congr m c (min j 24) j (by omega) _ (lt_N j hj)]
  exact acc_LMH m c hfin htl b j hj (lt_N j hj)

include hfin htl in
/-- WHAT A NORMALISING POINT WRITES OUT: the softmax of its tile. -/
theorem outTile_apply (t : Fin cfg0.N) (ht : 25 ≤ t.val) (r : Fin 4000) (b : Fin 128) :
    outTile m c t (ix2 r b) = Z m c (ix2 (⟨4000 * (t.val - 25) + r.val, out_lt t r⟩ : Fin 100000) b) := by
  have hN : t.val < 50 := lt_of_lt_of_eq t.isLt N50
  have hj : t.val - 25 < 25 := by omega
  have o3 := off3_eq t ht
  have o4 := off4_eq t ht
  obtain ⟨hM, hS⟩ := acc_MS m c hfin htl b 24 (by decide) lt24
  unfold outTile
  rw [dif_pos (norm_of t ht), Pay.k0_pay6_apply]
  have eE : (Rect.unit (s := S100000x128) (k0_off4 (grid0.coords t)) S4000x128.size
        (k0_off4_inb (grid0.coords t) (norm_of t ht))).idx (ix2 r b)
      = ix2 (⟨4000 * (t.val - 25) + r.val, tileRow_lt (t.val - 25) hj r⟩ : Fin 100000) b := by
    funext a
    apply Fin.ext
    match a with
    | ⟨0, _⟩ =>
      show k0_off4 (grid0.coords t) 0 + 1 * r.val = 4000 * (t.val - 25) + r.val
      rw [o4]
      show 4000 * (t.val - 25) + 1 * r.val = 4000 * (t.val - 25) + r.val
      omega
    | ⟨1, _⟩ =>
      show k0_off4 (grid0.coords t) 1 + 1 * b.val = b.val
      rw [o4]
      show 0 + 1 * b.val = b.val
      omega
  have eM : (Rect.unit (s := S32x128) (k0_off3 (grid0.coords t)) S1x128.size
        (k0_off3_inb (grid0.coords t) (norm_of t ht))).idx (ix2 (0 : Fin 1) b)
      = ix2 (⟨t.val - 25, Nat.lt_trans hj (by decide)⟩ : Fin 32) b := by
    funext a
    apply Fin.ext
    match a with
    | ⟨0, _⟩ =>
      show k0_off3 (grid0.coords t) 0 + 1 * 0 = t.val - 25
      rw [o3]
      show t.val - 25 + 1 * 0 = t.val - 25
      omega
    | ⟨1, _⟩ =>
      show k0_off3 (grid0.coords t) 1 + 1 * b.val = b.val
      rw [o3]
      show 0 + 1 * b.val = b.val
      omega
  show eStar m c _ * Ideal.div (Ideal.exp (mhStar m c _ - (acc m c 24 lt24).M (ix2 (0 : Fin 1) b)))
      ((acc m c 24 lt24).S (ix2 (0 : Fin 1) b)) = _
  rw [eE, eM, eStar_apply m c hfin htl b (t.val - 25) hj r, mhStar_apply m c hfin htl b (t.val - 25) hj, hM, hS,
    rescale (ltile m c b) (t.val - 25) 24 r, mrun_last m c hfin b, srun_last m c hfin b,
    coe_ltile m c hfin b (t.val - 25) hj r]
  rfl

include hfin htl in
/-- THE OUTPUT ARRAY after the run: the softmax of the logits, actions first. -/
theorem final_eq_of :
    ((dats (F := Ideal) m 0 c).arrAt 5 cfg0.N : (⟨S100000x128, .f32⟩ : BufTy).Contents (Elt Ideal)) = Z m c := by
  refine out_of_blocks (dats (F := Ideal) m 0 c) (Z m c) fun t hf => ?_
  have ht : 25 ≤ t.val := (flush5 t).mp hf
  show (cfg0.win 5).cut (grid0.coords t) ((dats (F := Ideal) m 0 c).after 5 t) = _
  rw [after5]
  show (outTile m c t : Vec Ideal S4000x128 .f32)
    = (((cfg0.win 5).blk t).view.read (Elt Ideal) (Z m c) : Vec Ideal S4000x128 .f32)
  funext j
  obtain ⟨r, b, rfl⟩ : ∃ (r : Fin 4000) (b : Fin 128), j = ix2 r b := ⟨j 0, j 1, eq_ix2 j⟩
  rw [oblk_apply (Z m c) t r b]
  exact outTile_apply m c hfin htl t ht r b

end Final

end Cert.KernelIdeal.Value

end
-- ==== Proof.LibConcatColumns.lean ====
/-
  Two rank-2 arrays with the same number of rows, joined along the columns, read at an entry.
-/
import Idealize.ShloMosaic.Lib.Pipeline.Value
import Idealize.ShloMosaic.Lib.ValueIdx

noncomputable section

namespace Cert.Lib

open Idealize.ShloMosaic Idealize.ShloMosaic.ValueIdx

/-- An `[a, b₁]` array and an `[a, b₂]` array concatenated along axis 1 into an `[a, n]` array (`n = b₁ + b₂`), read
    at row `p` and column `j`: the first array at `(p, j)` when `j < b₁`, otherwise the second at `(p, j - b₁)`. -/
theorem concat_columns_apply {α : Type} {a b₁ b₂ n : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (j : Fin n) :
    concatenate (⟨2, ![a, n]⟩ : Shape) 1 [⟨(⟨2, ![a, b₁]⟩ : Shape), x₁⟩, ⟨(⟨2, ![a, b₂]⟩ : Shape), x₂⟩] h (ix2 p j)
      = if hj : j.val < b₁ then x₁ (ix2 p (⟨j.val, hj⟩ : Fin b₁))
        else x₂ (ix2 p (⟨j.val - b₁, by have := j.isLt; omega⟩ : Fin b₂)) := by
  split
  · next hj =>
    exact concatenate_pair_apply_left 1 x₁ x₂ h (ix2 p j) rfl (ix2 p (⟨j.val, hj⟩ : Fin b₁))
      (fun b => by match b with | ⟨0, _⟩ => rfl | ⟨1, _⟩ => rfl)
  · next hj =>
    exact concatenate_pair_apply_right 1 x₁ x₂ h (ix2 p j) rfl rfl
      (ix2 p (⟨j.val - b₁, by have := j.isLt; omega⟩ : Fin b₂))
      (fun b hb => by
        match b with
        | ⟨0, _⟩ => rfl
        | ⟨1, _⟩ => exact absurd rfl hb)
      (by show j.val - b₁ + b₁ = j.val; omega)

end Cert.Lib

end
-- ==== Proof.KernelPayHidden.lean ====
import proofs.«150519_g40793599377725_cont_8to1_b_782_10_alg».proof.Proof.Gen.KernelIdeal.Skeleton
import proofs.«150519_g40793599377725_cont_8to1_b_782_10_alg».proof.Proof.LibConcatColumns
import proofs.«150519_g40793599377725_cont_8to1_b_782_10_alg».proof.Proof.LibMatmulOneAxis
import Idealize.ShloMosaic.Lib.ValueIdx
import Idealize.ShloMosaic.Lib.ValueLayout
import Idealize.ShloMosaic.Lib.Pipeline.Value
import Idealize.ShloMosaic.PureOps.Ideal.Laws

/-!
# The hidden layer the kernel stores, entry by entry

The first payload is `relu (hcat · W1 + b1)`: row `b` of the concatenated features is the mean over the twenty leading
time steps (a sum divided by the literal `20`) in columns `j < 128` and the last time step in columns `128 ≤ j < 256`;
the product with the `256 × 128` weight contracts the feature axis; the bias row is added to every row; the result is
cut off below at `0`.
-/

noncomputable section

namespace Cert.KernelIdeal.Pay

open Idealize.ShloMosaic Idealize.ShloMosaic.ValueIdx Cert.KernelIdeal Cert.KernelIdeal.Gen

/-- The concatenated features of row `b`: the mean of the twenty leading slabs in the first 128 columns, the last slab in
    the other 128. -/
def hcat (v9 : Vec Ideal S20x128x128 .f32) (v14 : Vec Ideal S1x128x128 .f32) (b : Fin 128) (j : Fin 256) : EReal :=
  if h : j.val < 128 then Ideal.div (∑ t : Fin 20, v9 (ix3 t b (⟨j.val, h⟩ : Fin 128))) (Ideal.ofBits .f32 0x41A00000#32)
  else v14 (ix3 (0 : Fin 1) b (⟨j.val - 128, by have := j.isLt; omega⟩ : Fin 128))

/-- The sum over the leading axis of a `20 × 128 × 128` block, at `(b, j)`. -/
theorem sum_slabs_apply (v9 : Vec Ideal S20x128x128 .f32) (hc : S20x128x128.ShapeCasts S20x128x128)
    (hr : S20x128x128.Reduces [0] S128x128) (hφ : FKind.Formats .f32)
    (hacc : (0x00000000#32 : BitVec 32) = 0x00000000#32) (b j : Fin 128) :
    multiReduction (F := Ideal) (φ := .f32) .add [0] S128x128 (shapeCast S20x128x128 v9 hc) 0x00000000#32 hr hφ hacc (ix2 b j)
      = ∑ t : Fin 20, v9 (ix3 t b j) := by
  refine (Ideal.multiReduction_add_single (shapeCast S20x128x128 v9 hc) 0x00000000#32 hr hφ hacc (ix2 b j)).trans ?_
  refine Finset.sum_congr rfl fun t _ => ?_
  rw [shapeCast_self]
  exact congrArg v9 (funext fun a => Fin.ext (by match a with | ⟨0, _⟩ => rfl | ⟨1, _⟩ => rfl | ⟨2, _⟩ => rfl))

/-- The left operand's row coordinate in the features product is the output's row. -/
theorem features_lhs_0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide),
    dif_pos (show (0 : Fin S128x256.rank) ∈ dot_S128x256_S256x128_S128x128_1_0_0_1_n_n.lhsNonContracting by decide)]
  rfl

/-- The right operand's column coordinate in the features product is the output's column. -/
theorem features_rhs_1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide),
    dif_pos (show (1 : Fin S256x128.rank) ∈ dot_S128x256_S256x128_S128x128_1_0_0_1_n_n.rhsNonContracting by decide)]
  rfl

/-- The `128 × 256` by `256 × 128` product into the zero accumulator, at `(b, k)`: the sum over the 256 features. -/
theorem matmul_features_apply (lhs : FVec Ideal S128x256 .f32) (w : FVec Ideal S256x128 .f32) (b k : Fin 128) :
    matmul dot_S128x256_S256x128_S128x128_1_0_0_1_n_n none lhs w (constant S128x128 .f32 0x00000000#32) (ix2 b k)
      = ∑ j : Fin 256, lhs (ix2 b j) * w (ix2 j k) := by
  refine Cert.Lib.matmul_zero_one_axis_apply dot_S128x256_S256x128_S128x128_1_0_0_1_n_n none 256 rfl rfl lhs w (ix2 b k)
    (fun j => ix2 b j) (fun j => ix2 j k) (fun j => ?_) (fun j => ?_)
  · have hk := contrEquiv1_symm_val dot_S128x256_S256x128_S128x128_1_0_0_1_n_n 256 rfl rfl j
    exact funext fun a => Fin.ext (by
      match a with
      | ⟨0, _⟩ => exact features_lhs_0 _ _
      | ⟨1, _⟩ => exact (dot_S128x256_S256x128_S128x128_1_0_0_1_n_n.lhsIdx_val_of_single rfl _ _).trans hk)
  · have hk := contrEquiv1_symm_val dot_S128x256_S256x128_S128x128_1_0_0_1_n_n 256 rfl rfl j
    exact funext fun a => Fin.ext (by
      match a with
      | ⟨0, _⟩ => exact (dot_S128x256_S256x128_S128x128_1_0_0_1_n_n.rhsIdx_val_of_single rfl _ _).trans hk
      | ⟨1, _⟩ => exact features_rhs_1 _ _)

/-- The first payload at `(b, k)`: `max (∑ j, hcat b j * W1 (j, k) + b1 k) 0`. -/
theorem k0_pay1_apply (v9 : Vec Ideal S20x128x128 .f32) (v14 : Vec Ideal S1x128x128 .f32) (v17 : Vec Ideal S256x128 .f32)
    (v19 : Vec Ideal S1x128 .f32) (b k : Fin 128) :
    k0_pay1 (F := Ideal) v9 v14 v17 v19 (ix2 b k)
      = max (∑ j : Fin 256, hcat v9 v14 b j * v17 (ix2 j k) + v19 (ix2 (0 : Fin 1) k)) 0 := by
  unfold k0_pay1
  simp only [shapeCast_self]
  refine (maximumf_apply _ _ (ix2 b k)).trans ?_
  refine congrArg₂ max ?_ Ideal.ofBits_zero_f32
  refine (addf_apply _ _ (ix2 b k)).trans ?_
  refine congrArg₂ (· + ·) ?_ (broadcastTo_1b_ab_apply v19 _ b k)
  refine (matmul_features_apply _ v17 b k).trans ?_
  refine Finset.sum_congr rfl fun j _ => congrArg (· * _) ?_
  refine (Cert.Lib.concat_columns_apply (a := 128) (b₁ := 128) (b₂ := 128) (n := 256) _ _ _ rfl b j).trans ?_
  unfold hcat
  split
  · next hj => exact congrArg (Ideal.div · _) (sum_slabs_apply v9 _ _ _ _ b _)
  · next hj => exact shapeCast_1ab_ab_apply v14 _ b _

end Cert.KernelIdeal.Pay

end
-- ==== Proof.KernelPayLogit.lean ====
import proofs.«150519_g40793599377725_cont_8to1_b_782_10_alg».proof.Proof.Gen.KernelIdeal.Skeleton
import proofs.«150519_g40793599377725_cont_8to1_b_782_10_alg».proof.Proof.LibMatmulOneAxis
import proofs.«150519_g40793599377725_cont_8to1_b_782_10_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The logits of one tile, entry by entry

Tile `i` of the logits is the `4000 × 128` block whose entry `(r, b)` is `∑ k, W2ᵀ (r, k) * hid (b, k)` plus the
bias of action `r` of tile `i`. The bias is picked out of the `4000 × 25` bias table by a product with the indicator
column of `i` (the column whose entry `q` is `1` when `q = i` and `0` otherwise): every term of that product but the
`i`-th is a multiple of `0`.
-/

noncomputable section

namespace Cert.KernelIdeal.Pay

open Idealize.ShloMosaic Idealize.ShloMosaic.ValueIdx Cert.KernelIdeal Cert.KernelIdeal.Gen

/-- Two numbers below 25, as 32-bit words, are equal words exactly when they are equal numbers. -/
theorem cmpi_eq_ofNat (q i : Nat) (hq : q < 25) (hi : i < 25) :
    IntOp.cmpi .eq (BitVec.ofNat 32 q) (BitVec.ofNat 32 i) = if q = i then 1#1 else 0#1 := by
  split
  · next h => subst h; simp [IntOp.cmpi]
  · next h =>
    have hne : BitVec.ofNat 32 q ≠ BitVec.ofNat 32 i := fun e => h (by
      have := congrArg BitVec.toNat e
      simp only [BitVec.toNat_ofNat] at this
      omega)
    have hb : (BitVec.ofNat 32 q == BitVec.ofNat 32 i) = false := beq_false_of_ne hne
    show BitVec.ofBool (BitVec.ofNat 32 q == BitVec.ofNat 32 i) = 0#1
    rw [hb]
    rfl

/-- The indicator column of `i`: entry `q` is `1` when `q = i` and `0` otherwise. -/
theorem indicator_apply (i : Nat) (hi : i < 25) (hio : S25x1.Iotas .tc 32 [0]) (hlt : 1 < 32) (q : Fin 25) :
    (sitofp .f32 (extui 32 (cmpi .eq (iota .tc S25x1 32 [0] hio) (broadcast S25x1 (BitVec.ofNat 32 i))) hlt)
        : FVec Ideal S25x1 .f32) (ix2 q (0 : Fin 1))
      = if q.val = i then 1 else 0 := by
  show ((((IntOp.cmpi .eq (iota .tc S25x1 32 [0] hio (ix2 q (0 : Fin 1))) (BitVec.ofNat 32 i)).setWidth 32).toInt : ℝ) : EReal) = _
  rw [iota_single_apply]
  show ((((IntOp.cmpi .eq (BitVec.ofNat 32 q.val) (BitVec.ofNat 32 i)).setWidth 32).toInt : ℝ) : EReal) = _
  rw [cmpi_eq_ofNat q.val i q.isLt hi]
  split
  · simp
  · simp

/-- The left operand's row coordinate in the bias-selecting product is the output's row. -/
theorem column_lhs_0 (i : S4000x1.Idx) (q : dot_S4000x25_S25x1_S4000x1_1_0_0_1_n_n.contr.Idx) :
    (dot_S4000x25_S25x1_S4000x1_1_0_0_1_n_n.lhsIdx i q 0).val = (i 0).val := by
  unfold DotDims.lhsIdx
  rw [dif_neg (show ¬(0 : Fin S4000x25.rank) ∈ dot_S4000x25_S25x1_S4000x1_1_0_0_1_n_n.lhsBatch by decide),
    dif_pos (show (0 : Fin S4000x25.rank) ∈ dot_S4000x25_S25x1_S4000x1_1_0_0_1_n_n.lhsNonContracting by decide)]
  rfl

/-- The right operand's column coordinate in the bias-selecting product is the output's column. -/
theorem column_rhs_1 (i : S4000x1.Idx) (q : dot_S4000x25_S25x1_S4000x1_1_0_0_1_n_n.contr.Idx) :
    (dot_S4000x25_S25x1_S4000x1_1_0_0_1_n_n.rhsIdx i q 1).val = (i 1).val := by
  unfold DotDims.rhsIdx
  rw [dif_neg (show ¬(1 : Fin S25x1.rank) ∈ dot_S4000x25_S25x1_S4000x1_1_0_0_1_n_n.rhsBatch by decide),
    dif_pos (show (1 : Fin S25x1.rank) ∈ dot_S4000x25_S25x1_S4000x1_1_0_0_1_n_n.rhsNonContracting by decide)]
  rfl

/-- The `4000 × 25` by `25 × 1` product into the zero accumulator, at `(r, 0)`: the sum over the 25 tiles. -/
theorem matmul_column_apply (x : FVec Ideal S4000x25 .f32) (c : FVec Ideal S25x1 .f32) (r : Fin 4000) :
    matmul dot_S4000x25_S25x1_S4000x1_1_0_0_1_n_n none x c (constant S4000x1 .f32 0x00000000#32) (ix2 r (0 : Fin 1))
      = ∑ q : Fin 25, x (ix2 r q) * c (ix2 q (0 : Fin 1)) := by
  refine Cert.Lib.matmul_zero_one_axis_apply dot_S4000x25_S25x1_S4000x1_1_0_0_1_n_n none 25 rfl rfl x c
    (ix2 r (0 : Fin 1)) (fun q => ix2 r q) (fun q => ix2 q (0 : Fin 1)) (fun q => ?_) (fun q => ?_)
  · have hk := contrEquiv1_symm_val dot_S4000x25_S25x1_S4000x1_1_0_0_1_n_n 25 rfl rfl q
    exact funext fun a => Fin.ext (by
      match a with
      | ⟨0, _⟩ => exact column_lhs_0 _ _
      | ⟨1, _⟩ => exact (dot_S4000x25_S25x1_S4000x1_1_0_0_1_n_n.lhsIdx_val_of_single rfl _ _).trans hk)
  · have hk := contrEquiv1_symm_val dot_S4000x25_S25x1_S4000x1_1_0_0_1_n_n 25 rfl rfl q
    exact funext fun a => Fin.ext (by
      match a with
      | ⟨0, _⟩ => exact (dot_S4000x25_S25x1_S4000x1_1_0_0_1_n_n.rhsIdx_val_of_single rfl _ _).trans hk
      | ⟨1, _⟩ => exact column_rhs_1 _ _)

/-- The left operand's row coordinate in the logits product is the output's row. -/
theorem logits_lhs_0 (i : S4000x128.Idx) (q : dot_S4000x128_S128x128_S4000x128_1_1_0_0_n_n.contr.Idx) :
    (dot_S4000x128_S128x128_S4000x128_1_1_0_0_n_n.lhsIdx i q 0).val = (i 0).val := by
  unfold DotDims.lhsIdx
  rw [dif_neg (show ¬(0 : Fin S4000x128.rank) ∈ dot_S4000x128_S128x128_S4000x128_1_1_0_0_n_n.lhsBatch by decide),
    dif_pos (show (0 : Fin S4000x128.rank) ∈ dot_S4000x128_S128x128_S4000x128_1_1_0_0_n_n.lhsNonContracting by decide)]
  rfl

/-- The right operand's ROW coordinate in the logits product is the output's column: the right operand is contracted on
    its last axis. -/
theorem logits_rhs_0 (i : S4000x128.Idx) (q : dot_S4000x128_S128x128_S4000x128_1_1_0_0_n_n.contr.Idx) :
    (dot_S4000x128_S128x128_S4000x128_1_1_0_0_n_n.rhsIdx i q 0).val = (i 1).val := by
  unfold DotDims.rhsIdx
  rw [dif_neg (show ¬(0 : Fin S128x128.rank) ∈ dot_S4000x128_S128x128_S4000x128_1_1_0_0_n_n.rhsBatch by decide),
    dif_pos (show (0 : Fin S128x128.rank) ∈ dot_S4000x128_S128x128_S4000x128_1_1_0_0_n_n.rhsNonContracting by decide)]
  rfl

/-- The `4000 × 128` by `128 × 128` product contracting the last axis of both, into the zero accumulator, at `(r, b)`. -/
theorem matmul_logits_apply (x : FVec Ideal S4000x128 .f32) (h : FVec Ideal S128x128 .f32) (r : Fin 4000) (b : Fin 128) :
    matmul dot_S4000x128_S128x128_S4000x128_1_1_0_0_n_n none x h (constant S4000x128 .f32 0x00000000#32) (ix2 r b)
      = ∑ k : Fin 128, x (ix2 r k) * h (ix2 b k) := by
  refine Cert.Lib.matmul_zero_one_axis_apply dot_S4000x128_S128x128_S4000x128_1_1_0_0_n_n none 128 rfl rfl x h
    (ix2 r b) (fun k => ix2 r k) (fun k => ix2 b k) (fun k => ?_) (fun k => ?_)
  · have hk := contrEquiv1_symm_val dot_S4000x128_S128x128_S4000x128_1_1_0_0_n_n 128 rfl rfl k
    exact funext fun a => Fin.ext (by
      match a with
      | ⟨0, _⟩ => exact logits_lhs_0 _ _
      | ⟨1, _⟩ => exact (dot_S4000x128_S128x128_S4000x128_1_1_0_0_n_n.lhsIdx_val_of_single rfl _ _).trans hk)
  · have hk := contrEquiv1_symm_val dot_S4000x128_S128x128_S4000x128_1_1_0_0_n_n 128 rfl rfl k
    exact funext fun a => Fin.ext (by
      match a with
      | ⟨0, _⟩ => exact logits_rhs_0 _ _
      | ⟨1, _⟩ => exact (dot_S4000x128_S128x128_S4000x128_1_1_0_0_n_n.rhsIdx_val_of_single rfl _ _).trans hk)

/-- The logits payload of tile `i` at `(r, b)`: `∑ k, W2ᵀ (r, k) * hid (b, k) + bias (r, i)`. -/
theorem k0_pay7_apply (i : Nat) (hi : i < 25) (v14 : Vec Ideal S4000x25 .f32) (v17 : Vec Ideal S4000x128 .f32)
    (v19 : Vec Ideal S128x128 .f32) (r : Fin 4000) (b : Fin 128) :
    k0_pay7 (F := Ideal) (BitVec.ofNat 32 i) v14 v17 v19 (ix2 r b)
      = ∑ k : Fin 128, v17 (ix2 r k) * v19 (ix2 b k) + v14 (ix2 r (⟨i, hi⟩ : Fin 25)) := by
  unfold k0_pay7
  simp only [shapeCast_self]
  refine (addf_apply _ _ (ix2 r b)).trans ?_
  refine congrArg₂ (· + ·) (matmul_logits_apply v17 v19 r b) ?_
  refine (Cert.Lib.broadcastTo_a1_ab_apply _ _ r b).trans ?_
  refine (matmul_column_apply v14 _ r).trans ?_
  rw [Finset.sum_eq_single (⟨i, hi⟩ : Fin 25)]
  · rw [indicator_apply i hi, if_pos rfl, mul_one]
  · intro q _ hq
    rw [indicator_apply i hi, if_neg (fun e => hq (Fin.ext e)), mul_zero]
  · intro h; exact absurd (Finset.mem_univ _) h

end Cert.KernelIdeal.Pay

end
-- ==== Proof.KernelArrays.lean ====
import proofs.«150519_g40793599377725_cont_8to1_b_782_10_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

/-!
# The kernel's arrays and blocks, index by index

The five host operations before the kernel re-lay the arguments: the states with the time axis first, the
second weight matrix with the action axis first, the first bias as a row, the second bias as a matrix with
one column per tile of 4000 actions. This file reads each re-laid array, and each input window's block at a
grid point, at an index, as an entry of an argument array:

* states re-laid at `(s, b, k)` is the states at `(b, s, k)`;
* the second weights re-laid at `(n, k)` is the weights at `(k, n)`;
* the first bias as a row at `(0, k)` is the bias at `k`;
* the second bias as columns at `(r, q)` is the bias at `4000 q + r`;
* the weight block at grid point `t` holds rows `4000 · min t 24 + r` of the re-laid weights; every other
  input window's block is its whole array.
-/

noncomputable section

open Idealize.ShloMosaic Idealize.ShloMosaic.TcCoe Idealize.SL.Sem Idealize.ShloMosaic.ValueIdx

namespace Cert.KernelIdeal.Arrays

open Cert.KernelIdeal Cert.KernelIdeal.Gen

variable {F : FTy → Type} [FloatOps F]
variable (m : (ℓ : Loc nD τ sig) → Buf (Elt F) ℓ)

/-! ## The arrays the region finds, as the host operations' terms -/

theorem V_v0_term (c : Dev nD) :
    (V m c main_call0_v0 : (⟨S21x128x128, .f32⟩ : BufTy).Contents (Elt F))
      = transpose S21x128x128 [1, 0, 2] (m ((c : Thread nD τ).loc main_arg0)) transposes_S128x21x128_S21x128x128_1_0_2 := by
  show StableHlo.after hostOps0 (fun b => m (c, b)) (Proc.devRef .tc main_call0_v0) = _
  after_results
  rfl

theorem V_v1_term (c : Dev nD) :
    (V m c main_call0_v1 : (⟨S100000x128, .f32⟩ : BufTy).Contents (Elt F))
      = transpose S100000x128 [1, 0] (m ((c : Thread nD τ).loc main_arg3)) transposes_S128x100000_S100000x128_1_0 := by
  show StableHlo.after hostOps0 (fun b => m (c, b)) (Proc.devRef .tc main_call0_v1) = _
  after_results
  rfl

theorem V_v2_term (c : Dev nD) :
    (V m c main_call0_v2 : (⟨S1x128, .f32⟩ : BufTy).Contents (Elt F))
      = shapeCast S1x128 (m ((c : Thread nD τ).loc main_arg2)) shapeCasts_S128_S1x128 := by
  show StableHlo.after hostOps0 (fun b => m (c, b)) (Proc.devRef .tc main_call0_v2) = _
  after_results
  rfl

theorem V_v4_term (c : Dev nD) :
    (V m c main_call0_v4 : (⟨S4000x25, .f32⟩ : BufTy).Contents (Elt F))
      = transpose S4000x25 [1, 0] (shapeCast S25x4000 (m ((c : Thread nD τ).loc main_arg4)) shapeCasts_S100000_S25x4000)
          transposes_S25x4000_S4000x25_1_0 := by
  show StableHlo.after hostOps0 (fun b => m (c, b)) (Proc.devRef .tc main_call0_v4) = _
  after_results
  rfl

/-! ## The same, index by index -/

/-- Row `q`, column `r` of the `[25, 4000]` matrix is entry `4000 q + r` of the flat axis. -/
theorem flat_lt (q : Fin 25) (r : Fin 4000) : 4000 * q.val + r.val < 100000 := by
  have := q.isLt
  have := r.isLt
  omega

/-- The states with the time axis first. -/
theorem V_v0_apply (c : Dev nD) (s : Fin 21) (b k : Fin 128) :
    (V m c main_call0_v0 : (⟨S21x128x128, .f32⟩ : BufTy).Contents (Elt F)) (ix3 s b k)
      = m ((c : Thread nD τ).loc main_arg0) (ix3 b s k) := by
  rw [V_v0_term]
  exact transpose_apply _ _ transposes_S128x21x128_S21x128x128_1_0_2 (ix3 s b k) (ix3 b s k)
    fun a => match a with | ⟨0, _⟩ => rfl | ⟨1, _⟩ => rfl | ⟨2, _⟩ => rfl

/-- The second weight matrix with the action axis first. -/
theorem V_v1_apply (c : Dev nD) (n : Fin 100000) (k : Fin 128) :
    (V m c main_call0_v1 : (⟨S100000x128, .f32⟩ : BufTy).Contents (Elt F)) (ix2 n k)
      = m ((c : Thread nD τ).loc main_arg3) (ix2 k n) := by
  rw [V_v1_term]
  exact transpose_ix2_apply _ transposes_S128x100000_S100000x128_1_0 n k

/-- The first bias as a row. -/
theorem V_v2_apply (c : Dev nD) (u : Fin 1) (k : Fin 128) :
    (V m c main_call0_v2 : (⟨S1x128, .f32⟩ : BufTy).Contents (Elt F)) (ix2 u k)
      = m ((c : Thread nD τ).loc main_arg2) (ix1 k) := by
  rw [V_v2_term]
  exact shapeCast_a_1a_apply _ shapeCasts_S128_S1x128 u k

/-- The second bias, one column per tile of 4000 actions. -/
theorem V_v4_apply (c : Dev nD) (r : Fin 4000) (q : Fin 25) :
    (V m c main_call0_v4 : (⟨S4000x25, .f32⟩ : BufTy).Contents (Elt F)) (ix2 r q)
      = m ((c : Thread nD τ).loc main_arg4) (ix1 ⟨4000 * q.val + r.val, flat_lt q r⟩) := by
  rw [V_v4_term]
  refine (transpose_ix2_apply _ transposes_S25x4000_S4000x25_1_0 r q).trans ?_
  exact shapeCast_apply _ shapeCasts_S100000_S25x4000 (ix2 q r) (ix1 ⟨4000 * q.val + r.val, flat_lt q r⟩) (by
    rw [Shape.rowMajor_val_one, Shape.rowMajor_val_two]
    show 4000 * q.val + r.val = q.val * 4000 + r.val
    omega)

/-! ## The input windows' blocks

A block's entry sits in its array, on each axis, at the block index times the block's extent plus the
entry's own coordinate. The block indices are decided once over the grid's fifty points. -/

theorem index0 : ∀ t : Fin cfg0.N,
    win0_0.index t (0 : Fin 3) = 0 ∧ win0_0.index t (1 : Fin 3) = 0 ∧ win0_0.index t (2 : Fin 3) = 0 :=
  (by decide +kernel : ∀ t : Fin grid0.N,
    win0_0.index t (0 : Fin 3) = 0 ∧ win0_0.index t (1 : Fin 3) = 0 ∧ win0_0.index t (2 : Fin 3) = 0)

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The weight window moves with the grid point until the last tile, then stays. -/
theorem index3 : ∀ t : Fin cfg0.N,
    win0_3.index t (0 : Fin 2) = min t.val 24 ∧ win0_3.index t (1 : Fin 2) = 0 :=
  (by decide +kernel : ∀ t : Fin grid0.N,
    win0_3.index t (0 : Fin 2) = min t.val 24 ∧ win0_3.index t (1 : Fin 2) = 0)

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Row `r` of tile `min t 24` is an action. -/
theorem tile_lt (t : ℕ) (r : Fin 4000) : 4000 * min t 24 + r.val < 100000 := by
  have := r.isLt
  omega

/-- The states window's block is the whole re-laid array. -/
theorem iblk0_apply (c : Dev nD) (t : Fin cfg0.N) (s : Fin 21) (b k : Fin 128) :
    (iblk m c 0 t : Vec F S21x128x128 .f32) (ix3 s b k) = m ((c : Thread nD τ).loc main_arg0) (ix3 b s k) := by
  have hi := index0 t
  unfold iblk
  rw [View.read_apply]
  show (V m c main_call0_v0 : (⟨S21x128x128, .f32⟩ : BufTy).Contents (Elt F)) _ = _
  refine (congrArg (V m c main_call0_v0 : (⟨S21x128x128, .f32⟩ : BufTy).Contents (Elt F))
    (?_ : _ = ix3 s b k)).trans (V_v0_apply m c s b k)
  funext a
  apply Fin.ext
  match a with
  | ⟨0, _⟩ => show win0_0.index t 0 * 21 + 1 * s.val = s.val; rw [hi.1]; omega
  | ⟨1, _⟩ => show win0_0.index t 1 * 128 + 1 * b.val = b.val; rw [hi.2.1]; omega
  | ⟨2, _⟩ => show win0_0.index t 2 * 128 + 1 * k.val = k.val; rw [hi.2.2]; omega

/-- The first weight matrix's block is the whole argument. -/
theorem iblk1_apply (c : Dev nD) (t : Fin cfg0.N) (j : Fin 256) (k : Fin 128) :
    (iblk m c 1 t : Vec F S256x128 .f32) (ix2 j k) = m ((c : Thread nD τ).loc main_arg1) (ix2 j k) := by
  have hi := index1 t
  unfold iblk
  rw [View.read_apply]
  show (V m c main_arg1 : (⟨S256x128, .f32⟩ : BufTy).Contents (Elt F)) _ = _
  refine (congrArg (V m c main_arg1 : (⟨S256x128, .f32⟩ : BufTy).Contents (Elt F))
    (?_ : _ = ix2 j k)).trans (congrFun (V_main_arg1 m c) (ix2 j k))
  funext a
  apply Fin.ext
  match a with
  | ⟨0, _⟩ => show win0_1.index t 0 * 256 + 1 * j.val = j.val; rw [hi.1]; omega
  | ⟨1, _⟩ => show win0_1.index t 1 * 128 + 1 * k.val = k.val; rw [hi.2]; omega

/-- The first bias window's block is the whole row. -/
theorem iblk2_apply (c : Dev nD) (t : Fin cfg0.N) (u : Fin 1) (k : Fin 128) :
    (iblk m c 2 t : Vec F S1x128 .f32) (ix2 u k) = m ((c : Thread nD τ).loc main_arg2) (ix1 k) := by
  have hi := index2 t
  unfold iblk
  rw [View.read_apply]
  show (V m c main_call0_v2 : (⟨S1x128, .f32⟩ : BufTy).Contents (Elt F)) _ = _
  refine (congrArg (V m c main_call0_v2 : (⟨S1x128, .f32⟩ : BufTy).Contents (Elt F))
    (?_ : _ = ix2 u k)).trans (V_v2_apply m c u k)
  funext a
  apply Fin.ext
  match a with
  | ⟨0, _⟩ => show win0_2.index t 0 * 1 + 1 * u.val = u.val; rw [hi.1]; omega
  | ⟨1, _⟩ => show win0_2.index t 1 * 128 + 1 * k.val = k.val; rw [hi.2]; omega

/-- The second weight matrix's block at grid point `t`: the 4000 actions of tile `min t 24`. -/
theorem iblk3_apply (c : Dev nD) (t : Fin cfg0.N) (r : Fin 4000) (k : Fin 128) :
    (iblk m c 3 t : Vec F S4000x128 .f32) (ix2 r k)
      = m ((c : Thread nD τ).loc main_arg3) (ix2 k ⟨4000 * min t.val 24 + r.val, tile_lt t.val r⟩) := by
  have hi := index3 t
  unfold iblk
  rw [View.read_apply]
  show (V m c main_call0_v1 : (⟨S100000x128, .f32⟩ : BufTy).Contents (Elt F)) _ = _
  refine (congrArg (V m c main_call0_v1 : (⟨S100000x128, .f32⟩ : BufTy).Contents (Elt F))
    (?_ : _ = ix2 ⟨4000 * min t.val 24 + r.val, tile_lt t.val r⟩ k)).trans (V_v1_apply m c _ k)
  funext a
  apply Fin.ext
  match a with
  | ⟨0, _⟩ => show win0_3.index t 0 * 4000 + 1 * r.val = 4000 * min t.val 24 + r.val; rw [hi.1]; omega
  | ⟨1, _⟩ => show win0_3.index t 1 * 128 + 1 * k.val = k.val; rw [hi.2]; omega

/-- The second bias window's block is the whole column matrix. -/
theorem iblk4_apply (c : Dev nD) (t : Fin cfg0.N) (r : Fin 4000) (q : Fin 25) :
    (iblk m c 4 t : Vec F S4000x25 .f32) (ix2 r q)
      = m ((c : Thread nD τ).loc main_arg4) (ix1 ⟨4000 * q.val + r.val, flat_lt q r⟩) := by
  have hi := index4 t
  unfold iblk
  rw [View.read_apply]
  show (V m c main_call0_v4 : (⟨S4000x25, .f32⟩ : BufTy).Contents (Elt F)) _ = _
  refine (congrArg (V m c main_call0_v4 : (⟨S4000x25, .f32⟩ : BufTy).Contents (Elt F))
    (?_ : _ = ix2 r q)).trans (V_v4_apply m c r q)
  funext a
  apply Fin.ext
  match a with
  | ⟨0, _⟩ => show win0_4.index t 0 * 4000 + 1 * r.val = r.val; rw [hi.1]; omega
  | ⟨1, _⟩ => show win0_4.index t 1 * 25 + 1 * q.val = q.val; rw [hi.2]; omega

/-! ## The blocks as functions of the index -/

theorem iblk0_eq (c : Dev nD) (t : Fin cfg0.N) :
    (iblk m c 0 t : Vec F S21x128x128 .f32)
      = fun j => m ((c : Thread nD τ).loc main_arg0) (ix3 (j 1) (j 0) (j 2)) := by
  funext j
  obtain ⟨s, b, k, rfl⟩ : ∃ (s : Fin 21) (b k : Fin 128), j = ix3 s b k := ⟨j 0, j 1, j 2, eq_ix3 j⟩
  exact iblk0_apply m c t s b k

theorem iblk1_eq (c : Dev nD) (t : Fin cfg0.N) :
    (iblk m c 1 t : Vec F S256x128 .f32) = m ((c : Thread nD τ).loc main_arg1) := by
  funext j
  obtain ⟨p, k, rfl⟩ : ∃ (p : Fin 256) (k : Fin 128), j = ix2 p k := ⟨j 0, j 1, eq_ix2 j⟩
  exact iblk1_apply m c t p k

theorem iblk2_eq (c : Dev nD) (t : Fin cfg0.N) :
    (iblk m c 2 t : Vec F S1x128 .f32) = fun j => m ((c : Thread nD τ).loc main_arg2) (ix1 (j 1)) := by
  funext j
  obtain ⟨u, k, rfl⟩ : ∃ (u : Fin 1) (k : Fin 128), j = ix2 u k := ⟨j 0, j 1, eq_ix2 j⟩
  exact iblk2_apply m c t u k

theorem iblk3_eq (c : Dev nD) (t : Fin cfg0.N) :
    (iblk m c 3 t : Vec F S4000x128 .f32)
      = fun j => m ((c : Thread nD τ).loc main_arg3)
          (ix2 (j 1) ⟨4000 * min t.val 24 + (j 0).val, tile_lt t.val (j 0)⟩) := by
  funext j
  obtain ⟨r, k, rfl⟩ : ∃ (r : Fin 4000) (k : Fin 128), j = ix2 r k := ⟨j 0, j 1, eq_ix2 j⟩
  exact iblk3_apply m c t r k

theorem iblk4_eq (c : Dev nD) (t : Fin cfg0.N) :
    (iblk m c 4 t : Vec F S4000x25 .f32)
      = fun j => m ((c : Thread nD τ).loc main_arg4) (ix1 ⟨4000 * (j 1).val + (j 0).val, flat_lt (j 1) (j 0)⟩) := by
  funext j
  obtain ⟨r, q, rfl⟩ : ∃ (r : Fin 4000) (q : Fin 25), j = ix2 r q := ⟨j 0, j 1, eq_ix2 j⟩
  exact iblk4_apply m c t r q

end Cert.KernelIdeal.Arrays

end
-- ==== Proof.KernelValueLogits.lean ====
import proofs.«150519_g40793599377725_cont_8to1_b_782_10_alg».proof.Proof.KI.State
import proofs.«150519_g40793599377725_cont_8to1_b_782_10_alg».proof.Proof.KI.Pieces
import proofs.«150519_g40793599377725_cont_8to1_b_782_10_alg».proof.Proof.KernelPayHidden
import proofs.«150519_g40793599377725_cont_8to1_b_782_10_alg».proof.Proof.KernelPayLogit
import proofs.«150519_g40793599377725_cont_8to1_b_782_10_alg».proof.Proof.KernelArrays
import proofs.«150519_g40793599377725_cont_8to1_b_782_10_alg».proof.Proof.Spec
/-!
# The kernel's hidden layer and a tile's logits are the specification's

The first grid point computes the hidden layer from three input blocks that are whole arrays: the states with the time
axis first, the first weight matrix, the first bias as a row. Read at `(b, k)` through those layouts it is the
specification's `hid` of the argument arrays. An accumulating point `t < 25` computes tile `t` of the logits, transposed:
entry `(r, b)` contracts row `4000 t + r` of the second weights (action axis first) with row `b` of the hidden layer and
adds entry `(r, t)` of the bias table, which is the bias of action `4000 t + r`. That is the specification's logit of
action `4000 t + r` in row `b`, with the two factors of each product in the other order.
-/

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- A load of the twenty leading slabs, read at `(t, b, k)`: the block at `(t, b, k)`. -/
theorem slabs_apply (x0 : Vec Ideal S21x128x128 .f32) (t : Fin 20) (b k : Fin 128) :
    View.ld x0 (Rect.unit (s := S21x128x128) ![0, 0, 0] S20x128x128.size inb_S21x128x128_S20x128x128_0_0_0) (ix3 t b k)
      = x0 (ix3 (Fin.castLE (by decide) t : Fin 21) b k) := by
  refine congrArg x0 ?_
  funext a
  apply Fin.ext
  match a with
  | ⟨0, _⟩ => show 0 + 1 * t.val = t.val; omega
  | ⟨1, _⟩ => show 0 + 1 * b.val = b.val; omega
  | ⟨2, _⟩ => show 0 + 1 * k.val = k.val; omega

/-- A load of the last slab, read at `(0, b, k)`: the block at `(20, b, k)`. -/
theorem last_slab_apply (x0 : Vec Ideal S21x128x128 .f32) (u : Fin 1) (b k : Fin 128) :
    View.ld x0 (Rect.unit (s := S21x128x128) ![20, 0, 0] S1x128x128.size inb_S21x128x128_S1x128x128_20_0_0) (ix3 u b k)
      = x0 (ix3 (20 : Fin 21) b k) := by
  refine congrArg x0 ?_
  funext a
  apply Fin.ext
  match a with
  | ⟨0, _⟩ => show 20 + 1 * u.val = 20; have := u.isLt; omega
  | ⟨1, _⟩ => show 0 + 1 * b.val = b.val; omega
  | ⟨2, _⟩ => show 0 + 1 * k.val = k.val; omega

/-- The concatenated features of a states block laid out time first are the specification's of the states it holds. -/
theorem hcat_eq (x0 : Vec Ideal S21x128x128 .f32) (st : Cert.Spec.IStates → EReal)
    (h0 : ∀ (s : Fin 21) (b k : Fin 128), x0 (ix3 s b k) = st (ix3 b s k)) (b : Fin 128) (j : Fin 256) :
    Pay.hcat (View.ld x0 (Rect.unit (s := S21x128x128) ![0, 0, 0] S20x128x128.size inb_S21x128x128_S20x128x128_0_0_0))
        (View.ld x0 (Rect.unit (s := S21x128x128) ![20, 0, 0] S1x128x128.size inb_S21x128x128_S1x128x128_20_0_0)) b j
      = Cert.Spec.hcat st b j := by
  unfold Pay.hcat Cert.Spec.hcat Cert.Spec.ghat Cert.Spec.lit20
  by_cases h : j.val < 128
  · simp only [dif_pos h]
    exact congrArg (Ideal.div · _) (Finset.sum_congr rfl fun t _ => (slabs_apply x0 t b ⟨j.val, h⟩).trans (h0 _ b _))
  · simp only [dif_neg h]
    exact (last_slab_apply x0 0 b _).trans (h0 _ b _)

/-- The hidden layer computed from blocks that hold the argument arrays (the states time first, the bias as a row) is the
    specification's hidden layer of those arrays. -/
theorem hiddenOf_apply (x0 : Vec Ideal S21x128x128 .f32) (x1 : Vec Ideal S256x128 .f32) (x2 : Vec Ideal S1x128 .f32)
    (st : Cert.Spec.IStates → EReal) (W1 : Cert.Spec.IW1 → EReal) (b1 : Cert.Spec.IB1 → EReal)
    (h0 : ∀ (s : Fin 21) (b k : Fin 128), x0 (ix3 s b k) = st (ix3 b s k))
    (h1 : ∀ (j : Fin 256) (k : Fin 128), x1 (ix2 j k) = W1 (ix2 j k))
    (h2 : ∀ (u : Fin 1) (k : Fin 128), x2 (ix2 u k) = b1 (ix1 k)) (b k : Fin 128) :
    Body.hiddenOf x0 x1 x2 (ix2 b k) = Cert.Spec.hid st W1 b1 b k := by
  refine (Pay.k0_pay1_apply _ _ x1 x2 b k).trans ?_
  unfold Cert.Spec.hid
  exact congrArg (max · 0) (congrArg₂ (· + ·)
    (Finset.sum_congr rfl fun j _ => congrArg₂ (· * ·) (hcat_eq x0 st h0 b j) (h1 j k)) (h2 0 k))

/-- What the first point stores is the hidden layer of its three input blocks. -/
theorem Hs_eq : Body.Hs (F := Ideal) m c
    = Body.hiddenOf (iblk m c 0 ⟨0, Body.N_pos⟩) (iblk m c 1 ⟨0, Body.N_pos⟩) (iblk m c 2 ⟨0, Body.N_pos⟩) := by
  unfold Body.Hs Body.runFirst
  exact Body.runA_canonH _ _ _ _ _ _ _ _ _ _ _ _ _ _ _ _ _ _ _ _ _ _ _ _ _ _ _ _ _ _ _ _

/-- THE HIDDEN LAYER the kernel keeps is the specification's, entry by entry. -/
theorem Hs_apply (b k : Fin 128) :
    Body.Hs (F := Ideal) m c (ix2 b k)
      = Cert.Spec.hid (m ((c : Thread nD τ).loc main_arg0)) (m ((c : Thread nD τ).loc main_arg1))
          (m ((c : Thread nD τ).loc main_arg2)) b k := by
  rw [Hs_eq]
  exact hiddenOf_apply _ _ _ _ _ _ (Arrays.iblk0_apply m c _) (Arrays.iblk1_apply m c _) (Arrays.iblk2_apply m c _) b k

/-- The grid has one axis: a point's coordinate is its number. -/
theorem coord_val : ∀ t : Fin cfg0.N, (grid0.coords t 0).val = t.val :=
  (by decide +kernel : ∀ t : Fin grid0.N, (grid0.coords t 0).val = t.val)

/-- Row `r` of tile `i` is an action. -/
theorem tile_row_lt (i : ℕ) (hi : i < 25) (r : Fin 4000) : 4000 * i + r.val < 100000 := by
  have := r.isLt
  omega

/-- The logits of tile `i`, computed from blocks that hold the tile's rows of the second weight matrix (action axis
    first), the second bias (one column per tile) and the hidden layer, are the specification's logits of the tile's
    actions: the products commute. -/
theorem logits_apply (i : ℕ) (hi : i < 25) (x4 : Vec Ideal S4000x25 .f32) (x3 : Vec Ideal S4000x128 .f32)
    (xH : Vec Ideal S128x128 .f32) (st : Cert.Spec.IStates → EReal) (W1 : Cert.Spec.IW1 → EReal) (b1 : Cert.Spec.IB1 → EReal)
    (W2 : Cert.Spec.IW2 → EReal) (b2 : Cert.Spec.IB2 → EReal)
    (h3 : ∀ (r : Fin 4000) (k : Fin 128), x3 (ix2 r k) = W2 (ix2 k (⟨4000 * i + r.val, tile_row_lt i hi r⟩ : Fin 100000)))
    (h4 : ∀ r : Fin 4000, x4 (ix2 r (⟨i, hi⟩ : Fin 25)) = b2 (ix1 (⟨4000 * i + r.val, tile_row_lt i hi r⟩ : Fin 100000)))
    (hH : ∀ b k : Fin 128, xH (ix2 b k) = Cert.Spec.hid st W1 b1 b k) (r : Fin 4000) (b : Fin 128) :
    k0_pay7 (F := Ideal) (BitVec.ofNat 32 i) x4 x3 xH (ix2 r b)
      = Cert.Spec.logit st W1 b1 W2 b2 b ⟨4000 * i + r.val, tile_row_lt i hi r⟩ := by
  refine (Pay.k0_pay7_apply i hi x4 x3 xH r b).trans ?_
  unfold Cert.Spec.logit
  refine congrArg₂ (· + ·) (Finset.sum_congr rfl fun k _ => ?_) (h4 r)
  rw [h3, hH, mul_comm]

/-- THE LOGITS OF TILE `t` as the kernel computes them at an accumulating point are the specification's logits of the
    tile's 4000 actions. -/
theorem tile_logit (t : Fin cfg0.N) (ht : t.val < 25) (r : Fin 4000) (b : Fin 128) :
    k0_pay7 (F := Ideal) (BitVec.ofNat 32 (grid0.coords t 0).val) (iblk m c 4 t) (iblk m c 3 t) (Body.Hs m c) (ix2 r b)
      = Cert.Spec.logit (m ((c : Thread nD τ).loc main_arg0)) (m ((c : Thread nD τ).loc main_arg1))
          (m ((c : Thread nD τ).loc main_arg2)) (m ((c : Thread nD τ).loc main_arg3))
          (m ((c : Thread nD τ).loc main_arg4)) b ⟨4000 * t.val + r.val, tile_row_lt t.val ht r⟩ := by
  rw [coord_val t]
  refine logits_apply t.val ht _ _ _ _ _ _ _ _ (fun r k => ?_) (fun r => ?_) (Hs_apply m c) r b
  · refine (Arrays.iblk3_apply m c t r k).trans (congrArg _ (congrArg (ix2 k) (Fin.ext ?_)))
    show 4000 * min t.val 24 + r.val = 4000 * t.val + r.val
    omega
  · exact Arrays.iblk4_apply m c t r ⟨t.val, ht⟩

end Cert.KernelIdeal.Value

end
-- ==== Proof.KernelValueFinal.lean ====
import proofs.«150519_g40793599377725_cont_8to1_b_782_10_alg».proof.Proof.KernelValueOut
import proofs.«150519_g40793599377725_cont_8to1_b_782_10_alg».proof.Proof.KernelValueLogits

/-!
# The kernel's output array, from finite logits alone

The tile's logits payload on the pipeline's blocks is the specification's logit of the tile's actions; with it the
output array after the run is the softmax of the logits, batch rows and actions exchanged, whenever every logit is a
finite real.
-/

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Body Cert.OnlineSoftmax

variable (m : (ℓ : Loc nD τ sig) → Buf (Elt Ideal) ℓ) (c : Dev nD)

/-- THE OUTPUT ARRAY after the run, at `(n, b)`: the softmax of batch row `b`'s logits at action `n`. -/
theorem final_eq (hfin : ∀ (b : Fin 128) (n : Fin 100000), IsReal (Cert.Spec.logit (m ((c : Thread nD τ).loc main_arg0)) (m ((c : Thread nD τ).loc main_arg1)) (m ((c : Thread nD τ).loc main_arg2)) (m ((c : Thread nD τ).loc main_arg3)) (m ((c : Thread nD τ).loc main_arg4)) b n)) :
    ((dats (F := Ideal) m 0 c).arrAt 5 cfg0.N : (⟨S100000x128, .f32⟩ : BufTy).Contents (Elt Ideal))
      = fun y => Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (ix2 (y 1 : Fin 128) (y 0 : Fin 100000)) :=
  final_eq_of m c hfin fun t ht r b => tile_logit m c t ht r b

end Cert.KernelIdeal.Value

end
-- ==== Proof.FiniteInputs.lean ====
import proofs.«150519_g40793599377725_cont_8to1_b_782_10_alg».proof.Defs
import proofs.«150519_g40793599377725_cont_8to1_b_782_10_alg».proof.Proof.LibOnlineSoftmax
import Idealize.ShloMosaic.Lib.ReduceAll
import Idealize.ShloMosaic.Lib.ValueIdx
import Idealize.ShloMosaic.Lib.Pipeline.Value
import Idealize.ShloMosaic.PureOps.Ideal.Laws
/-!
# The precondition makes every input entry a finite real

The precondition is, for each of the five argument arrays, the reduction by `and` over every index of the comparison
`|x i| < +∞`, the five joined by `and`. Read back: the conjunction gives each reduction, a reduction that is one gives
each comparison, and an extended real whose absolute value is below `+∞` is neither infinity, that is, a real.
-/

noncomputable section

namespace Cert.FiniteInputs

open Idealize.ShloMosaic Idealize.ShloMosaic.ValueIdx Idealize.ShloMosaic.TcCoe Idealize.SL.Sem Cert.OnlineSoftmax

/-- The scalar shape has one index. -/
instance : Subsingleton (⟨0, ![]⟩ : Shape).Idx := ⟨fun _ _ => funext fun d => d.elim0⟩

/-- The binary32 word of plus infinity is the top element. -/
theorem ofBits_pos_inf : Ideal.ofBits .f32 0x7F800000#32 = ⊤ := by simp [Ideal.ofBits, Ideal.ieee]

/-- An extended real whose absolute value compares below plus infinity is a finite real. -/
theorem isReal_of_abs_lt (x : EReal)
    (h : Ideal.cmp .olt (max x (-x)) (Ideal.ofBits .f32 0x7F800000#32) = 1#1) : IsReal x := by
  rw [ofBits_pos_inf] at h
  induction x using EReal.rec with
  | bot => simp [Ideal.cmp] at h
  | coe r => exact ⟨r, rfl⟩
  | top => simp [Ideal.cmp] at h

/-- One conjunct of the precondition: if the reduction by `and` of the comparisons `|x i| < +∞` is one, every
    entry of `x` is a finite real. -/
theorem all_isReal {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : IsReal (x i) := by
  have h1 := Host.reduce_andi_all _ _ hr hu j e i
  have hbc : broadcastInDim s ![] hb (constant (F := Ideal) ⟨0, ![]⟩ .f32 0x7F800000#32) i = Ideal.ofBits .f32 0x7F800000#32 :=
    broadcastInDim_apply _ hb _ i ix0 (fun a => a.elim0)
  rw [cmpf_apply, hbc] at h1
  exact isReal_of_abs_lt (x i) h1

/-- The precondition, as a function of five arrays: when it is one, every entry of every array is a finite real.
    It is a conjunction, by `and`, of one such reduction per array. -/
theorem finite_of_fn [Cert.Pre_finite_inputs.Facts] (a0 : FVec Ideal Cert.Pre_finite_inputs.S128x21x128 .f32)
    (a1 : FVec Ideal Cert.Pre_finite_inputs.S256x128 .f32) (a2 : FVec Ideal Cert.Pre_finite_inputs.S128 .f32)
    (a3 : FVec Ideal Cert.Pre_finite_inputs.S128x100000 .f32) (a4 : FVec Ideal Cert.Pre_finite_inputs.S100000 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_isReal a0 _ _ _ ix0 e0, all_isReal a1 _ _ _ ix0 e1, all_isReal a2 _ _ _ ix0 e2,
    all_isReal a3 _ _ _ ix0 e3, all_isReal a4 _ _ _ ix0 e4⟩

/-- Under the idealized kernel's precondition every entry of its five argument arrays is a finite real, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) :=
  finite_of_fn _ _ _ _ _ (h c)

end Cert.FiniteInputs

end
-- ==== Proof.SpecFinite.lean ====
import proofs.«150519_g40793599377725_cont_8to1_b_782_10_alg».proof.Proof.Spec
import proofs.«150519_g40793599377725_cont_8to1_b_782_10_alg».proof.Proof.LibOnlineSoftmax
/-!
# The logits are finite reals

When every entry of the five argument arrays is a finite real, so is every intermediate quantity of the
specification up to the logits: a mean is a finite sum divided by twenty, a concatenation takes one of two finite
entries, and a layer is a finite sum of products plus a bias, the first one followed by a maximum with zero.
-/

noncomputable section

namespace Cert.Spec

open Idealize.ShloMosaic Idealize.ShloMosaic.ValueIdx Cert.OnlineSoftmax

variable {st : IStates → EReal} {W1 : IW1 → EReal} {b1 : IB1 → EReal} {W2 : IW2 → EReal} {b2 : IB2 → EReal}

/-- The mean of finite reals is a finite real: a finite sum divided by twenty. -/
theorem ghat_isReal (hst : ∀ i, IsReal (st i)) (b k : Fin 128) : IsReal (ghat st b k) := by
  unfold ghat lit20
  rw [ofBits_20]
  exact (IsReal.sum _ fun t _ => hst _).div_coe (by norm_num)

/-- Either half of the concatenation is a finite real. -/
theorem hcat_isReal (hst : ∀ i, IsReal (st i)) (b : Fin 128) (j : Fin 256) : IsReal (hcat st b j) := by
  unfold hcat
  split
  · exact ghat_isReal hst b _
  · exact hst _

/-- The hidden layer of finite reals is a finite real. -/
theorem hid_isReal (hst : ∀ i, IsReal (st i)) (hW1 : ∀ i, IsReal (W1 i)) (hb1 : ∀ i, IsReal (b1 i)) (b k : Fin 128) :
    IsReal (hid st W1 b1 b k) := by
  unfold hid
  exact ((IsReal.sum _ fun j _ => (hcat_isReal hst b j).mul (hW1 _)).add (hb1 _)).max_zero

/-- Every logit is a finite real when every input entry is. -/
theorem logit_isReal (hst : ∀ i, IsReal (st i)) (hW1 : ∀ i, IsReal (W1 i)) (hb1 : ∀ i, IsReal (b1 i))
    (hW2 : ∀ i, IsReal (W2 i)) (hb2 : ∀ i, IsReal (b2 i)) (b : Fin 128) (n : Fin 100000) :
    IsReal (logit st W1 b1 W2 b2 b n) := by
  unfold logit
  exact (IsReal.sum _ fun k _ => (hid_isReal hst hW1 hb1 b k).mul (hW2 _)).add (hb2 _)

end Cert.Spec

end
-- ==== Proof.RefLogits.lean ====
import proofs.«150519_g40793599377725_cont_8to1_b_782_10_alg».proof.Proof.Gen.ReferenceIdeal.Read
import proofs.«150519_g40793599377725_cont_8to1_b_782_10_alg».proof.Proof.Spec
/-!
# The reference's logits

The reference program read at an index, stage by stage, up to the logits: the mean of the first twenty time
steps (a sum from zero over the sliced axis divided by the literal twenty), the last time step, their
concatenation along the feature axis, the hidden layer `max (h · W1 + b1) 0` and the logits `hid · W2 + b2`.
Each stage at the index `(b, k)` is the specification's function of the same name at `b`, `k`: the sums run
over the same coordinates, and the index functions composed along the way are the coordinate constructors.
-/

noncomputable section

namespace Cert.ReferenceIdeal.RefValue

open Cert.ReferenceIdeal Cert.ReferenceIdeal.Gen Cert.ReferenceIdeal.Read Idealize.ShloMosaic Idealize.ShloMosaic.ValueIdx

variable (x0 : (⟨S128x21x128, .f32⟩ : BufTy).Contents (Elt Ideal)) (x1 : (⟨S256x128, .f32⟩ : BufTy).Contents (Elt Ideal))
  (x2 : (⟨S128, .f32⟩ : BufTy).Contents (Elt Ideal)) (x3 : (⟨S128x100000, .f32⟩ : BufTy).Contents (Elt Ideal))
  (x4 : (⟨S100000, .f32⟩ : BufTy).Contents (Elt Ideal))

/-- The mean of the first twenty time steps, as the reference computes it: a sum from zero over the
    sliced axis, divided by the literal twenty. -/
theorem mean_apply (b k : Fin 128) : val_main_v5 (F := Ideal) x0 (ix2 b k) = Cert.Spec.ghat x0 b k := by
  rw [val_main_v5_apply, val_main_v3_apply, val_main_v4_apply, val_main_cst_0_apply, val_main_cst_apply]
  simp only [val_main_v0_apply]
  unfold Cert.Spec.ghat Cert.Spec.lit20
  simp only [Ideal.hostDivf_def, Ideal.ofBits_def, Ideal.ofBits_zero_f32, zero_add]
  refine congrArg (Ideal.div · _) (Finset.sum_congr rfl fun t _ => congrArg x0 ?_)
  funext a
  match a with
  | ⟨0, _⟩ => rfl
  | ⟨1, _⟩ => rfl
  | ⟨2, _⟩ => rfl

/-- The last time step, sliced out and reshaped to a matrix. -/
theorem last_apply (b k : Fin 128) : val_main_v2 (F := Ideal) x0 (ix2 b k) = x0 (ix3 b (20 : Fin 21) k) := by
  rw [val_main_v2_apply, val_main_v1_apply]
  refine congrArg x0 ?_
  funext a
  match a with
  | ⟨0, _⟩ => exact Fin.ext (by show (b.val * 128 + k.val) / 128 = b.val; have := k.isLt; omega)
  | ⟨1, _⟩ => rfl
  | ⟨2, _⟩ => exact Fin.ext (by show (b.val * 128 + k.val) % 128 = k.val; have := k.isLt; omega)

/-- The concatenation along the feature axis: the mean below column 128, the last time step from there on. -/
theorem concat_apply (b : Fin 128) (j : Fin 256) : val_main_v6 (F := Ideal) x0 (ix2 b j) = Cert.Spec.hcat x0 b j := by
  unfold val_main_v6 Cert.Spec.hcat
  by_cases h : j.val < 128
  · rw [dif_pos h]
    refine (concatenate_pair_apply_left (t := S128x256) (s₁ := S128x128) (s₂ := S128x128) (1 : Fin 2) _ _ concatenates_S128x128_S128x128_S128x256_d1 (ix2 b j) rfl
      (ix2 b (⟨j.val, h⟩ : Fin 128) : S128x128.Idx) ?_).trans (mean_apply x0 b ⟨j.val, h⟩)
    intro c
    match c with
    | ⟨0, _⟩ => rfl
    | ⟨1, _⟩ => rfl
  · rw [dif_neg h]
    have hj : j.val - 128 < 128 := by have := j.isLt; omega
    refine (concatenate_pair_apply_right (t := S128x256) (s₁ := S128x128) (s₂ := S128x128) (1 : Fin 2) _ _ concatenates_S128x128_S128x128_S128x256_d1 (ix2 b j) rfl rfl
      (ix2 b (⟨j.val - 128, hj⟩ : Fin 128) : S128x128.Idx) ?_ ?_).trans (last_apply x0 b ⟨j.val - 128, hj⟩)
    · intro c hc
      match c with
      | ⟨0, _⟩ => rfl
      | ⟨1, _⟩ => exact absurd rfl hc
    · show j.val - 128 + 128 = j.val
      omega

/-- The hidden layer: the first product, the bias, the rectifier. -/
theorem hidden_apply (b k : Fin 128) :
    val_main_v11 (F := Ideal) x0 x1 x2 (ix2 b k) = Cert.Spec.hid x0 x1 x2 b k := by
  rw [val_main_v11_apply, val_main_v10_apply, val_main_v7_apply, val_main_v9_apply, val_main_v8_apply,
    val_main_call0_v0_apply, val_main_call0_cst_apply]
  unfold Cert.Spec.hid
  simp only [Ideal.maximumf_def, Ideal.addf_def, Ideal.ofBits_def, Ideal.ofBits_zero_f32]
  refine congrArg (max · 0) (congrArg₂ (· + ·) (Finset.sum_congr rfl fun j _ => ?_) (congrArg x2 ?_))
  · have el : lidx_main_v7 (ix2 b k) j = ix2 b j := funext fun a => by
      match a with
      | ⟨0, _⟩ => rfl
      | ⟨1, _⟩ => rfl
    have er : ridx_main_v7 (ix2 b k) j = ix2 j k := funext fun a => by
      match a with
      | ⟨0, _⟩ => rfl
      | ⟨1, _⟩ => rfl
    rw [el, er, concat_apply]
  · funext a
    match a with
    | ⟨0, _⟩ => rfl

/-- The logits: the second product and its bias. -/
theorem logit_apply (b : Fin 128) (n : Fin 100000) :
    val_main_v15 (F := Ideal) x0 x1 x2 x3 x4 (ix2 b n) = Cert.Spec.logit x0 x1 x2 x3 x4 b n := by
  rw [val_main_v15_apply, val_main_v12_apply, val_main_v14_apply, val_main_v13_apply]
  unfold Cert.Spec.logit
  simp only [Ideal.addf_def]
  refine congrArg₂ (· + ·) (Finset.sum_congr rfl fun k _ => ?_) (congrArg x4 ?_)
  · have el : lidx_main_v12 (ix2 b n) k = ix2 b k := funext fun a => by
      match a with
      | ⟨0, _⟩ => rfl
      | ⟨1, _⟩ => rfl
    have er : ridx_main_v12 (ix2 b n) k = ix2 k n := funext fun a => by
      match a with
      | ⟨0, _⟩ => rfl
      | ⟨1, _⟩ => rfl
    rw [el, er, hidden_apply]
  · funext a
    match a with
    | ⟨0, _⟩ => rfl

end Cert.ReferenceIdeal.RefValue

end
-- ==== Proof.RefValue.lean ====
import proofs.«150519_g40793599377725_cont_8to1_b_782_10_alg».proof.Proof.Gen.ReferenceIdeal.Read
import proofs.«150519_g40793599377725_cont_8to1_b_782_10_alg».proof.Proof.Spec
import proofs.«150519_g40793599377725_cont_8to1_b_782_10_alg».proof.Proof.RefLogits
/-!
# The reference's result is the specification

From the logits on: the row maximum is a fold of `max` from minus infinity over the action axis, that is, the
supremum of the row's logits; a further maximum with minus infinity changes nothing; the shifted logits are
exponentiated, summed from zero along the row, and each exponential is divided by its row's sum. Read at the index
`(b, n)` the result array is the specification's softmax `G` of the five argument arrays.
-/

noncomputable section

namespace Cert.ReferenceIdeal.RefValue

open Cert.ReferenceIdeal Cert.ReferenceIdeal.Gen Idealize.ShloMosaic.TcCoe Idealize.SL.Sem Cert.ReferenceIdeal.Read Idealize.ShloMosaic Idealize.ShloMosaic.ValueIdx

variable (x0 : (⟨S128x21x128, .f32⟩ : BufTy).Contents (Elt Ideal)) (x1 : (⟨S256x128, .f32⟩ : BufTy).Contents (Elt Ideal))
  (x2 : (⟨S128, .f32⟩ : BufTy).Contents (Elt Ideal)) (x3 : (⟨S128x100000, .f32⟩ : BufTy).Contents (Elt Ideal))
  (x4 : (⟨S100000, .f32⟩ : BufTy).Contents (Elt Ideal))

/-- A fold of `max` from the bottom element is the supremum. -/
theorem fold_maximumf_eq_sup {ι : Type} (s : Finset ι) (f : ι → EReal) :
    s.fold (FloatOps.maximumf (F := Ideal) (φ := .f32)) (⊥ : EReal) f = s.sup f := by
  classical
  induction s using Finset.induction_on with
  | empty => rfl
  | insert a s ha ih => rw [Finset.fold_insert ha, Finset.sup_insert, ih]; rfl

/-- The binary32 word of minus infinity is the bottom element. -/
theorem ofBits_neg_inf : Ideal.ofBits .f32 0xFF800000#32 = ⊥ := by simp [Ideal.ofBits, Ideal.ieee]

/-- A fold of `max` from the word of minus infinity, over values that are pointwise those of `g`, is the supremum of `g`. -/
theorem fold_maximumf_neg_inf {ι : Type} (s : Finset ι) (f g : ι → EReal) (h : ∀ i, f i = g i) :
    s.fold (FloatOps.maximumf (F := Ideal) (φ := .f32)) (FloatOps.ofBits (F := Ideal) .f32 0xFF800000#32) f = s.sup g := by
  rw [show f = g from funext h]
  exact (congrArg (fun z => s.fold (FloatOps.maximumf (F := Ideal) (φ := .f32)) z g) ofBits_neg_inf).trans
    (fold_maximumf_eq_sup s g)

/-- The largest logit of a row, as the reference computes it: a fold of `max` from minus infinity over the action axis. -/
theorem rowMax_apply (b : Fin 128) :
    val_main_v16 (F := Ideal) x0 x1 x2 x3 x4 (ix1 b) = Cert.Spec.rowMax x0 x1 x2 x3 x4 b := by
  have hR : S128x100000.Reduces [1] S128 := by decide
  have hl : ∀ n : Fin 100000, hR.lift (ix1 b) n = ix2 b n := fun n => funext fun a => by
    match a with
    | ⟨0, _⟩ => rfl
    | ⟨1, _⟩ => rfl
  unfold val_main_v16 Cert.Spec.rowMax
  rw [Host.reduce_eq_fold_single FloatOps.maximumf _ _ reducesTo_S128x100000_S128_d1 hR h_S_, val_main_cst_1_apply]
  exact fold_maximumf_neg_inf _ _ _ fun n =>
    (congrArg (val_main_v15 (F := Ideal) x0 x1 x2 x3 x4) (hl n)).trans (logit_apply x0 x1 x2 x3 x4 b n)

/-- What the reference subtracts from the logits: the row maximum, guarded by a maximum with minus infinity and
    broadcast along the row. -/
theorem shift_apply (b : Fin 128) (n : Fin 100000) :
    val_main_v20 (F := Ideal) x0 x1 x2 x3 x4 (ix2 b n) = Cert.Spec.rowMax x0 x1 x2 x3 x4 b := by
  rw [val_main_v20_apply, val_main_v19_apply, val_main_v18_apply, val_main_v17_apply, val_main_cst_2_apply]
  have e : idx_main_v19 (idx_main_v20 (ix2 b n)) = ix1 b := funext fun a => by
    match a with
    | ⟨0, _⟩ => rfl
  rw [e, rowMax_apply]
  simp only [Ideal.maximumf_def, Ideal.ofBits_def]
  rw [ofBits_neg_inf]
  exact max_eq_right bot_le

/-- The exponential of the shifted logit. -/
theorem expShift_apply (b : Fin 128) (n : Fin 100000) :
    val_main_v22 (F := Ideal) x0 x1 x2 x3 x4 (ix2 b n)
      = Ideal.exp (Cert.Spec.logit x0 x1 x2 x3 x4 b n - Cert.Spec.rowMax x0 x1 x2 x3 x4 b) := by
  rw [val_main_v22_apply, val_main_v21_apply, logit_apply, shift_apply]
  rfl

/-- The normaliser of a row: the sum from zero of the exponentials over the action axis. -/
theorem rowSum_apply (b : Fin 128) :
    val_main_v23 (F := Ideal) x0 x1 x2 x3 x4 (ix1 b) = Cert.Spec.rowSum x0 x1 x2 x3 x4 b := by
  rw [val_main_v23_apply, val_main_cst_3_apply]
  unfold Cert.Spec.rowSum
  simp only [Ideal.ofBits_def, Ideal.ofBits_zero_f32, zero_add]
  refine Finset.sum_congr rfl fun n _ => ?_
  have e : idx_main_v23 (ix1 b) n = ix2 b n := funext fun a => by
    match a with
    | ⟨0, _⟩ => rfl
    | ⟨1, _⟩ => rfl
  rw [e, expShift_apply]

/-- The reference's result at an index: the softmax of the logits. -/
theorem softmax_apply (b : Fin 128) (n : Fin 100000) :
    val_main_v26 (F := Ideal) x0 x1 x2 x3 x4 (ix2 b n) = Cert.Spec.G x0 x1 x2 x3 x4 (ix2 b n) := by
  rw [val_main_v26_apply, val_main_v25_apply, val_main_v24_apply, expShift_apply]
  have e : idx_main_v24 (idx_main_v25 (ix2 b n)) = ix1 b := funext fun a => by
    match a with
    | ⟨0, _⟩ => rfl
  rw [e, rowSum_apply]
  rfl

/-- The reference's result array is the specification's function of its five argument arrays. -/
theorem result_eq (m : (ℓ : Loc nD τ sig) → Buf (Elt Ideal) ℓ) (c : Dev nD) :
    Cert.ReferenceIdeal.Value.res_out0 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  funext i
  obtain ⟨b, n, rfl⟩ : ∃ (b : Fin 128) (n : Fin 100000), i = ix2 b n := ⟨i 0, i 1, eq_ix2 i⟩
  exact (congrFun (val_main_v26_eq (F := Ideal) m c) (ix2 b n)).trans (softmax_apply _ _ _ _ _ b n)

end Cert.ReferenceIdeal.RefValue

end
-- ==== Proof.Algebraic.lean ====
import proofs.«150519_g40793599377725_cont_8to1_b_782_10_alg».proof.Defs
import proofs.«150519_g40793599377725_cont_8to1_b_782_10_alg».proof.Proof.Gen.Kernel
import proofs.«150519_g40793599377725_cont_8to1_b_782_10_alg».proof.Proof.Gen.KernelIdeal
import proofs.«150519_g40793599377725_cont_8to1_b_782_10_alg».proof.Proof.Gen.KernelIdeal.Frame
import proofs.«150519_g40793599377725_cont_8to1_b_782_10_alg».proof.Proof.Gen.ReferenceIdeal
import proofs.«150519_g40793599377725_cont_8to1_b_782_10_alg».proof.Proof.Gen.Pre_finite_inputs
import proofs.«150519_g40793599377725_cont_8to1_b_782_10_alg».proof.Proof.K.Obligation
import proofs.«150519_g40793599377725_cont_8to1_b_782_10_alg».proof.Proof.KI.Obligation
import proofs.«150519_g40793599377725_cont_8to1_b_782_10_alg».proof.Proof.KernelTail
import proofs.«150519_g40793599377725_cont_8to1_b_782_10_alg».proof.Proof.KernelValueFinal
import proofs.«150519_g40793599377725_cont_8to1_b_782_10_alg».proof.Proof.FiniteInputs
import proofs.«150519_g40793599377725_cont_8to1_b_782_10_alg».proof.Proof.SpecFinite
import proofs.«150519_g40793599377725_cont_8to1_b_782_10_alg».proof.Proof.RefValue

/-!
# The five claims

The two kernels' frames come from the pipeline's launch theorem over the body's run at every grid point; the reference's
frame is its run with the result dropped; the idealization rewrote nothing. For the value claim, both idealized programs
end with one function of the five argument arrays in their result arrays: the softmax, over 100000 actions, of the
two-layer perceptron's logits. The kernel's output array holds it with the actions first, and one transpose follows the
kernel; the online rescaling equals the plain softmax because every logit is a finite real, which the precondition on the
inputs gives. The reference computes the same function directly, from arguments that agree with the kernel's.
-/

noncomputable section

namespace Cert.Proof.Claims

open Idealize.ShloMosaic Idealize.ShloMosaic.TcCoe Idealize.SL.Sem Idealize.ShloMosaic.ValueIdx

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's frame. -/
theorem frame_pi : Cert.frame_KernelIdeal := fun m ρ _ => Cert.KernelIdeal.Body.frame m ρ

/-- The word-level kernel's frame. -/
theorem frame_p : Cert.frame_Kernel := fun m ρ _ => Cert.Kernel.Body.frame m ρ

/-- The idealization rewrote nothing. -/
theorem preserves : Cert.preserves_Kernel_KernelIdeal := trivial

/-- Both programs end with the softmax `Cert.Spec.G` of the five argument arrays in their result arrays: the kernel's
    output array holds it transposed and one transpose follows the kernel; the reference computes it directly. The
    kernel side needs every logit to be a finite real, which the precondition gives. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Body.run_main (F := Ideal) m ρ)
    obtain ⟨hst, hW1, hb1, hW2, hb2⟩ := Cert.FiniteInputs.finite_of_pre m hpre c
    refine ⟨?_,
      ((h c).2 Cert.KernelIdeal.main_arg0 (Pipeline.mem_restRefs_of Cert.KernelIdeal.main_arg0 (by decide) (by decide))).trans
        (Cert.KernelIdeal.Gen.W_main_arg0 m (Cert.KernelIdeal.Body.dats m) c),
      ((h c).1 1).trans (((Cert.KernelIdeal.Body.dats m 0 c).arrAt_in 1 rfl _).trans
        ((Cert.KernelIdeal.Body.A_eq m c 1).trans (Cert.KernelIdeal.Gen.V_main_arg1 m c))),
      ((h c).2 Cert.KernelIdeal.main_arg2 (Pipeline.mem_restRefs_of Cert.KernelIdeal.main_arg2 (by decide) (by decide))).trans
        (Cert.KernelIdeal.Gen.W_main_arg2 m (Cert.KernelIdeal.Body.dats m) c),
      ((h c).2 Cert.KernelIdeal.main_arg3 (Pipeline.mem_restRefs_of Cert.KernelIdeal.main_arg3 (by decide) (by decide))).trans
        (Cert.KernelIdeal.Gen.W_main_arg3 m (Cert.KernelIdeal.Body.dats m) c),
      ((h c).2 Cert.KernelIdeal.main_arg4 (Pipeline.mem_restRefs_of Cert.KernelIdeal.main_arg4 (by decide) (by decide))).trans
        (Cert.KernelIdeal.Gen.W_main_arg4 m (Cert.KernelIdeal.Body.dats m) c)⟩
    refine ((h c).2 Cert.KernelIdeal.main_v0 (Pipeline.mem_restRefs_of Cert.KernelIdeal.main_v0 (by decide) (by decide))).trans ?_
    funext i
    obtain ⟨b, n, rfl⟩ : ∃ (b : Fin 128) (n : Fin 100000), i = ix2 b n := ⟨i 0, i 1, eq_ix2 i⟩
    refine (Cert.KernelIdeal.Arrays.tail_apply m (Cert.KernelIdeal.Body.dats m) c b n).trans ?_
    exact congrFun (Cert.KernelIdeal.Value.final_eq m c
      (fun b n => Cert.Spec.logit_isReal hst hW1 hb1 hW2 hb2 b n)) (ix2 n b)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq m' c).trans ?_
    rw [(hagree c).1, (hagree c).2.1, (hagree c).2.2.1, (hagree c).2.2.2.1, (hagree c).2.2.2.2]

end Cert.Proof.Claims

end
-- ==== Proof.lean ====
/- The certificate of the online-softmax kernel: the three programs run and keep their argument arrays, and at the
   extended reals the kernel's result and the reference's are one function of the five argument arrays, the softmax of a
   two-layer perceptron over the mean of twenty time steps and the last one. -/
import proofs.«150519_g40793599377725_cont_8to1_b_782_10_alg».proof.Defs
import proofs.«150519_g40793599377725_cont_8to1_b_782_10_alg».proof.Proof.Gen.Kernel
import proofs.«150519_g40793599377725_cont_8to1_b_782_10_alg».proof.Proof.Gen.KernelIdeal
import proofs.«150519_g40793599377725_cont_8to1_b_782_10_alg».proof.Proof.Gen.ReferenceIdeal
import proofs.«150519_g40793599377725_cont_8to1_b_782_10_alg».proof.Proof.Gen.Pre_finite_inputs
import proofs.«150519_g40793599377725_cont_8to1_b_782_10_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic⟩

end Cert.Proof

end
